-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v137) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S1600000 : Shape := ⟨1, ![1600000]⟩
abbrev S64x64 : Shape := ⟨2, ![64, 64]⟩
abbrev S64 : Shape := ⟨1, ![64]⟩
abbrev S128x64 : Shape := ⟨2, ![128, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S128x64 : S_.BroadcastsInDim S128x64 (![] : Fin 0 → Fin S128x64.rank)
  reducesTo_S128x64_S_d0_1 : S128x64.ReducesTo [0, 1] S_

variable [Facts]

def fn_part3 {F : FTy → Type} [FloatOps F] (main_arg12 : FVec F S128x64 .f32) (main_arg13 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S128x64 .f32 := Host.absf main_arg12
  let main_cst_20 : FVec F S_ .f32 := constant S_ .f32 0x7F800000#32
  let main_v55 : FVec F S128x64 .f32 := broadcastInDim S128x64 ![] bcast_S_S128x64 main_cst_20
  let main_v56 : IVec S128x64 1 := cmpf .olt main_v54 main_v55
  let main_c_21 : IVec S_ 1 := constantI S_ 1 1#1
  let main_v57 : IVec S_ 1 := (fun x v => Host.reduce IntOp.andi x v reducesTo_S128x64_S_d0_1 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  main_v63

def fn_part2 {F : FTy → Type} [FloatOps F] (main_arg8 : FVec F S128x64 .f32) (main_arg9 : FVec F S64 .f32) (main_arg10 : FVec F S128x64 .f32) (main_arg11 : FVec F S64 .f32) (main_arg12 : FVec F S128x64 .f32) (main_arg13 : FVec F S64 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S128x64 .f32 := Host.absf main_arg10
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg12 main_arg13 main_v48 main_v49 main_v50

def fn_part1 {F : FTy → Type} [FloatOps F] (main_arg5 : FVec F S64 .f32) (main_arg6 : FVec F S64x64 .f32) (main_arg7 : FVec F S64 .f32) (main_arg8 : FVec F S128x64 .f32) (main_arg9 : FVec F S64 .f32) (main_arg10 : FVec F S128x64 .f32) (main_arg11 : FVec F S64 .f32) (main_arg12 : FVec F S128x64 .f32) (main_arg13 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S100000x64 .f32) (main_arg1 : IVec S2x1600000 32) (main_arg2 : FVec F S1600000 .f32) (main_arg3 : FVec F S100000x64 .f32) (main_arg4 : FVec F S64x64 .f32) (main_arg5 : FVec F S64 .f32) (main_arg6 : FVec F S64x64 .f32) (main_arg7 : FVec F S64 .f32) (main_arg8 : FVec F S128x64 .f32) (main_arg9 : FVec F S64 .f32) (main_arg10 : FVec F S128x64 .f32) (main_arg11 : FVec F S64 .f32) (main_arg12 : FVec F S128x64 .f32) (main_arg13 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S100000x64 .f32 := Host.absf main_arg3
  let main_cst_2 : FVec F S_ .f32 := constant S_ .f32 0x7F800000#32
  let main_v10 : FVec F S100000x64 .f32 := broadcastInDim S100000x64 ![] bcast_S_S100000x64 main_cst_2
  let main_v11 : IVec S100000x64 1 := cmpf .olt main_v9 main_v10
  let main_c_3 : IVec S_ 1 := constantI S_ 1 1#1
  let main_v12 : IVec S_ 1 := (fun x v => Host.reduce IntOp.andi x v reducesTo_S100000x64_S_d0_1 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_arg10 main_arg11 main_arg12 main_arg13 main_v13 main_v16
-- ==== Kernel.lean ====
abbrev S100000x64 : Shape := ⟨2, ![100000, 64]⟩
abbrev S2x1600000 : Shape := ⟨2, ![2, 1600000]⟩
abbrev S1600000 : Shape := ⟨1, ![1600000]⟩
abbrev S64x64 : Shape := ⟨2, ![64, 64]⟩
abbrev S64 : Shape := ⟨1, ![64]⟩
abbrev S128x64 : Shape := ⟨2, ![128, 64]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S5000x64 : Shape := ⟨2, ![5000, 64]⟩
abbrev S1700000x64 : Shape := ⟨2, ![1700000, 64]⟩
abbrev S1x64 : Shape := ⟨2, ![1, 64]⟩

abbrev nBuf : Space → Nat
  | .hbm => 104
  | .vmem => 35
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000, .f32⟩
  | .hbm, ⟨3, _⟩ => ⟨S100000x64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S128x64, .f32⟩
  | .hbm, ⟨9, _⟩ => ⟨S64, .f32⟩
  | .hbm, ⟨10, _⟩ => ⟨S128x64, .f32⟩
  | .hbm, ⟨11, _⟩ => ⟨S64, .f32⟩
  | .hbm, ⟨12, _⟩ => ⟨S128x64, .f32⟩
  | .hbm, ⟨13, _⟩ => ⟨S64, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S100000, .i32⟩
  | .hbm, ⟨19, _⟩ => ⟨S1700000, .i32⟩
  | .hbm, ⟨20, _⟩ => ⟨S1700000, .i32⟩
  | .hbm, ⟨21, _⟩ => ⟨S_, .f32⟩
  | .hbm, ⟨22, _⟩ => ⟨S100000, .f32⟩
  | .hbm, ⟨23, _⟩ => ⟨S1700000, .f32⟩
  | .hbm, ⟨24, _⟩ => ⟨S_, .f32⟩
  | .hbm, ⟨25, _⟩ => ⟨S100000, .f32⟩
  | .hbm, ⟨26, _⟩ => ⟨S1700000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .i1⟩
  | .hbm, ⟨31, _⟩ => ⟨S100000, .f32⟩
  | .hbm, ⟨32, _⟩ => ⟨S_, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S_, .i32⟩
  | .hbm, ⟨47, _⟩ => ⟨S1700000, .i32⟩
  | .hbm, ⟨48, _⟩ => ⟨S1700000, .i1⟩
  | .hbm, ⟨49, _⟩ => ⟨S_, .i32⟩
  | .hbm, ⟨50, _⟩ => ⟨S1700000, .i32⟩
  | .hbm, ⟨51, _⟩ => ⟨S1700000, .i32⟩
  | .hbm, ⟨52, _⟩ => ⟨S1700000, .i32⟩
  | .hbm, ⟨53, _⟩ => ⟨S1700000x1, .i32⟩
  | .hbm, ⟨54, _⟩ => ⟨S1700000, .f32⟩
  | .hbm, ⟨55, _⟩ => ⟨S1700000, .f32⟩
  | .hbm, ⟨56, _⟩ => ⟨S100000x64, .f32⟩
  | .hbm, ⟨57, _⟩ => ⟨S1700000x1, .f32⟩
  | .hbm, ⟨58, _⟩ => ⟨S_, .i32⟩
  | .hbm, ⟨59, _⟩ => ⟨S1700000, .i32⟩
  | .hbm, ⟨60, _⟩ => ⟨S1700000, .i1⟩
  | .hbm, ⟨61, _⟩ => ⟨S_, .i32⟩
  | .hbm, ⟨62, _⟩ => ⟨S1700000, .i32⟩
  | .hbm, ⟨63, _⟩ => ⟨S1700000, .i32⟩
  | .hbm, ⟨64, _⟩ => ⟨S1700000, .i32⟩
  | .hbm, ⟨65, _⟩ => ⟨S1700000x1, .i32⟩
  | .hbm, ⟨66, _⟩ => ⟨S1700000x64, .f32⟩
  | .hbm, ⟨67, _⟩ => ⟨S1700000x64, .f32⟩
  | .hbm, ⟨68, _⟩ => ⟨S1700000x64, .f32⟩
  | .hbm, ⟨69, _⟩ => ⟨S_, .f32⟩
  | .hbm, ⟨70, _⟩ => ⟨S100000x64, .f32⟩
  | .hbm, ⟨71, _⟩ => ⟨S1700000x1, .i32⟩
  | .hbm, ⟨72, _⟩ => ⟨S100000x64, .f32⟩
  | .hbm, ⟨73, _⟩ => ⟨S1x64, .f32⟩
  | .hbm, ⟨74, _⟩ => ⟨S100000x64, .f32⟩
  | .hbm, ⟨75, _⟩ => ⟨S100000x64, .f32⟩
  | .hbm, ⟨76, _⟩ => ⟨S1700000x1, .f32⟩
  | .hbm, ⟨77, _⟩ => ⟨S_, .i32⟩
  | .hbm, ⟨78, _⟩ => ⟨S1700000, .i32⟩
  | .hbm, ⟨79, _⟩ => ⟨S1700000, .i1⟩
  | .hbm, ⟨80, _⟩ => ⟨S_, .i32⟩
  | .hbm, ⟨81, _⟩ => ⟨S1700000, .i32⟩
  | .hbm, ⟨82, _⟩ => ⟨S1700000, .i32⟩
  | .hbm, ⟨83, _⟩ => ⟨S1700000, .i32⟩
  | .hbm, ⟨84, _⟩ => ⟨S1700000x1, .i32⟩
  | .hbm, ⟨85, _⟩ => ⟨S1700000x64, .f32⟩
  | .hbm, ⟨86, _⟩ => ⟨S1700000x64, .f32⟩
  | .hbm, ⟨87, _⟩ => ⟨S1700000x64, .f32⟩
  | .hbm, ⟨88, _⟩ => ⟨S_, .f32⟩
  | .hbm, ⟨89, _⟩ => ⟨S100000x64, .f32⟩
  | .hbm, ⟨90, _⟩ => ⟨S1700000x1, .i32⟩
  | .hbm, ⟨91, _⟩ => ⟨S100000x64, .f32⟩
  | .hbm, ⟨92, _⟩ => ⟨S1x64, .f32⟩
  | .hbm, ⟨93, _⟩ => ⟨S100000x64, .f32⟩
  | .hbm, ⟨94, _⟩ => ⟨S64x64, .f32⟩
  | .hbm, ⟨95, _⟩ => ⟨S64x64, .f32⟩
  | .hbm, ⟨96, _⟩ => ⟨S64x64, .f32⟩
  | .hbm, ⟨97, _⟩ => ⟨S64x64, .f32⟩
  | .hbm, ⟨98, _⟩ => ⟨S64x64, .f32⟩
  | .hbm, ⟨99, _⟩ => ⟨S64x64, .f32⟩
  | .hbm, ⟨100, _⟩ => ⟨S1x64, .f32⟩
  | .hbm, ⟨101, _⟩ => ⟨S1x64, .f32⟩
  | .hbm, ⟨102, _⟩ => ⟨S1x64, .f32⟩
  | .hbm, ⟨103, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S64x64, .f32⟩
  | .local _ .vmem, ⟨25, _⟩ => ⟨S64x64, .f32⟩
  | .local _ .vmem, ⟨26, _⟩ => ⟨S1x64, .f32⟩
  | .local _ .vmem, ⟨27, _⟩ => ⟨S64x64, .f32⟩
  | .local _ .vmem, ⟨28, _⟩ => ⟨S64x64, .f32⟩
  | .local _ .vmem, ⟨29, _⟩ => ⟨S1x64, .f32⟩
  | .local _ .vmem, ⟨30, _⟩ => ⟨S64x64, .f32⟩
  | .local _ .vmem, ⟨31, _⟩ => ⟨S64x64, .f32⟩
  | .local _ .vmem, ⟨32, _⟩ => ⟨S1x64, .f32⟩
  | .local _ .vmem, ⟨33, _⟩ => ⟨S5000x64, .f32⟩
  | .local _ .vmem, ⟨34, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_v15 : Ref sig .tc := ⟨.hbm, 35, rfl⟩
abbrev main_c : Ref sig .tc := ⟨.hbm, 36, rfl⟩
abbrev main_v16 : Ref sig .tc := ⟨.hbm, 37, rfl⟩
abbrev main_v17 : Ref sig .tc := ⟨.hbm, 38, rfl⟩
abbrev main_c_3 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_c_4 : Ref sig .tc := ⟨.hbm, 46, rfl⟩
abbrev main_v24 : Ref sig .tc := ⟨.hbm, 47, rfl⟩
abbrev main_v25 : Ref sig .tc := ⟨.hbm, 48, rfl⟩
abbrev main_c_5 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_c_6 : Ref sig .tc := ⟨.hbm, 58, rfl⟩
abbrev main_v34 : Ref sig .tc := ⟨.hbm, 59, rfl⟩
abbrev main_v35 : Ref sig .tc := ⟨.hbm, 60, rfl⟩
abbrev main_c_7 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_8 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_c_9 : Ref sig .tc := ⟨.hbm, 77, rfl⟩
abbrev main_v50 : Ref sig .tc := ⟨.hbm, 78, rfl⟩
abbrev main_v51 : Ref sig .tc := ⟨.hbm, 79, rfl⟩
abbrev main_c_10 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_11 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg1_1 : Ref sig .tc := ⟨.vmem, 23, rfl⟩
abbrev cc4_stg2_0 : Ref sig .tc := ⟨.vmem, 24, rfl⟩
abbrev cc4_stg3_0 : Ref sig .tc := ⟨.vmem, 25, rfl⟩
abbrev cc4_stg4_0 : Ref sig .tc := ⟨.vmem, 26, rfl⟩
abbrev cc4_stg5_0 : Ref sig .tc := ⟨.vmem, 27, rfl⟩
abbrev cc4_stg6_0 : Ref sig .tc := ⟨.vmem, 28, rfl⟩
abbrev cc4_stg7_0 : Ref sig .tc := ⟨.vmem, 29, rfl⟩
abbrev cc4_stg8_0 : Ref sig .tc := ⟨.vmem, 30, rfl⟩
abbrev cc4_stg9_0 : Ref sig .tc := ⟨.vmem, 31, rfl⟩
abbrev cc4_stg10_0 : Ref sig .tc := ⟨.vmem, 32, rfl⟩
abbrev cc4_stg11_0 : Ref sig .tc := ⟨.vmem, 33, rfl⟩
abbrev cc4_stg11_1 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem1_1 : DmaSem sig := 23
abbrev cc4_sem2_0 : DmaSem sig := 24
abbrev cc4_sem3_0 : DmaSem sig := 25
abbrev cc4_sem4_0 : DmaSem sig := 26
abbrev cc4_sem5_0 : DmaSem sig := 27
abbrev cc4_sem6_0 : DmaSem sig := 28
abbrev cc4_sem7_0 : DmaSem sig := 29
abbrev cc4_sem8_0 : DmaSem sig := 30
abbrev cc4_sem9_0 : DmaSem sig := 31
abbrev cc4_sem10_0 : DmaSem sig := 32
abbrev cc4_sem11_0 : DmaSem sig := 33
abbrev cc4_sem11_1 : DmaSem sig := 34

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_11 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S64x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S64x64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x64 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S64x64 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S64x64 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 1 → Memref sig .tc .vmem S1x64 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false]

abbrev stage4_11 : Fin 2 → Memref sig .tc .vmem S5000x64 .f32 := fun | 0 => Memref.whole cc4_stg11_0 | 1 => Memref.whole cc4_stg11_1 | ⟨_ + 2, h⟩ => absurd h (Nat.not_lt.2 (Nat.le_add_left _ _))
abbrev sem4_11 : Fin 2 → DmaSem sig := fun | 0 => cc4_sem11_0 | 1 => cc4_sem11_1 | ⟨_ + 2, h⟩ => absurd h (Nat.not_lt.2 (Nat.le_add_left _ _))
abbrev reads4_11 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  slices_S128x64_S64x64_0_0 : S128x64.Slices ![0, 0] S64x64
  slices_S128x64_S64x64_64_0 : S128x64.Slices ![64, 0] S64x64
  shapeCasts_S64x64_S64x64 : S64x64.ShapeCasts S64x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x64_S64x64_S5000x64_1_0_0_1_n_n_wf : DotDims.WF S5000x64 S64x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S100000x64.size a
  hwx4_1 : ∀ i : grid4.Coords, EltTy.bits .f32 = 32 ∨ (Rect.block (s := S100000x64) S5000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x64.size a ≤ S64x64.size a
  hwx4_3 : ∀ i : grid4.Coords, EltTy.bits .f32 = 32 ∨ (Rect.block (s := S64x64) S64x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S64x64.size a ≤ S64x64.size a
  hwx4_5 : ∀ i : grid4.Coords, EltTy.bits .f32 = 32 ∨ (Rect.block (s := S64x64) S64x64.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S64x64.size a ≤ S64x64.size a
  hwx4_6 : ∀ i : grid4.Coords, EltTy.bits .f32 = 32 ∨ (Rect.block (s := S64x64) S64x64.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x64.size a ≤ S1x64.size a
  hwx4_7 : ∀ i : grid4.Coords, EltTy.bits .f32 = 32 ∨ (Rect.block (s := S1x64) S1x64.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S64x64.size a ≤ S64x64.size a
  hwx4_8 : ∀ i : grid4.Coords, EltTy.bits .f32 = 32 ∨ (Rect.block (s := S64x64) S64x64.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S64x64.size a ≤ S64x64.size a
  hwx4_9 : ∀ i : grid4.Coords, EltTy.bits .f32 = 32 ∨ (Rect.block (s := S64x64) S64x64.size (cc4_transform_9 i) (hinb4_9 i)).WholeWords (EltTy.packing .f32)
  hstage4_10 : ∀ j, (stage4_10 j).IsWhole
  nbuf4_10 : grid4.bufCount reads4_10 true = 1
  hreads4_10 : ∀ i i' : grid4.Coords, (∀ a, reads4_10 a = true → i a = i' a) → cc4_transform_10 i = cc4_transform_10 i'
  hinb4_10 : ∀ (i : grid4.Coords) a, (cc4_transform_10 i a + 1) * S1x64.size a ≤ S1x64.size a
  hwx4_10 : ∀ i : grid4.Coords, EltTy.bits .f32 = 32 ∨ (Rect.block (s := S1x64) S1x64.size (cc4_transform_10 i) (hinb4_10 i)).WholeWords (EltTy.packing .f32)
  hstage4_11 : ∀ j, (stage4_11 j).IsWhole
  nbuf4_11 : grid4.bufCount reads4_11 false = 2
  hreads4_11 : ∀ i i' : grid4.Coords, (∀ a, reads4_11 a = true → i a = i' a) → cc4_transform_11 i = cc4_transform_11 i'
  hinb4_11 : ∀ (i : grid4.Coords) a, (cc4_transform_11 i a + 1) * S5000x64.size a ≤ S100000x64.size a
  hwx4_11 : ∀ i : grid4.Coords, EltTy.bits .f32 = 32 ∨ (Rect.block (s := S100000x64) S5000x64.size (cc4_transform_11 i) (hinb4_11 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v63) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg3) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v64) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v65) S64x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v70) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v66) S64x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v67) S64x64.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v71) S1x64.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v68) S64x64.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v69) S64x64.size cc4_transform_9 reads4_9 false true 1 stage4_9 sem4_9
    hrank4 hreads4_9 hinb4_9 nbuf4_9 (Memref.isWhole_whole _) hwx4_9 hstage4_9

abbrev win4_10 : Pipeline.Window sig grid4 :=
  Pipeline.Window.ofSpec (Memref.whole main_v72) S1x64.size cc4_transform_10 reads4_10 false true 1 stage4_10 sem4_10
    hrank4 hreads4_10 hinb4_10 nbuf4_10 (Memref.isWhole_whole _) hwx4_10 hstage4_10

abbrev win4_11 : Pipeline.Window sig grid4 :=
  Pipeline.Window.ofSpec (Memref.whole main_v73) S5000x64.size cc4_transform_11 reads4_11 true false 2 stage4_11 sem4_11
    hrank4 hreads4_11 hinb4_11 nbuf4_11 (Memref.isWhole_whole _) hwx4_11 hstage4_11

abbrev win4 : Fin 12 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | 11 => win4_11 | ⟨_ + 12, h⟩ => absurd h (Nat.not_lt.2 (Nat.le_add_left _ _))
abbrev spec4 : Fin 12 → Pipeline.WinSpec sig grid4.rank := fun w => (win4 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S1600000 : Shape := ⟨1, ![1600000]⟩
abbrev S64x64 : Shape := ⟨2, ![64, 64]⟩
abbrev S64 : Shape := ⟨1, ![64]⟩
abbrev S128x64 : Shape := ⟨2, ![128, 64]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x128 : Shape := ⟨2, ![100000, 128]⟩

abbrev nBuf : Space → Nat
  | .hbm => 187
  | .vmem => 0
  | .smem => 0
  | _ => 0

abbrev hbmTy0_0 (i : Nat) : BufTy := match i % 128 with
  | 0 => ⟨S100000x64, .f32⟩
  | 1 => ⟨S2x1600000, .i32⟩
  | 2 => ⟨S1600000, .f32⟩
  | 3 => ⟨S100000x64, .f32⟩
  | 4 => ⟨S64x64, .f32⟩
  | 5 => ⟨S64, .f32⟩
  | 6 => ⟨S64x64, .f32⟩
  | 7 => ⟨S64, .f32⟩
  | 8 => ⟨S128x64, .f32⟩
  | 9 => ⟨S64, .f32⟩
  | 10 => ⟨S128x64, .f32⟩
  | 11 => ⟨S64, .f32⟩
  | 12 => ⟨S128x64, .f32⟩
  | 13 => ⟨S64, .f32⟩
  | 14 => ⟨S1x1600000, .i32⟩
  | 15 => ⟨S1600000, .i32⟩
  | 16 => ⟨S1x1600000, .i32⟩
  | 17 => ⟨S1600000, .i32⟩
  | 18 => ⟨S100000, .i32⟩
  | 19 => ⟨S1700000, .i32⟩
  | 20 => ⟨S1700000, .i32⟩
  | 21 => ⟨S_, .f32⟩
  | 22 => ⟨S100000, .f32⟩
  | 23 => ⟨S1700000, .f32⟩
  | 24 => ⟨S_, .f32⟩
  | 25 => ⟨S100000, .f32⟩
  | 26 => ⟨S1700000x1, .i32⟩
  | 27 => ⟨S100000, .f32⟩
  | 28 => ⟨S_, .f32⟩
  | 29 => ⟨S100000, .f32⟩
  | 30 => ⟨S100000, .i1⟩
  | 31 => ⟨S100000, .f32⟩
  | 32 => ⟨S_, .f32⟩
  | 33 => ⟨S_, .f32⟩
  | 34 => ⟨S100000, .f32⟩
  | 35 => ⟨S100000, .f32⟩
  | 36 => ⟨S_, .i32⟩
  | 37 => ⟨S1700000, .i32⟩
  | 38 => ⟨S1700000, .i1⟩
  | 39 => ⟨S_, .i32⟩
  | 40 => ⟨S1700000, .i32⟩
  | 41 => ⟨S1700000, .i32⟩
  | 42 => ⟨S1700000, .i32⟩
  | 43 => ⟨S1700000x1, .i32⟩
  | 44 => ⟨S1700000, .f32⟩
  | 45 => ⟨S1700000, .f32⟩
  | 46 => ⟨S_, .i32⟩
  | 47 => ⟨S1700000, .i32⟩
  | 48 => ⟨S1700000, .i1⟩
  | 49 => ⟨S_, .i32⟩
  | 50 => ⟨S1700000, .i32⟩
  | 51 => ⟨S1700000, .i32⟩
  | 52 => ⟨S1700000, .i32⟩
  | 53 => ⟨S1700000x1, .i32⟩
  | 54 => ⟨S1700000, .f32⟩
  | 55 => ⟨S1700000, .f32⟩
  | 56 => ⟨S100000x64, .f32⟩
  | 57 => ⟨S1700000x1, .f32⟩
  | 58 => ⟨S_, .i32⟩
  | 59 => ⟨S1700000, .i32⟩
  | 60 => ⟨S1700000, .i1⟩
  | 61 => ⟨S_, .i32⟩
  | 62 => ⟨S1700000, .i32⟩
  | 63 => ⟨S1700000, .i32⟩
  | 64 => ⟨S1700000, .i32⟩
  | 65 => ⟨S1700000x1, .i32⟩
  | 66 => ⟨S1700000x64, .f32⟩
  | 67 => ⟨S1700000x64, .f32⟩
  | 68 => ⟨S1700000x64, .f32⟩
  | 69 => ⟨S_, .f32⟩
  | 70 => ⟨S100000x64, .f32⟩
  | 71 => ⟨S1700000x1, .i32⟩
  | 72 => ⟨S100000x64, .f32⟩
  | 73 => ⟨S1x64, .f32⟩
  | 74 => ⟨S100000x64, .f32⟩
  | 75 => ⟨S100000x64, .f32⟩
  | 76 => ⟨S_, .f32⟩
  | 77 => ⟨S100000x64, .f32⟩
  | 78 => ⟨S100000x64, .f32⟩
  | 79 => ⟨S1x1600000, .i32⟩
  | 80 => ⟨S1600000, .i32⟩
  | 81 => ⟨S1x1600000, .i32⟩
  | 82 => ⟨S1600000, .i32⟩
  | 83 => ⟨S100000, .i32⟩
  | 84 => ⟨S1700000, .i32⟩
  | 85 => ⟨S1700000, .i32⟩
  | 86 => ⟨S_, .f32⟩
  | 87 => ⟨S100000, .f32⟩
  | 88 => ⟨S1700000, .f32⟩
  | 89 => ⟨S_, .f32⟩
  | 90 => ⟨S100000, .f32⟩
  | 91 => ⟨S1700000x1, .i32⟩
  | 92 => ⟨S100000, .f32⟩
  | 93 => ⟨S_, .f32⟩
  | 94 => ⟨S100000, .f32⟩
  | 95 => ⟨S100000, .i1⟩
  | 96 => ⟨S100000, .f32⟩
  | 97 => ⟨S_, .f32⟩
  | 98 => ⟨S_, .f32⟩
  | 99 => ⟨S100000, .f32⟩
  | 100 => ⟨S100000, .f32⟩
  | 101 => ⟨S_, .i32⟩
  | 102 => ⟨S1700000, .i32⟩
  | 103 => ⟨S1700000, .i1⟩
  | 104 => ⟨S_, .i32⟩
  | 105 => ⟨S1700000, .i32⟩
  | 106 => ⟨S1700000, .i32⟩
  | 107 => ⟨S1700000, .i32⟩
  | 108 => ⟨S1700000x1, .i32⟩
  | 109 => ⟨S1700000, .f32⟩
  | 110 => ⟨S1700000, .f32⟩
  | 111 => ⟨S_, .i32⟩
  | 112 => ⟨S1700000, .i32⟩
  | 113 => ⟨S1700000, .i1⟩
  | 114 => ⟨S_, .i32⟩
  | 115 => ⟨S1700000, .i32⟩
  | 116 => ⟨S1700000, .i32⟩
  | 117 => ⟨S1700000, .i32⟩
  | 118 => ⟨S1700000x1, .i32⟩
  | 119 => ⟨S1700000, .f32⟩
  | 120 => ⟨S1700000, .f32⟩
  | 121 => ⟨S100000x64, .f32⟩
  | 122 => ⟨S1700000x1, .f32⟩
  | 123 => ⟨S_, .i32⟩
  | 124 => ⟨S1700000, .i32⟩
  | 125 => ⟨S1700000, .i1⟩
  | 126 => ⟨S_, .i32⟩
  | 127 => ⟨S1700000, .i32⟩
  | _ => ⟨S100000x64, .f32⟩

abbrev hbmTy0_1 (i : Nat) : BufTy := match i % 128 with
  | 0 => ⟨S1700000, .i32⟩
  | 1 => ⟨S1700000, .i32⟩
  | 2 => ⟨S1700000x1, .i32⟩
  | 3 => ⟨S1700000x64, .f32⟩
  | 4 => ⟨S1700000x64, .f32⟩
  | 5 => ⟨S1700000x64, .f32⟩
  | 6 => ⟨S_, .f32⟩
  | 7 => ⟨S100000x64, .f32⟩
  | 8 => ⟨S1700000x1, .i32⟩
  | 9 => ⟨S100000x64, .f32⟩
  | 10 => ⟨S1x64, .f32⟩
  | 11 => ⟨S100000x64, .f32⟩
  | 12 => ⟨S100000x64, .f32⟩
  | 13 => ⟨S100000x64, .f32⟩
  | 14 => ⟨S100000x64, .f32⟩
  | 15 => ⟨S_, .f32⟩
  | 16 => ⟨S100000x64, .f32⟩
  | 17 => ⟨S100000x64, .f32⟩
  | 18 => ⟨S_, .f32⟩
  | 19 => ⟨S100000x64, .f32⟩
  | 20 => ⟨S100000x64, .f32⟩
  | 21 => ⟨S100000x128, .f32⟩
  | 22 => ⟨S100000x64, .f32⟩
  | 23 => ⟨S1x64, .f32⟩
  | 24 => ⟨S100000x64, .f32⟩
  | 25 => ⟨S100000x64, .f32⟩
  | 26 => ⟨S100000x64, .f32⟩
  | 27 => ⟨S100000x64, .f32⟩
  | 28 => ⟨S_, .f32⟩
  | 29 => ⟨S100000x64, .f32⟩
  | 30 => ⟨S100000x64, .f32⟩
  | 31 => ⟨S_, .f32⟩
  | 32 => ⟨S100000x64, .f32⟩
  | 33 => ⟨S100000x64, .f32⟩
  | 34 => ⟨S100000x64, .f32⟩
  | 35 => ⟨S1x64, .f32⟩
  | 36 => ⟨S100000x64, .f32⟩
  | 37 => ⟨S100000x64, .f32⟩
  | 38 => ⟨S100000x64, .f32⟩
  | 39 => ⟨S100000x64, .f32⟩
  | 40 => ⟨S_, .f32⟩
  | 41 => ⟨S100000x64, .f32⟩
  | 42 => ⟨S100000x64, .f32⟩
  | 43 => ⟨S_, .f32⟩
  | 44 => ⟨S100000x64, .f32⟩
  | 45 => ⟨S100000x64, .f32⟩
  | 46 => ⟨S100000x64, .f32⟩
  | 47 => ⟨S100000x128, .f32⟩
  | 48 => ⟨S100000x64, .f32⟩
  | 49 => ⟨S1x64, .f32⟩
  | 50 => ⟨S100000x64, .f32⟩
  | 51 => ⟨S100000x64, .f32⟩
  | 52 => ⟨S100000x64, .f32⟩
  | 53 => ⟨S100000x64, .f32⟩
  | 54 => ⟨S_, .f32⟩
  | 55 => ⟨S100000x64, .f32⟩
  | 56 => ⟨S100000x64, .f32⟩
  | 57 => ⟨S100000x64, .f32⟩
  | 58 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_v15 : Ref sig .tc := ⟨.hbm, 35, rfl⟩
abbrev main_c : Ref sig .tc := ⟨.hbm, 36, rfl⟩
abbrev main_v16 : Ref sig .tc := ⟨.hbm, 37, rfl⟩
abbrev main_v17 : Ref sig .tc := ⟨.hbm, 38, rfl⟩
abbrev main_c_3 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_c_4 : Ref sig .tc := ⟨.hbm, 46, rfl⟩
abbrev main_v24 : Ref sig .tc := ⟨.hbm, 47, rfl⟩
abbrev main_v25 : Ref sig .tc := ⟨.hbm, 48, rfl⟩
abbrev main_c_5 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_c_6 : Ref sig .tc := ⟨.hbm, 58, rfl⟩
abbrev main_v34 : Ref sig .tc := ⟨.hbm, 59, rfl⟩
abbrev main_v35 : Ref sig .tc := ⟨.hbm, 60, rfl⟩
abbrev main_c_7 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_8 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_call1_cst : Ref sig .tc := ⟨.hbm, 76, rfl⟩
abbrev main_call1_v0 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_9 : Ref sig .tc := ⟨.hbm, 86, rfl⟩
abbrev main_v57 : Ref sig .tc := ⟨.hbm, 87, rfl⟩
abbrev main_v58 : Ref sig .tc := ⟨.hbm, 88, rfl⟩
abbrev main_cst_10 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_11 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_12 : Ref sig .tc := ⟨.hbm, 97, rfl⟩
abbrev main_call2_v0 : Ref sig .tc := ⟨.hbm, 98, rfl⟩
abbrev main_call2_v1 : Ref sig .tc := ⟨.hbm, 99, rfl⟩
abbrev main_v65 : Ref sig .tc := ⟨.hbm, 100, rfl⟩
abbrev main_c_13 : Ref sig .tc := ⟨.hbm, 101, rfl⟩
abbrev main_v66 : Ref sig .tc := ⟨.hbm, 102, rfl⟩
abbrev main_v67 : Ref sig .tc := ⟨.hbm, 103, rfl⟩
abbrev main_c_14 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_c_15 : Ref sig .tc := ⟨.hbm, 111, rfl⟩
abbrev main_v74 : Ref sig .tc := ⟨.hbm, 112, rfl⟩
abbrev main_v75 : Ref sig .tc := ⟨.hbm, 113, rfl⟩
abbrev main_c_16 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_c_17 : Ref sig .tc := ⟨.hbm, 123, rfl⟩
abbrev main_v84 : Ref sig .tc := ⟨.hbm, 124, rfl⟩
abbrev main_v85 : Ref sig .tc := ⟨.hbm, 125, rfl⟩
abbrev main_c_18 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_cst_19 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_cst_20 : Ref sig .tc := ⟨.hbm, 143, rfl⟩
abbrev main_v101 : Ref sig .tc := ⟨.hbm, 144, rfl⟩
abbrev main_v102 : Ref sig .tc := ⟨.hbm, 145, rfl⟩
abbrev main_cst_21 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_cst_22 : Ref sig .tc := ⟨.hbm, 156, rfl⟩
abbrev main_v112 : Ref sig .tc := ⟨.hbm, 157, rfl⟩
abbrev main_v113 : Ref sig .tc := ⟨.hbm, 158, rfl⟩
abbrev main_cst_23 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_cst_24 : Ref sig .tc := ⟨.hbm, 168, rfl⟩
abbrev main_v122 : Ref sig .tc := ⟨.hbm, 169, rfl⟩
abbrev main_v123 : Ref sig .tc := ⟨.hbm, 170, rfl⟩
abbrev main_cst_25 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_cst_26 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  concatenates_S100000x64_S100000x64_S100000x128_d1 : Shape.Concatenates [S100000x64, S100000x64] S100000x128 1
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x64_S64x64_S100000x64_1_0_0_1_n_n_wf : DotDims.WF S100000x64 S64x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x128_S128x64_S100000x64_1_0_0_1_n_n_wf : DotDims.WF S100000x128 S128x64 S100000x64 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KRun.lean ====
/-
  The program's run with its result named.

  The program is eleven segments in a row: stretches of host operations and five pipelined regions.  From any memory
  every weakly fair execution ends, nothing faulting, and at the end every buffer that outlives a region holds what the
  fold of the segments over the launch contents leaves there: a host operation rewrites its result buffer, a region
  rewrites its output array with its write-backs.  Read at the result buffer this names the program's result as the
  last boundary's contents; read at the argument buffers it says that they end as launched.
-/
import proofs.«177768_j5437428597509_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution ends with the result buffer at the last boundary's contents and the arguments as
    launched. -/
theorem run_named : θ_run defs (onTc (τ := τ) (main (F := F))) ⟨m, fun _ => 0, ρ⟩ (fun r => ∀ c : Dev nD,
      r.2.mem ((c.tc : Thread nD τ).loc main_v73) = W11 m ρ c (Proc.devRef .tc main_v73)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v73 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c),
       (h c _ (mem_uc main_arg11 (by decide))).trans (W11_main_arg11 m ρ c),
       (h c _ (mem_uc main_arg12 (by decide))).trans (W11_main_arg12 m ρ c),
       (h c _ (mem_uc main_arg13 (by decide))).trans (W11_main_arg13 m ρ c)⟩)

end Cert.KernelIdeal.Named

end
-- ==== Proof.LibRowOps.lean ====
/-
  Two-dimensional vector operations read at one index, on the extended reals.

  A kernel body that projects, normalises and contracts rows is a composition of a few operations on
  [a, b] vectors.  Each lemma below reads one of them at the index (r, c), with both coordinates explicit:
  a matrix product into a zero accumulator is the sum over the shared axis; a sum or a maximum along the
  second axis is the sum or the fold of `max` over that row; a length-a vector viewed as an [a, 1] column, the
  column repeated along a second axis, and a transpose only move coordinates.
-/
import Idealize.ShloMosaic.PureOps.Ideal.Laws
import Idealize.ShloMosaic.Lib.ValueIdx
import Idealize.ShloMosaic.Lib.Pipeline.Value

noncomputable section

namespace Cert.RowOps

open Idealize.ShloMosaic Idealize.ShloMosaic.ValueIdx

/-! ## A plain matrix product -/

/-- The dimension numbers of a plain `[M, K] × [K, N]` product: contract the left operand's second axis with the
    right operand's first, no batch axis. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Plain

variable {M K N : Nat} {d : DotDims ⟨2, ![M, K]⟩ ⟨2, ![K, N]⟩ ⟨2, ![M, N]⟩}

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq h => by subst h; rfl

theorem contr_rank (hd : IsPlain d) : d.contr.rank = 1 := by
  rw [d.rank_contr, hd.lc]; rfl

theorem contr_size (hd : IsPlain d) : d.contr.size ⟨0, by rw [contr_rank hd]; exact Nat.one_pos⟩ = K := by
  rw [d.size_contr 0 (by rw [hd.lc]; exact Nat.one_pos)]
  simp only [hd.lc, List.getElem_cons_zero]
  rfl

/-- The left operand's row coordinate is the result's row coordinate. -/
theorem lhsIdx_row (hd : IsPlain d) (j : (⟨2, ![M, N]⟩ : Shape).Idx) (k : d.contr.Idx) :
    (d.lhsIdx j k 0).val = (j 0).val := by
  unfold DotDims.lhsIdx
  rw [dif_neg (by rw [hd.lb]; exact List.not_mem_nil), dif_pos (by rw [hd.ln]; exact List.mem_singleton.mpr rfl)]
  simp only [Fin.val_cast]
  exact val_congr j _ _ _ _ (by simp [hd.lb, hd.ln])

/-- The right operand's column coordinate is the result's column coordinate. -/
theorem rhsIdx_col (hd : IsPlain d) (j : (⟨2, ![M, N]⟩ : Shape).Idx) (k : d.contr.Idx) :
    (d.rhsIdx j k 1).val = (j 1).val := by
  unfold DotDims.rhsIdx
  rw [dif_neg (by rw [hd.rb]; exact List.not_mem_nil), dif_pos (by rw [hd.rn]; exact List.mem_singleton.mpr rfl)]
  simp only [Fin.val_cast]
  exact val_congr j _ _ _ _ (by simp [hd.lb, hd.ln, hd.rn])

/-- A plain matrix product into a zero accumulator, at (r, c): the sum over the shared axis of the products. -/
theorem matmul_zero_apply (hd : IsPlain d) {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul d prec lhs rhs (constant ⟨2, ![M, N]⟩ .f32 0x00000000#32) (ix2 r c)
      = ∑ k : Fin K, lhs (ix2 r k) * rhs (ix2 k c) := by
  rw [Ideal.matmul_constant_zero_apply,
    ← Equiv.sum_comp (contrEquiv1 d K (contr_rank hd) (contr_size hd)).symm]
  refine Finset.sum_congr rfl fun k _ => ?_
  have hk := contrEquiv1_symm_val d K (contr_rank hd) (contr_size hd) k
  have el : d.lhsIdx (ix2 r c) ((contrEquiv1 d K (contr_rank hd) (contr_size hd)).symm k) = ix2 r k :=
    funext fun a => Fin.ext (by
      match a with
      | ⟨0, _⟩ => exact lhsIdx_row hd _ _
      | ⟨1, _⟩ => exact (d.lhsIdx_val_of_single hd.lc _ _).trans hk)
  have er : d.rhsIdx (ix2 r c) ((contrEquiv1 d K (contr_rank hd) (contr_size hd)).symm k) = ix2 k c :=
    funext fun a => Fin.ext (by
      match a with
      | ⟨0, _⟩ => exact (d.rhsIdx_val_of_single hd.rc _ _).trans hk
      | ⟨1, _⟩ => exact rhsIdx_col hd _ _)
  rw [el, er]

end Plain

/-! ## Reductions along the second axis -/

section Rows

variable {a b : Nat} {φ : FTy}

/-- The index over row `r` with second coordinate `k`. -/
theorem lift_row (h : (⟨2, ![a, b]⟩ : Shape).Reduces [1] ⟨1, ![a]⟩) (r : Fin a) (k : Fin b) :
    h.lift (ix1 r) k = ix2 r k :=
  funext fun c => Fin.ext (by
    show h.liftVal (ix1 r) k.val c = (ix2 r k c).val
    unfold Shape.Reduces.liftVal
    match c with
    | ⟨0, _⟩ => rfl
    | ⟨1, _⟩ => rfl)

/-- A sum along the second axis, at row `r`: the sum of that row. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  rw [Ideal.multiReduction_add_single]
  exact Finset.sum_congr rfl fun k _ => congrArg src (lift_row h r k)

/-- A maximum along the second axis, at row `r`: the fold of `max` over that row from the starting word's value. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  rw [Ideal.multiReduction_maximumf_single]
  exact congrArg (Finset.fold max _ · _) (funext fun k => congrArg src (lift_row h r k))

end Rows

/-! ## Moving coordinates -/

section Layout

variable {α : Type} {a b : Nat}

/-- A length-`a` vector viewed as an `[a, 1]` column reads, at (i, u), the vector at i. -/
theorem column_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column repeated along a second axis reads, at (i, j), the column at (i, 0). -/
theorem spread_apply (x : (⟨2, ![a, 1]⟩ : Shape).Idx → α) (h : (⟨2, ![a, 1]⟩ : Shape).Broadcasts ⟨2, ![a, b]⟩)
    (i : Fin a) (j : Fin b) : broadcastTo ⟨2, ![a, b]⟩ x h (ix2 i j) = x (ix2 i (0 : Fin 1)) :=
  broadcastTo_apply x h _ _ (fun c => by
    match c with
    | ⟨0, _⟩ =>
      show i.val = if a = 1 then 0 else i.val
      split
      · next h1 => have := i.isLt; omega
      · rfl
    | ⟨1, _⟩ => show 0 = if (1 : Nat) = 1 then 0 else j.val; rw [if_pos rfl])

/-- A transposed `[a, b]` vector reads, at (p, q), the vector at (q, p). -/
theorem swap_apply (x : (⟨2, ![a, b]⟩ : Shape).Idx → α) (h : (⟨2, ![a, b]⟩ : Shape).Transposes [1, 0] ⟨2, ![b, a]⟩)
    (p : Fin b) (q : Fin a) : transpose ⟨2, ![b, a]⟩ [1, 0] x h (ix2 p q) = x (ix2 q p) :=
  transpose_apply [1, 0] x h _ _ (fun c => by
    match c with
    | ⟨0, _⟩ => rfl
    | ⟨1, _⟩ => rfl)

end Layout

end Cert.RowOps

end
-- ==== Proof.LibHostRowOps.lean ====
/-
  Host operations on two-dimensional arrays read at one index, on the extended reals.

  A jnp reference that applies dense layers and a row-wise normalisation is a composition of a few host operations on
  [a, b] arrays. Each lemma below reads one of them at the index (r, c), both coordinates explicit: a plain
  `dot_general` is the sum over the shared axis; a `reduce` along the second axis with a maximum body is the fold of
  `max` over that row from the initial value, and the float sum along it is the initial value plus the row's sum; a
  `broadcast_in_dim` of a vector to a [1, b] row or an [a, 1] column, and of such a row or column to an [a, b]
  array, only moves coordinates.
-/
import Idealize.ShloMosaic.PureOps.Ideal.Laws
import Idealize.ShloMosaic.Lib.ValueIdx
import Idealize.ShloMosaic.Lib.Pipeline.Value
import Idealize.ShloMosaic.Lib.IdealHost
import proofs.«177768_j5437428597509_1_alg».proof.Proof.LibRowOps

noncomputable section

namespace Cert.HostRowOps

open Idealize.ShloMosaic Idealize.ShloMosaic.ValueIdx

/-! ## A plain host product -/

section Plain

variable {M K N : Nat} {d : DotDims ⟨2, ![M, K]⟩ ⟨2, ![K, N]⟩ ⟨2, ![M, N]⟩}

/-- The host's plain `[M, K] × [K, N]` product at (r, c): the sum over the shared axis of the products. -/
theorem dot_apply (hd : RowOps.IsPlain d) {φ₁ φ₂ : FTy} (prec : Option ContractPrecision)
    (lhs : FVec Ideal ⟨2, ![M, K]⟩ φ₁) (rhs : FVec Ideal ⟨2, ![K, N]⟩ φ₂) (r : Fin M) (c : Fin N) :
    Host.dotGeneral d prec lhs rhs (ix2 r c) = ∑ k : Fin K, lhs (ix2 r k) * rhs (ix2 k c) := by
  simp only [Host.dotGeneral]
  rw [Ideal.dotGeneral_apply,
    ← Equiv.sum_comp (contrEquiv1 d K (RowOps.contr_rank hd) (RowOps.contr_size hd)).symm]
  refine Finset.sum_congr rfl fun k _ => ?_
  have hk := contrEquiv1_symm_val d K (RowOps.contr_rank hd) (RowOps.contr_size hd) k
  have el : d.lhsIdx (ix2 r c) ((contrEquiv1 d K (RowOps.contr_rank hd) (RowOps.contr_size hd)).symm k) = ix2 r k :=
    funext fun a => Fin.ext (by
      match a with
      | ⟨0, _⟩ => exact RowOps.lhsIdx_row hd _ _
      | ⟨1, _⟩ => exact (d.lhsIdx_val_of_single hd.lc _ _).trans hk)
  have er : d.rhsIdx (ix2 r c) ((contrEquiv1 d K (RowOps.contr_rank hd) (RowOps.contr_size hd)).symm k) = ix2 k c :=
    funext fun a => Fin.ext (by
      match a with
      | ⟨0, _⟩ => exact (d.rhsIdx_val_of_single hd.rc _ _).trans hk
      | ⟨1, _⟩ => exact RowOps.rhsIdx_col hd _ _)
  rw [el, er]

end Plain

/-! ## Host reductions along the second axis -/

section Rows

variable {a b : Nat} {φ : FTy} {u : Shape}

/-- The host's `reduce` with a maximum body along the second axis, at row `r`: the fold of `max` over that row from the
    initial value's element. -/
theorem rowMax_apply (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce FloatOps.maximumf x init h' hu (ix1 r)
      = (Finset.univ : Finset (Fin b)).fold max (init (Shape.Idx.first hu)) (fun k => x (ix2 r k)) := by
  rw [Host.reduce_eq_fold_single FloatOps.maximumf x init h' h hu]
  exact congrArg (fun f => Finset.fold max (init (Shape.Idx.first hu)) f (Finset.univ : Finset (Fin b)))
    (funext fun k => congrArg x (RowOps.lift_row h r k))

/-- The host's float sum along the second axis, at row `r`: the initial value's element plus the sum of that row. -/
theorem rowSum_apply (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduceAdd x init h' hu (ix1 r) = init (Shape.Idx.first hu) + ∑ k : Fin b, x (ix2 r k) := by
  rw [hostReduceAdd_apply, Ideal.hostReduceAdd_single h' h]
  exact congrArg (init (Shape.Idx.first hu) + ·) (Finset.sum_congr rfl fun k _ => congrArg x (RowOps.lift_row h r k))

end Rows

/-! ## Moving coordinates -/

section Layout

variable {α : Type} {a b : Nat}

/-- A length-`b` vector laid along the second axis of a `[1, b]` row reads, at (u, j), the vector at j. -/
theorem vecToRow_apply (x : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h x (ix2 u j) = x (ix1 j) :=
  broadcastInDim_apply _ h x _ _ (fun c => by
    match c with
    | ⟨0, _⟩ =>
      show j.val = if b = 1 then 0 else j.val
      split
      · next h1 => have := j.isLt; omega
      · rfl)

/-- A `[1, b]` row repeated along a first axis reads, at (i, j), the row at (0, j). -/
theorem rowToMat_apply (x : (⟨2, ![1, b]⟩ : Shape).Idx → α)
    (h : (⟨2, ![1, b]⟩ : Shape).BroadcastsInDim ⟨2, ![a, b]⟩ ![0, 1]) (i : Fin a) (j : Fin b) :
    broadcastInDim ⟨2, ![a, b]⟩ ![0, 1] h x (ix2 i j) = x (ix2 (0 : Fin 1) j) :=
  broadcastInDim_apply _ h x _ _ (fun c => by
    match c with
    | ⟨0, _⟩ => show 0 = if (1 : Nat) = 1 then 0 else i.val; rw [if_pos rfl]
    | ⟨1, _⟩ =>
      show j.val = if b = 1 then 0 else j.val
      split
      · next h1 => have := j.isLt; omega
      · rfl)

/-- A length-`a` vector laid along the first axis of an `[a, 1]` column reads, at (i, u), the vector at i. -/
theorem vecToCol_apply (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) :=
  broadcastInDim_apply _ h x _ _ (fun c => by
    match c with
    | ⟨0, _⟩ =>
      show i.val = if a = 1 then 0 else i.val
      split
      · next h1 => have := i.isLt; omega
      · rfl)

/-- An `[a, 1]` column repeated along a second axis reads, at (i, j), the column at (i, 0). -/
theorem colToMat_apply (x : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h x (ix2 i j) = x (ix2 i (0 : Fin 1)) :=
  broadcastInDim_apply _ h x _ _ (fun c => by
    match c with
    | ⟨0, _⟩ =>
      show i.val = if a = 1 then 0 else i.val
      split
      · next h1 => have := i.isLt; omega
      · rfl
    | ⟨1, _⟩ => show 0 = if (1 : Nat) = 1 then 0 else j.val; rw [if_pos rfl])

end Layout

end Cert.HostRowOps

end
-- ==== Proof.LibRowColOps.lean ====
/-
  More two-dimensional vector operations read at one index, on the extended reals.

  Companions of the row operations: a `[1, b]` row repeated down a first axis, the one-row slice of an
  `[n, b]` vector at a given row, a `[1, a, b]` block viewed as `[a, b]`, and a sum along the FIRST axis
  (a column's total). Each only moves coordinates, or is the finite sum over the axis summed away.
-/
import Idealize.ShloMosaic.PureOps.Ideal.Laws
import Idealize.ShloMosaic.Lib.ValueIdx
import Idealize.ShloMosaic.Lib.Pipeline.Value

noncomputable section

namespace Cert.RowColOps

open Idealize.ShloMosaic Idealize.ShloMosaic.ValueIdx

section Layout

variable {α : Type} {a b n : Nat}

/-- A `[1, b]` row repeated along a first axis reads, at (i, j), the row at (0, j). -/
theorem rowSpread_apply (x : (⟨2, ![1, b]⟩ : Shape).Idx → α) (h : (⟨2, ![1, b]⟩ : Shape).Broadcasts ⟨2, ![a, b]⟩)
    (i : Fin a) (j : Fin b) : broadcastTo ⟨2, ![a, b]⟩ x h (ix2 i j) = x (ix2 (0 : Fin 1) j) :=
  broadcastTo_apply x h _ _ (fun c => by
    match c with
    | ⟨0, _⟩ => show 0 = if (1 : Nat) = 1 then 0 else i.val; rw [if_pos rfl]
    | ⟨1, _⟩ =>
      show j.val = if b = 1 then 0 else j.val
      split
      · next h1 => have := j.isLt; omega
      · rfl)

/-- The one-row slice at row `c` of an `[n, b]` vector reads, at (0, j), the vector at (c, j). -/
theorem sliceRow_apply (x : (⟨2, ![n, b]⟩ : Shape).Idx → α) (c : Fin n) (off : Fin 2 → Nat)
    (hoff : off = ![c.val, 0]) (h : (⟨2, ![n, b]⟩ : Shape).Slices off ⟨2, ![1, b]⟩) (u : Fin 1) (j : Fin b) :
    extractStridedSlice ⟨2, ![1, b]⟩ off x h (ix2 u j) = x (ix2 c j) := by
  subst hoff
  refine extractStridedSlice_apply _ x h _ _ (fun d => ?_)
  have hu : u.val = 0 := by omega
  match d with
  | ⟨0, _⟩ => show c.val = c.val + u.val; omega
  | ⟨1, _⟩ => show j.val = 0 + j.val; omega

/-- A `[1, a, b]` block viewed as `[a, b]` reads, at (i, j), the block at (0, i, j). -/
theorem dropLead_apply (x : (⟨3, ![1, a, b]⟩ : Shape).Idx → α)
    (h : (⟨3, ![1, a, b]⟩ : Shape).ShapeCasts ⟨2, ![a, b]⟩) (i : Fin a) (j : Fin b) :
    shapeCast ⟨2, ![a, b]⟩ x h (ix2 i j) = x (ix3 (0 : Fin 1) i j) :=
  shapeCast_apply x h _ _ (by
    rw [Shape.rowMajor_val_three, Shape.rowMajor_val_two]
    show ((0 : Nat) * a + i.val) * b + j.val = i.val * b + j.val
    rw [Nat.zero_mul, Nat.zero_add])

end Layout

section Columns

variable {a b : Nat} {φ : FTy}

/-- The index over column `j` with first coordinate `k`. -/
theorem lift_col (h : (⟨2, ![a, b]⟩ : Shape).Reduces [0] ⟨1, ![b]⟩) (j : Fin b) (k : Fin a) :
    h.lift (ix1 j) k = ix2 k j :=
  funext fun c => Fin.ext (by
    show h.liftVal (ix1 j) k.val c = (ix2 k j c).val
    unfold Shape.Reduces.liftVal
    match c with
    | ⟨0, _⟩ => rfl
    | ⟨1, _⟩ => rfl)

/-- A sum along the first axis, at column `j`: the sum of that column. -/
theorem colSum_apply (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (j : Fin b) :
    multiReduction .add [0] ⟨1, ![b]⟩ src acc h hφ hacc (ix1 j) = ∑ k : Fin a, src (ix2 k j) := by
  rw [Ideal.multiReduction_add_single]
  exact Finset.sum_congr rfl fun k _ => congrArg src (lift_col h j k)

end Columns

end Cert.RowColOps

end
-- ==== Proof.LibLogisticTanh.lean ====
/-
  The logistic function written with a hyperbolic tangent, on the extended reals.

  For a real z, (1/2)·(1 + tanh(z/2)) = 1/(1 + e^(-z)): with a = e^(z/2), tanh(z/2) = (a - 1/a)/(a + 1/a), so
  1 + tanh(z/2) = 2a/(a + 1/a) = 2/(1 + 1/a²), and 1/a² = e^(-z).  At +∞ both sides are 1 (tanh is 1 there and
  e^(-∞) = 0); at -∞ both are 0 (tanh is -1 there, and 1/(1 + ∞) = 0).  So the two spellings are one function
  on all of [-∞, +∞], and no finiteness is needed to pass from one to the other.
-/
import Idealize.ShloMosaic.PureOps.Ideal

noncomputable section

namespace Cert.LogisticTanh

open Idealize.ShloMosaic

/-- The single-precision pattern of 0.5 denotes the real 1/2. -/
theorem ofBits_half : Ideal.ofBits .f32 0x3F000000#32 = ((1 / 2 : ℝ) : EReal) := by
  simp [Ideal.ofBits, Ideal.ieee, -EReal.coe_mul]; norm_num

/-- The single-precision pattern of 1.0 denotes 1. -/
theorem ofBits_one : Ideal.ofBits .f32 0x3F800000#32 = 1 := by
  simp [Ideal.ofBits, Ideal.ieee, -EReal.coe_mul]; norm_num

/-- On the reals: half of one plus the tangent of half the argument is the logistic function. -/
theorem real_half_tanh (r : ℝ) : (1 / 2 : ℝ) * (1 + Real.tanh (1 / 2 * r)) = (1 + Real.exp (-r))⁻¹ := by
  have ha : 0 < Real.exp (1 / 2 * r) := Real.exp_pos _
  have hneg : Real.exp (-(1 / 2 * r)) = (Real.exp (1 / 2 * r))⁻¹ := Real.exp_neg _
  have hr : Real.exp (-r) = (Real.exp (1 / 2 * r))⁻¹ * (Real.exp (1 / 2 * r))⁻¹ := by
    rw [← hneg, ← Real.exp_add]; congr 1; ring
  rw [Real.tanh_eq_sinh_div_cosh, Real.sinh_eq, Real.cosh_eq, hneg, hr]
  generalize Real.exp (1 / 2 * r) = a at ha
  have h0 : a ≠ 0 := ha.ne'
  have h1 : a + a⁻¹ ≠ 0 := by positivity
  have h2 : 1 + a⁻¹ * a⁻¹ ≠ 0 := by positivity
  field_simp
  ring

/-- On the extended reals, infinities included. -/
theorem half_tanh_eq_logistic (z : EReal) :
    ((1 / 2 : ℝ) : EReal) * (1 + Ideal.tanh (((1 / 2 : ℝ) : EReal) * z)) = Ideal.logistic z := by
  induction z using EReal.rec with
  | bot =>
    rw [EReal.coe_mul_bot_of_pos (by norm_num), Ideal.tanh_bot, Ideal.logistic_bot]
    have h : (1 : EReal) + -1 = 0 := by
      rw [← EReal.coe_one, ← EReal.coe_neg, ← EReal.coe_add, add_neg_cancel, EReal.coe_zero]
    rw [h, mul_zero]
  | coe r =>
    rw [← EReal.coe_mul, Ideal.tanh_coe, Ideal.logistic_coe, ← EReal.coe_one, ← EReal.coe_add, ← EReal.coe_mul,
      real_half_tanh]
  | top =>
    rw [EReal.coe_mul_top_of_pos (by norm_num), Ideal.tanh_top, Ideal.logistic_top, ← EReal.coe_one, ← EReal.coe_add,
      ← EReal.coe_mul]
    norm_num

/-- The tangent spelling over the bit patterns a program writes the two constants with. -/
theorem half_tanh_bits (z : EReal) :
    Ideal.ofBits .f32 0x3F000000#32 * (Ideal.ofBits .f32 0x3F800000#32 + Ideal.tanh (Ideal.ofBits .f32 0x3F000000#32 * z))
      = Ideal.logistic z := by
  rw [ofBits_half, ofBits_one, half_tanh_eq_logistic]

/-- The quotient spelling `1 / (1 + e^(-z))` over the bit pattern a program writes the constant with. -/
theorem quotient_bits (z : EReal) :
    Ideal.div (Ideal.ofBits .f32 0x3F800000#32) (Ideal.ofBits .f32 0x3F800000#32 + Ideal.exp (-z)) = Ideal.logistic z := by
  rw [ofBits_one]
  rfl

end Cert.LogisticTanh

end
-- ==== Proof.LibGatedRows.lean ====
/-
  One row of a gated graph cell, in the kernel's spelling and in the host's.

  Every stage of the cell between two neighbour aggregations acts on the node features row by row: a row of the
  result depends on the same row of each node-indexed operand, and on the whole of each weight or bias.  Stated
  here, for arrays with any number of rows, are the four stages at one entry: two blocks of columns laid side by
  side; the product of such a row with a weight matrix (into a zero accumulator, operands narrowed — at the exact
  reals a narrowing changes nothing — against the host's contraction); the gate σ(a + b), where the kernel's
  logistic function meets the host's quotient 1 / (1 + exp(−z)) on every extended real; and the convex
  combination u·h + (1 − u)·tanh(a + b).  Each lemma equates the kernel's entry at row r with the host's entry at
  row r', given that the operands' rows r and r' agree: this is what lets a block of rows stand for the same rows
  of the whole array.
-/
import Idealize.ShloMosaic.PureOps.Ideal.Laws
import Idealize.ShloMosaic.Lib.ValueIdx
import Idealize.ShloMosaic.Lib.Pipeline.Value
import proofs.«177768_j5437428597509_1_alg».proof.Proof.LibRowOps
import proofs.«177768_j5437428597509_1_alg».proof.Proof.LibHostRowOps
import proofs.«177768_j5437428597509_1_alg».proof.Proof.LibRowColOps
import proofs.«177768_j5437428597509_1_alg».proof.Proof.LibLogisticTanh

noncomputable section

namespace Cert.GatedCell

open Idealize.ShloMosaic Idealize.ShloMosaic.ValueIdx

/-! ## Two blocks of columns side by side -/

section Beside

variable {α : Type} {a a' p q n : Nat}

/-- A column of the joined rows that lies in the left block reads the left block. -/
theorem beside_left (x : (⟨2, ![a, p]⟩ : Shape).Idx → α) (y : (⟨2, ![a, q]⟩ : Shape).Idx → α)
    (h : Shape.Concatenates [⟨2, ![a, p]⟩, ⟨2, ![a, q]⟩] ⟨2, ![a, n]⟩ 1) (r : Fin a) (k : Fin n) (hk : k.val < p) :
    concatenate ⟨2, ![a, n]⟩ 1 [⟨⟨2, ![a, p]⟩, x⟩, ⟨⟨2, ![a, q]⟩, y⟩] h (ix2 r k) = x (ix2 r ⟨k.val, hk⟩) :=
  concatenate_pair_apply_left (1 : Fin 2) x y h (ix2 r k) rfl (ix2 r ⟨k.val, hk⟩)
    (fun b => by match b with | ⟨0, _⟩ => rfl | ⟨1, _⟩ => rfl)

/-- A column past the left block reads the right block, the left block's width less. -/
theorem beside_right (x : (⟨2, ![a, p]⟩ : Shape).Idx → α) (y : (⟨2, ![a, q]⟩ : Shape).Idx → α)
    (h : Shape.Concatenates [⟨2, ![a, p]⟩, ⟨2, ![a, q]⟩] ⟨2, ![a, n]⟩ 1) (r : Fin a) (k : Fin n) (hk : p ≤ k.val)
    (hkq : k.val - p < q) :
    concatenate ⟨2, ![a, n]⟩ 1 [⟨⟨2, ![a, p]⟩, x⟩, ⟨⟨2, ![a, q]⟩, y⟩] h (ix2 r k) = y (ix2 r ⟨k.val - p, hkq⟩) :=
  concatenate_pair_apply_right (1 : Fin 2) x y h (ix2 r k) rfl rfl (ix2 r ⟨k.val - p, hkq⟩)
    (fun b hb => by match b with | ⟨0, _⟩ => rfl | ⟨1, _⟩ => exact absurd rfl hb)
    (by show k.val - p + p = k.val; omega)

/-- Joined rows agree where the rows of both blocks agree. -/
theorem beside_row (x : (⟨2, ![a, p]⟩ : Shape).Idx → α) (y : (⟨2, ![a, q]⟩ : Shape).Idx → α)
    (x' : (⟨2, ![a', p]⟩ : Shape).Idx → α) (y' : (⟨2, ![a', q]⟩ : Shape).Idx → α)
    (h : Shape.Concatenates [⟨2, ![a, p]⟩, ⟨2, ![a, q]⟩] ⟨2, ![a, n]⟩ 1)
    (h' : Shape.Concatenates [⟨2, ![a', p]⟩, ⟨2, ![a', q]⟩] ⟨2, ![a', n]⟩ 1) (hn : n = p + q)
    (r : Fin a) (r' : Fin a') (hx : ∀ k : Fin p, x (ix2 r k) = x' (ix2 r' k))
    (hy : ∀ k : Fin q, y (ix2 r k) = y' (ix2 r' k)) (k : Fin n) :
    concatenate ⟨2, ![a, n]⟩ 1 [⟨⟨2, ![a, p]⟩, x⟩, ⟨⟨2, ![a, q]⟩, y⟩] h (ix2 r k)
      = concatenate ⟨2, ![a', n]⟩ 1 [⟨⟨2, ![a', p]⟩, x'⟩, ⟨⟨2, ![a', q]⟩, y'⟩] h' (ix2 r' k) := by
  by_cases hk : k.val < p
  · rw [beside_left x y h r k hk, beside_left x' y' h' r' k hk]
    exact hx _
  · have hk' : p ≤ k.val := Nat.le_of_not_lt hk
    have hkq : k.val - p < q := by have := k.isLt; omega
    rw [beside_right x y h r k hk' hkq, beside_right x' y' h' r' k hk' hkq]
    exact hy _

end Beside

/-! ## A row times a weight matrix -/

section Dense

variable {a a' K N : Nat} {d : DotDims ⟨2, ![a, K]⟩ ⟨2, ![K, N]⟩ ⟨2, ![a, N]⟩}
  {d' : DotDims ⟨2, ![a', K]⟩ ⟨2, ![K, N]⟩ ⟨2, ![a', N]⟩}

/-- The product of row r of X with W, narrowed operands into a zero accumulator, is the host's contraction of
    row r' of X' with W' when the two rows agree and W is W': both are the sum over k of the row's entry times the
    weight's. -/
theorem dense_row (hd : RowOps.IsPlain d) (hd' : RowOps.IsPlain d')
    (X : FVec Ideal ⟨2, ![a, K]⟩ .f32) (X' : FVec Ideal ⟨2, ![a', K]⟩ .f32) (W W' : FVec Ideal ⟨2, ![K, N]⟩ .f32)
    (hb : (FTy.bf16).bits < (FTy.f32).bits) (r : Fin a) (r' : Fin a')
    (hX : ∀ k : Fin K, X (ix2 r k) = X' (ix2 r' k)) (hW : ∀ (k : Fin K) (c : Fin N), W (ix2 k c) = W' (ix2 k c))
    (c : Fin N) :
    matmul d none (truncf .bf16 X hb) (truncf .bf16 W hb) (constant ⟨2, ![a, N]⟩ .f32 0x00000000#32) (ix2 r c)
      = Host.dotGeneral d' none X' W' (ix2 r' c) := by
  refine (RowOps.matmul_zero_apply hd none _ _ r c).trans ?_
  rw [HostRowOps.dot_apply hd']
  refine Finset.sum_congr rfl fun k _ => ?_
  show X (ix2 r k) * W (ix2 k c) = X' (ix2 r' k) * W' (ix2 k c)
  rw [hX k, hW k c]

end Dense

/-! ## The gate and the combination -/

section Pointwise

variable {a a' n : Nat}

/-- σ(v + b) at row r in the kernel's spelling is 1 / (1 + exp(−(A + B))) at row r' in the host's, when v's row r
    is A's row r' and the two bias rows agree: the logistic function is that quotient on every extended real. -/
theorem gate_row (v : FVec Ideal ⟨2, ![a, n]⟩ .f32) (b : FVec Ideal ⟨2, ![1, n]⟩ .f32)
    (A : FVec Ideal ⟨2, ![a', n]⟩ .f32) (B : FVec Ideal ⟨2, ![1, n]⟩ .f32)
    (h1 : (⟨2, ![a, n]⟩ : Shape).ShapeCasts ⟨2, ![a, n]⟩) (h2 : (⟨2, ![1, n]⟩ : Shape).ShapeCasts ⟨2, ![1, n]⟩)
    (h3 : (⟨2, ![1, n]⟩ : Shape).Broadcasts ⟨2, ![a, n]⟩)
    (g0 : (⟨0, ![]⟩ : Shape).BroadcastsInDim ⟨2, ![a', n]⟩ ![])
    (g1 : (⟨2, ![1, n]⟩ : Shape).BroadcastsInDim ⟨2, ![a', n]⟩ ![0, 1])
    (r : Fin a) (r' : Fin a') (c : Fin n) (hv : v (ix2 r c) = A (ix2 r' c))
    (hbB : b (ix2 (0 : Fin 1) c) = B (ix2 (0 : Fin 1) c)) :
    logistic (addf (shapeCast ⟨2, ![a, n]⟩ v h1) (broadcastTo ⟨2, ![a, n]⟩ (shapeCast ⟨2, ![1, n]⟩ b h2) h3)) (ix2 r c)
      = Host.divf (broadcastInDim ⟨2, ![a', n]⟩ ![] g0 (constant (F := Ideal) ⟨0, ![]⟩ .f32 0x3F800000#32))
          (addf (broadcastInDim ⟨2, ![a', n]⟩ ![] g0 (constant (F := Ideal) ⟨0, ![]⟩ .f32 0x3F800000#32))
            (Host.exp (Host.negf (addf A (broadcastInDim ⟨2, ![a', n]⟩ ![0, 1] g1 B))))) (ix2 r' c) := by
  rw [shapeCast_self, shapeCast_self]
  show Ideal.logistic (v (ix2 r c) + broadcastTo ⟨2, ![a, n]⟩ b h3 (ix2 r c))
    = Ideal.div (Ideal.ofBits .f32 0x3F800000#32)
        (Ideal.ofBits .f32 0x3F800000#32 + Ideal.exp (-(A (ix2 r' c) + broadcastInDim ⟨2, ![a', n]⟩ ![0, 1] g1 B (ix2 r' c))))
  rw [RowColOps.rowSpread_apply, HostRowOps.rowToMat_apply, LogisticTanh.quotient_bits, hv, hbB]

/-- u·h + (1 − u)·tanh(g + b) at row r in the kernel's spelling is the same expression at row r' in the host's,
    when the rows of u, h and g agree and the two bias rows agree. -/
theorem blend_row (g : FVec Ideal ⟨2, ![a, n]⟩ .f32) (b : FVec Ideal ⟨2, ![1, n]⟩ .f32)
    (u h : FVec Ideal ⟨2, ![a, n]⟩ .f32)
    (G : FVec Ideal ⟨2, ![a', n]⟩ .f32) (B : FVec Ideal ⟨2, ![1, n]⟩ .f32) (U H : FVec Ideal ⟨2, ![a', n]⟩ .f32)
    (h1 : (⟨2, ![a, n]⟩ : Shape).ShapeCasts ⟨2, ![a, n]⟩) (h2 : (⟨2, ![1, n]⟩ : Shape).ShapeCasts ⟨2, ![1, n]⟩)
    (h3 : (⟨2, ![1, n]⟩ : Shape).Broadcasts ⟨2, ![a, n]⟩)
    (g0 : (⟨0, ![]⟩ : Shape).BroadcastsInDim ⟨2, ![a', n]⟩ ![])
    (g1 : (⟨2, ![1, n]⟩ : Shape).BroadcastsInDim ⟨2, ![a', n]⟩ ![0, 1])
    (r : Fin a) (r' : Fin a') (c : Fin n) (hg : g (ix2 r c) = G (ix2 r' c))
    (hbB : b (ix2 (0 : Fin 1) c) = B (ix2 (0 : Fin 1) c))
    (hu : u (ix2 r c) = U (ix2 r' c)) (hh : h (ix2 r c) = H (ix2 r' c)) :
    addf (mulf (shapeCast ⟨2, ![a, n]⟩ u h1) h)
        (mulf (subf (broadcast ⟨2, ![a, n]⟩ (Scalar.ofBits (F := Ideal) .f32 0x3F800000#32)) (shapeCast ⟨2, ![a, n]⟩ u h1))
          (tanh (addf (shapeCast ⟨2, ![a, n]⟩ g h1) (broadcastTo ⟨2, ![a, n]⟩ (shapeCast ⟨2, ![1, n]⟩ b h2) h3)))) (ix2 r c)
      = addf (mulf U H)
        (mulf (subf (broadcastInDim ⟨2, ![a', n]⟩ ![] g0 (constant (F := Ideal) ⟨0, ![]⟩ .f32 0x3F800000#32)) U)
          (Host.tanh (addf G (broadcastInDim ⟨2, ![a', n]⟩ ![0, 1] g1 B)))) (ix2 r' c) := by
  rw [shapeCast_self, shapeCast_self, shapeCast_self]
  show u (ix2 r c) * h (ix2 r c)
      + (Ideal.ofBits .f32 0x3F800000#32 - u (ix2 r c)) * Ideal.tanh (g (ix2 r c) + broadcastTo ⟨2, ![a, n]⟩ b h3 (ix2 r c))
    = U (ix2 r' c) * H (ix2 r' c)
      + (Ideal.ofBits .f32 0x3F800000#32 - U (ix2 r' c))
        * Ideal.tanh (G (ix2 r' c) + broadcastInDim ⟨2, ![a', n]⟩ ![0, 1] g1 B (ix2 r' c))
  rw [RowColOps.rowSpread_apply, HostRowOps.rowToMat_apply, hg, hbB, hu, hh]

end Pointwise

end Cert.GatedCell

end
-- ==== Proof.Stages.lean ====
/-
  The stages of a two-layer graph convolution followed by a gated update, as functions of whole arrays.

  A node array X of 100000 rows and 64 columns goes through: a linear map X·W; an aggregation over edges (a gather,
  a scaling and a scatter-add, which are the same host operations in both programs and are not opened here); the
  addition of a bias row followed by max(·, 0) or by the logistic function; and last a gated update of a hidden state H,
      z = σ([G, H]·Wz + bz),  r = σ([G, H]·Wr + br),  h' = tanh([G, H∘r]·Wh + bh),  out = z∘H + (1 − z)∘h',
  where [A, B] lays the 64 columns of A and of B side by side and each weight has 128 rows.  Each stage is spelt
  here with the host operations a jnp program uses, so that a host program's composed term is these functions
  applied one to another.  At the extended reals the row (r, q) of the gated update only involves row r of G and H:
  with g = G(r, ·) and h = H(r, ·), a product of the joined row with a 128-row weight is the sum of the two
  half-products, Σ_k g(k)·W(k, q) + Σ_k h(k)·W(64 + k, q), and σ written as 1 / (1 + e^(−x)) is the logistic
  function, infinities included.
-/
import proofs.«177768_j5437428597509_1_alg».proof.ReferenceIdeal
import proofs.«177768_j5437428597509_1_alg».proof.Proof.Gen.ReferenceIdeal
import proofs.«177768_j5437428597509_1_alg».proof.Proof.LibRowOps
import proofs.«177768_j5437428597509_1_alg».proof.Proof.LibHostRowOps
import proofs.«177768_j5437428597509_1_alg».proof.Proof.LibGatedRows
import proofs.«177768_j5437428597509_1_alg».proof.Proof.LibLogisticTanh
import Idealize.ShloMosaic.PureOps.Ideal.Laws
import Idealize.ShloMosaic.Lib.ValueIdx
import Idealize.ShloMosaic.Lib.Pipeline.Value

noncomputable section

namespace Cert.GraphGate

open Idealize.ShloMosaic Idealize.ShloMosaic.ValueIdx Cert.ReferenceIdeal Cert.ReferenceIdeal.Gen

/-- A node array: 100000 rows of 64 features. -/
abbrev Mat := FVec Ideal S100000x64 .f32
/-- Two node arrays side by side: 128 columns. -/
abbrev Mat2 := FVec Ideal S100000x128 .f32
/-- A square weight. -/
abbrev Sq := FVec Ideal S64x64 .f32
/-- A weight over joined rows. -/
abbrev Tall := FVec Ideal S128x64 .f32
/-- A bias vector and a bias row. -/
abbrev Vec64 := FVec Ideal S64 .f32
abbrev Row := FVec Ideal S1x64 .f32

/-- The array of ones. -/
def ones : Mat := broadcastInDim S100000x64 ![] bcast_S_S100000x64 (constant (F := Ideal) S_ .f32 0x3F800000#32)
/-- The array of zeros. -/
def zeros : Mat := broadcastInDim S100000x64 ![] bcast_S_S100000x64 (constant (F := Ideal) S_ .f32 0x00000000#32)

/-- X·W. -/
def lin (x : Mat) (w : Sq) : Mat := Host.dotGeneral dot_S100000x64_S64x64_S100000x64_1_0_0_1_n_n none x w

/-- A bias row added to every row. -/
def plusRow (a : Mat) (b : Row) : Mat := addf a (broadcastInDim S100000x64 ![0, 1] bcast_S1x64_S100000x64_0_1 b)

/-- max(A + b, 0). -/
def biasRelu (a : Mat) (b : Row) : Mat := maximumf (plusRow a b) zeros

/-- 1 / (1 + e^(−A)). -/
def sigm (a : Mat) : Mat := Host.divf ones (addf ones (Host.exp (Host.negf a)))

/-- σ(A + b). -/
def biasSigm (a : Mat) (b : Row) : Mat := sigm (plusRow a b)

/-- A vector laid out as one row. -/
def asRow (b : Vec64) : Row := broadcastInDim S1x64 ![1] bcast_S64_S1x64_1 b

/-- [A, B]. -/
def beside (a b : Mat) : Mat2 :=
  concatenate S100000x128 1 [⟨S100000x64, a⟩, ⟨S100000x64, b⟩] concatenates_S100000x64_S100000x64_S100000x128_d1

/-- [A, B]·W + b. -/
def affine (a b : Mat) (w : Tall) (bias : Vec64) : Mat :=
  plusRow (Host.dotGeneral dot_S100000x128_S128x64_S100000x64_1_0_0_1_n_n none (beside a b) w) (asRow bias)

/-- The gated update. -/
def cell (g h : Mat) (wz : Tall) (bz : Vec64) (wr : Tall) (br : Vec64) (wh : Tall) (bh : Vec64) : Mat :=
  addf (mulf (sigm (affine g h wz bz)) h)
    (mulf (subf ones (sigm (affine g h wz bz))) (Host.tanh (affine g (mulf h (sigm (affine g h wr br))) wh bh)))

/-! ## One entry of each stage -/

theorem plain64 : RowOps.IsPlain dot_S100000x64_S64x64_S100000x64_1_0_0_1_n_n := ⟨rfl, rfl, rfl, rfl, rfl, rfl⟩
theorem plain128 : RowOps.IsPlain dot_S100000x128_S128x64_S100000x64_1_0_0_1_n_n := ⟨rfl, rfl, rfl, rfl, rfl, rfl⟩

/-- The quotient spelling of σ is the logistic function at every entry. -/
theorem sigm_apply (a : Mat) (i : S100000x64.Idx) : sigm a i = Ideal.logistic (a i) :=
  LogisticTanh.quotient_bits (a i)

/-- A bias row added: entry (r, q) gets the row's entry q. -/
theorem plusRow_apply (a : Mat) (b : Row) (r : Fin 100000) (q : Fin 64) :
    plusRow a b (ix2 r q) = a (ix2 r q) + b (ix2 (0 : Fin 1) q) := by
  show a (ix2 r q) + broadcastInDim S100000x64 ![0, 1] bcast_S1x64_S100000x64_0_1 b (ix2 r q) = _
  rw [HostRowOps.rowToMat_apply]

/-- A vector laid out as a row: entry (0, q) is the vector's entry q. -/
theorem asRow_apply (b : Vec64) (q : Fin 64) : asRow b (ix2 (0 : Fin 1) q) = b (ix1 q) :=
  HostRowOps.vecToRow_apply b bcast_S64_S1x64_1 0 q

/-- The pre-activation of a gate at column q, from one row g of the first block and one row h of the second. -/
def pre (g h : Fin 64 → EReal) (w : Tall) (bias : Vec64) (q : Fin 64) : EReal :=
  (∑ k : Fin 64, g k * w (ix2 (Fin.castAdd 64 k : Fin 128) q) + ∑ k : Fin 64, h k * w (ix2 (Fin.natAdd 64 k : Fin 128) q))
    + bias (ix1 q)

/-- A product of joined rows with a 128-row weight is the sum of the two half-products. -/
theorem affine_apply (a b : Mat) (w : Tall) (bias : Vec64) (r : Fin 100000) (q : Fin 64) :
    affine a b w bias (ix2 r q) = pre (fun k => a (ix2 r k)) (fun k => b (ix2 r k)) w bias q := by
  unfold affine
  rw [plusRow_apply, asRow_apply, HostRowOps.dot_apply plain128]
  unfold pre
  congr 1
  rw [show (∑ k : Fin 128, beside a b (ix2 r k) * w (ix2 k q))
      = ∑ k : Fin (64 + 64), beside a b (ix2 r k) * w (ix2 k q) from rfl, Fin.sum_univ_add]
  congr 1
  · refine Finset.sum_congr rfl fun k _ => ?_
    congr 1
    exact GatedCell.beside_left a b concatenates_S100000x64_S100000x64_S100000x128_d1 r (Fin.castAdd 64 k) k.isLt
  · refine Finset.sum_congr rfl fun k _ => ?_
    congr 1
    have hk : 64 ≤ (Fin.natAdd 64 k : Fin 128).val := Nat.le_add_right 64 k.val
    have hkq : (Fin.natAdd 64 k : Fin 128).val - 64 < 64 := by show 64 + k.val - 64 < 64; have := k.isLt; omega
    refine (GatedCell.beside_right a b concatenates_S100000x64_S100000x64_S100000x128_d1 r (Fin.natAdd 64 k) hk hkq).trans ?_
    congr 2
    apply Fin.ext
    show 64 + k.val - 64 = k.val
    omega

/-- The gated update at column q, from row g of the graph features and row h of the hidden state. -/
def cellAt (g h : Fin 64 → EReal) (wz : Tall) (bz : Vec64) (wr : Tall) (br : Vec64) (wh : Tall) (bh : Vec64)
    (q : Fin 64) : EReal :=
  Ideal.logistic (pre g h wz bz q) * h q
    + (Ideal.ofBits .f32 0x3F800000#32 - Ideal.logistic (pre g h wz bz q))
      * Ideal.tanh (pre g (fun k => h k * Ideal.logistic (pre g h wr br k)) wh bh q)

/-- Entry (r, q) of the gated update only involves row r of the two node arrays. -/
theorem cell_apply (g h : Mat) (wz : Tall) (bz : Vec64) (wr : Tall) (br : Vec64) (wh : Tall) (bh : Vec64)
    (r : Fin 100000) (q : Fin 64) :
    cell g h wz bz wr br wh bh (ix2 r q)
      = cellAt (fun k => g (ix2 r k)) (fun k => h (ix2 r k)) wz bz wr br wh bh q := by
  show sigm (affine g h wz bz) (ix2 r q) * h (ix2 r q)
      + (Ideal.ofBits .f32 0x3F800000#32 - sigm (affine g h wz bz) (ix2 r q))
        * Ideal.tanh (affine g (mulf h (sigm (affine g h wr br))) wh bh (ix2 r q)) = _
  rw [sigm_apply, affine_apply, affine_apply]
  unfold cellAt
  congr 4
  funext k
  show h (ix2 r k) * sigm (affine g h wr br) (ix2 r k) = _
  rw [sigm_apply, affine_apply]

end Cert.GraphGate

end
-- ==== Proof.Rows.lean ====
/-
  The kernel bodies, one entry at a time.

  Each of the five kernel bodies works on a block of 5000 rows.  Entry (r, q) of what a body stores only involves
  row r of the block's node-indexed operands and the whole of each weight or bias.  So if row r of a block is row r'
  of a whole node array, the body's entry (r, q) is entry (r', q) of the corresponding stage of the whole arrays:
  a product with a weight into a zero accumulator is the host's contraction (narrowing to bf16 changes nothing at
  the exact reals); max(a + b, 0) and the logistic function of a + b are applied entry by entry; and the gated
  update at (r, q) is the function of row r of the graph features and of the hidden state written out in the
  stages' module, once each half weight is read as the matching 64 rows of the host's 128-row weight and each bias
  row as the host's bias vector.
-/
import proofs.«177768_j5437428597509_1_alg».proof.Proof.Stages
import proofs.«177768_j5437428597509_1_alg».proof.Proof.LibRowColOps
import proofs.«177768_j5437428597509_1_alg».proof.Proof.Gen.KernelIdeal.Skeleton

noncomputable section

namespace Cert.GraphGate

open Idealize.ShloMosaic Idealize.ShloMosaic.ValueIdx Cert.KernelIdeal Cert.KernelIdeal.Gen

theorem zero2 : (![0, 0] : Fin 2 → Nat) = fun _ => 0 := funext fun a => by fin_cases a <;> rfl

theorem kplain : RowOps.IsPlain dot_S5000x64_S64x64_S5000x64_1_0_0_1_n_n := ⟨rfl, rfl, rfl, rfl, rfl, rfl⟩

/-- A block times a weight, at (r, q), as the sum over the shared axis. -/
theorem kdot (x : Vec Ideal S5000x64 .f32) (w : Vec Ideal S64x64 .f32) (r : Fin 5000) (q : Fin 64) :
    matmul dot_S5000x64_S64x64_S5000x64_1_0_0_1_n_n none (truncf .bf16 x bitsLt_bf16_f32) (truncf .bf16 w bitsLt_bf16_f32)
        (constant (F := Ideal) S5000x64 .f32 0x00000000#32) (ix2 r q)
      = ∑ k : Fin 64, x (ix2 r k) * w (ix2 k q) :=
  RowOps.matmul_zero_apply kplain none _ _ r q

/-! ## The linear kernels -/

theorem lin_row (x0 : Vec Ideal S5000x64 .f32) (x1 : Vec Ideal S64x64 .f32) (X : Mat) (W : Sq) (r : Fin 5000) (r' : Fin 100000)
    (hX : ∀ k : Fin 64, x0 (ix2 r k) = X (ix2 r' k)) (hW : ∀ k c : Fin 64, x1 (ix2 k c) = W (ix2 k c)) (q : Fin 64) :
    k0_pay1 x0 x1 (ix2 r q) = lin X W (ix2 r' q) :=
  GatedCell.dense_row kplain plain64 x0 X x1 W bitsLt_bf16_f32 r r' hX hW q

theorem lin_row' (x0 : Vec Ideal S5000x64 .f32) (x1 : Vec Ideal S64x64 .f32) (X : Mat) (W : Sq) (r : Fin 5000) (r' : Fin 100000)
    (hX : ∀ k : Fin 64, x0 (ix2 r k) = X (ix2 r' k)) (hW : ∀ k c : Fin 64, x1 (ix2 k c) = W (ix2 k c)) (q : Fin 64) :
    k2_pay1 x0 x1 (ix2 r q) = lin X W (ix2 r' q) := by
  have e : shapeCast S5000x64 x0 shapeCasts_S5000x64_S5000x64 = x0 := shapeCast_self x0 _
  show matmul dot_S5000x64_S64x64_S5000x64_1_0_0_1_n_n none
      (truncf .bf16 (shapeCast S5000x64 x0 shapeCasts_S5000x64_S5000x64) bitsLt_bf16_f32) (truncf .bf16 x1 bitsLt_bf16_f32)
      (constant (F := Ideal) S5000x64 .f32 0x00000000#32) (ix2 r q) = _
  rw [e]
  exact GatedCell.dense_row kplain plain64 x0 X x1 W bitsLt_bf16_f32 r r' hX hW q

/-! ## The bias kernels -/

theorem relu_row (x0 : Vec Ideal S5000x64 .f32) (x1 : Vec Ideal S1x64 .f32) (A : Mat) (B : Row) (r : Fin 5000) (r' : Fin 100000)
    (q : Fin 64) (hA : x0 (ix2 r q) = A (ix2 r' q)) (hB : x1 (ix2 (0 : Fin 1) q) = B (ix2 (0 : Fin 1) q)) :
    k1_pay1 x0 x1 (ix2 r q) = biasRelu A B (ix2 r' q) := by
  have e0 : shapeCast S5000x64 x0 shapeCasts_S5000x64_S5000x64 = x0 := shapeCast_self x0 _
  have e1 : shapeCast S1x64 x1 shapeCasts_S1x64_S1x64 = x1 := shapeCast_self x1 _
  show max ((shapeCast S5000x64 x0 shapeCasts_S5000x64_S5000x64) (ix2 r q)
        + broadcastTo S5000x64 (shapeCast S1x64 x1 shapeCasts_S1x64_S1x64) broadcasts_S1x64_S5000x64 (ix2 r q))
      (Ideal.ofBits .f32 0x00000000#32)
    = max (plusRow A B (ix2 r' q)) (Ideal.ofBits .f32 0x00000000#32)
  rw [e0, e1, RowColOps.rowSpread_apply, plusRow_apply, hA, hB]

theorem sigm_row (x0 : Vec Ideal S5000x64 .f32) (x1 : Vec Ideal S1x64 .f32) (A : Mat) (B : Row) (r : Fin 5000) (r' : Fin 100000)
    (q : Fin 64) (hA : x0 (ix2 r q) = A (ix2 r' q)) (hB : x1 (ix2 (0 : Fin 1) q) = B (ix2 (0 : Fin 1) q)) :
    k3_pay1 x0 x1 (ix2 r q) = biasSigm A B (ix2 r' q) := by
  have e0 : shapeCast S5000x64 x0 shapeCasts_S5000x64_S5000x64 = x0 := shapeCast_self x0 _
  have e1 : shapeCast S1x64 x1 shapeCasts_S1x64_S1x64 = x1 := shapeCast_self x1 _
  unfold biasSigm
  rw [sigm_apply, plusRow_apply]
  show Ideal.logistic ((shapeCast S5000x64 x0 shapeCasts_S5000x64_S5000x64) (ix2 r q)
        + broadcastTo S5000x64 (shapeCast S1x64 x1 shapeCasts_S1x64_S1x64) broadcasts_S1x64_S5000x64 (ix2 r q)) = _
  rw [e0, e1, RowColOps.rowSpread_apply, hA, hB]

/-! ## The gated update -/

/-- Two half products plus a bias row, in the kernel's spelling, is the gate's pre-activation. -/
theorem kpre (g h : Vec Ideal S5000x64 .f32) (w1 w2 : Vec Ideal S64x64 .f32) (b : Vec Ideal S1x64 .f32) (W : Tall) (bias : Vec64)
    (hw1 : ∀ k c : Fin 64, w1 (ix2 k c) = W (ix2 (Fin.castAdd 64 k : Fin 128) c))
    (hw2 : ∀ k c : Fin 64, w2 (ix2 k c) = W (ix2 (Fin.natAdd 64 k : Fin 128) c))
    (hb : ∀ c : Fin 64, b (ix2 (0 : Fin 1) c) = bias (ix1 c)) (r : Fin 5000) (q : Fin 64) :
    (matmul dot_S5000x64_S64x64_S5000x64_1_0_0_1_n_n none (truncf .bf16 g bitsLt_bf16_f32) (truncf .bf16 w1 bitsLt_bf16_f32)
          (constant (F := Ideal) S5000x64 .f32 0x00000000#32) (ix2 r q)
        + matmul dot_S5000x64_S64x64_S5000x64_1_0_0_1_n_n none (truncf .bf16 h bitsLt_bf16_f32) (truncf .bf16 w2 bitsLt_bf16_f32)
          (constant (F := Ideal) S5000x64 .f32 0x00000000#32) (ix2 r q))
      + broadcastTo S5000x64 b broadcasts_S1x64_S5000x64 (ix2 r q)
      = pre (fun k => g (ix2 r k)) (fun k => h (ix2 r k)) W bias q := by
  rw [kdot, kdot, RowColOps.rowSpread_apply, hb]
  unfold pre
  congr 2
  · exact Finset.sum_congr rfl fun k _ => by rw [hw1]
  · exact Finset.sum_congr rfl fun k _ => by rw [hw2]

/-- The gated update's body at (r, q). -/
theorem cell_row (x0 x1 : Vec Ideal S5000x64 .f32) (x2 x3 : Vec Ideal S64x64 .f32) (x4 : Vec Ideal S1x64 .f32)
    (x5 x6 : Vec Ideal S64x64 .f32) (x7 : Vec Ideal S1x64 .f32) (x8 x9 : Vec Ideal S64x64 .f32) (x10 : Vec Ideal S1x64 .f32)
    (wz : Tall) (bz : Vec64) (wr : Tall) (br : Vec64) (wh : Tall) (bh : Vec64)
    (h2 : ∀ k c : Fin 64, x2 (ix2 k c) = wz (ix2 (Fin.castAdd 64 k : Fin 128) c))
    (h3 : ∀ k c : Fin 64, x3 (ix2 k c) = wz (ix2 (Fin.natAdd 64 k : Fin 128) c))
    (h4 : ∀ c : Fin 64, x4 (ix2 (0 : Fin 1) c) = bz (ix1 c))
    (h5 : ∀ k c : Fin 64, x5 (ix2 k c) = wr (ix2 (Fin.castAdd 64 k : Fin 128) c))
    (h6 : ∀ k c : Fin 64, x6 (ix2 k c) = wr (ix2 (Fin.natAdd 64 k : Fin 128) c))
    (h7 : ∀ c : Fin 64, x7 (ix2 (0 : Fin 1) c) = br (ix1 c))
    (h8 : ∀ k c : Fin 64, x8 (ix2 k c) = wh (ix2 (Fin.castAdd 64 k : Fin 128) c))
    (h9 : ∀ k c : Fin 64, x9 (ix2 k c) = wh (ix2 (Fin.natAdd 64 k : Fin 128) c))
    (h10 : ∀ c : Fin 64, x10 (ix2 (0 : Fin 1) c) = bh (ix1 c)) (r : Fin 5000) (q : Fin 64) :
    k4_pay1 x1 (k4_pay2 x0) (k4_pay4 x8) (k4_pay5 x9) (k4_pay6 x0 x1 x2 x3 x4) (k4_pay7 x0 x1 x5 x6) x7 x10 (ix2 r q)
      = cellAt (fun k => x0 (ix2 r k)) (fun k => x1 (ix2 r k)) wz bz wr br wh bh q := by
  have e0 : shapeCast S5000x64 x0 shapeCasts_S5000x64_S5000x64 = x0 := shapeCast_self x0 _
  have e2 : shapeCast S64x64 x2 shapeCasts_S64x64_S64x64 = x2 := shapeCast_self x2 _
  have e3 : shapeCast S64x64 x3 shapeCasts_S64x64_S64x64 = x3 := shapeCast_self x3 _
  have e4 : shapeCast S1x64 x4 shapeCasts_S1x64_S1x64 = x4 := shapeCast_self x4 _
  have e5 : shapeCast S64x64 x5 shapeCasts_S64x64_S64x64 = x5 := shapeCast_self x5 _
  have e6 : shapeCast S64x64 x6 shapeCasts_S64x64_S64x64 = x6 := shapeCast_self x6 _
  have e7 : shapeCast S1x64 x7 shapeCasts_S1x64_S1x64 = x7 := shapeCast_self x7 _
  have e8 : shapeCast S64x64 x8 shapeCasts_S64x64_S64x64 = x8 := shapeCast_self x8 _
  have e9 : shapeCast S64x64 x9 shapeCasts_S64x64_S64x64 = x9 := shapeCast_self x9 _
  have e10 : shapeCast S1x64 x10 shapeCasts_S1x64_S1x64 = x10 := shapeCast_self x10 _
  -- the update gate at (r, c) and the reset gate at (r, c), any column c
  have hz : ∀ c : Fin 64, k4_pay6 x0 x1 x2 x3 x4 (ix2 r c)
      = Ideal.logistic (pre (fun k => x0 (ix2 r k)) (fun k => x1 (ix2 r k)) wz bz c) := fun c => by
    show Ideal.logistic
      ((matmul dot_S5000x64_S64x64_S5000x64_1_0_0_1_n_n none
            (truncf .bf16 (shapeCast S5000x64 x0 shapeCasts_S5000x64_S5000x64) bitsLt_bf16_f32)
            (truncf .bf16 (shapeCast S64x64 x2 shapeCasts_S64x64_S64x64) bitsLt_bf16_f32)
            (constant (F := Ideal) S5000x64 .f32 0x00000000#32) (ix2 r c)
          + matmul dot_S5000x64_S64x64_S5000x64_1_0_0_1_n_n none (truncf .bf16 x1 bitsLt_bf16_f32)
            (truncf .bf16 (shapeCast S64x64 x3 shapeCasts_S64x64_S64x64) bitsLt_bf16_f32)
            (constant (F := Ideal) S5000x64 .f32 0x00000000#32) (ix2 r c))
        + broadcastTo S5000x64 (shapeCast S1x64 x4 shapeCasts_S1x64_S1x64) broadcasts_S1x64_S5000x64 (ix2 r c)) = _
    rw [e0, e2, e3, e4, kpre x0 x1 x2 x3 x4 wz bz h2 h3 h4 r c]
  have hr : ∀ c : Fin 64, logistic (addf (k4_pay7 x0 x1 x5 x6)
        (broadcastTo S5000x64 (shapeCast S1x64 x7 shapeCasts_S1x64_S1x64) broadcasts_S1x64_S5000x64)) (ix2 r c)
      = Ideal.logistic (pre (fun k => x0 (ix2 r k)) (fun k => x1 (ix2 r k)) wr br c) := fun c => by
    show Ideal.logistic
      ((matmul dot_S5000x64_S64x64_S5000x64_1_0_0_1_n_n none
            (truncf .bf16 (shapeCast S5000x64 x0 shapeCasts_S5000x64_S5000x64) bitsLt_bf16_f32)
            (truncf .bf16 (shapeCast S64x64 x5 shapeCasts_S64x64_S64x64) bitsLt_bf16_f32)
            (constant (F := Ideal) S5000x64 .f32 0x00000000#32) (ix2 r c)
          + matmul dot_S5000x64_S64x64_S5000x64_1_0_0_1_n_n none (truncf .bf16 x1 bitsLt_bf16_f32)
            (truncf .bf16 (shapeCast S64x64 x6 shapeCasts_S64x64_S64x64) bitsLt_bf16_f32)
            (constant (F := Ideal) S5000x64 .f32 0x00000000#32) (ix2 r c))
        + broadcastTo S5000x64 (shapeCast S1x64 x7 shapeCasts_S1x64_S1x64) broadcasts_S1x64_S5000x64 (ix2 r c)) = _
    rw [e0, e5, e6, e7, kpre x0 x1 x5 x6 x7 wr br h5 h6 h7 r c]
  -- the candidate state's pre-activation: the hidden row enters multiplied by the reset gate
  have hc : (matmul dot_S5000x64_S64x64_S5000x64_1_0_0_1_n_n none
            (truncf .bf16 (shapeCast S5000x64 x0 shapeCasts_S5000x64_S5000x64) bitsLt_bf16_f32)
            (truncf .bf16 (shapeCast S64x64 x8 shapeCasts_S64x64_S64x64) bitsLt_bf16_f32)
            (constant (F := Ideal) S5000x64 .f32 0x00000000#32) (ix2 r q)
          + matmul dot_S5000x64_S64x64_S5000x64_1_0_0_1_n_n none
            (truncf .bf16 (mulf x1 (logistic (addf (k4_pay7 x0 x1 x5 x6)
              (broadcastTo S5000x64 (shapeCast S1x64 x7 shapeCasts_S1x64_S1x64) broadcasts_S1x64_S5000x64)))) bitsLt_bf16_f32)
            (truncf .bf16 (shapeCast S64x64 x9 shapeCasts_S64x64_S64x64) bitsLt_bf16_f32)
            (constant (F := Ideal) S5000x64 .f32 0x00000000#32) (ix2 r q))
        + broadcastTo S5000x64 (shapeCast S1x64 x10 shapeCasts_S1x64_S1x64) broadcasts_S1x64_S5000x64 (ix2 r q)
      = pre (fun k => x0 (ix2 r k))
          (fun k => x1 (ix2 r k) * Ideal.logistic (pre (fun k => x0 (ix2 r k)) (fun k => x1 (ix2 r k)) wr br k)) wh bh q := by
    rw [e0, e8, e9, e10, kpre x0 _ x8 x9 x10 wh bh h8 h9 h10 r q]
    congr 1
    funext k
    show x1 (ix2 r k) * _ = _
    rw [hr k]
  show k4_pay6 x0 x1 x2 x3 x4 (ix2 r q) * x1 (ix2 r q)
      + (Ideal.ofBits .f32 0x3F800000#32 - k4_pay6 x0 x1 x2 x3 x4 (ix2 r q)) * Ideal.tanh _ = _
  rw [hz q]
  unfold cellAt
  congr 2
  exact congrArg Ideal.tanh hc

end Cert.GraphGate

end
-- ==== Proof.Region0.lean ====
/-
  The first linear kernel, from blocks to the whole array.

  The grid has twenty points; point t reads rows 5000·t … 5000·t + 4999 of the node array and the whole weight, and
  writes the same rows of the output.  Entry (r, q) of its block is entry (5000·t + r, q) of the host's product of the
  whole arrays, and the twenty blocks tile the output, so the output array ends holding that product.
-/
import proofs.«177768_j5437428597509_1_alg».proof.Proof.Rows
import proofs.«177768_j5437428597509_1_alg».proof.Proof.Gen.KernelIdeal.Frame
import Idealize.ShloMosaic.Lib.Pipeline.Value

set_option maxRecDepth 16384

noncomputable section

namespace Cert.GraphGate

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-! ## Region 0 -/

/-- The index maps of region 0, decided over its twenty points: a row window's block index is the point, every other one is zero. -/
theorem idx0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- Row r of window 0's block at point t is row 5000·t + r of its array. -/
theorem read0_0 (c : Dev nD) (t : Fin cfg0.N) (r : Fin 5000) (k : Fin 64) (hr : t.val * 5000 + r.val < 100000) :
    iblk0 V c 0 t (ix2 r k) = V c main_arg0 (ix2 (⟨t.val * 5000 + r.val, hr⟩ : Fin 100000) k) := by
  obtain ⟨e0, e1, e2, e3, e4, e5⟩ := idx0 t
  show V c main_arg0 (((cfg0.win 0).blk t).view.emb (ix2 r k)) = _
  refine congrArg (V c main_arg0) ?_
  funext a; apply Fin.ext
  match a with
  | ⟨0, _⟩ => show win0_0.index t (0 : Fin 2) * 5000 + 1 * r.val = t.val * 5000 + r.val; omega
  | ⟨1, _⟩ => show win0_0.index t (1 : Fin 2) * 64 + 1 * k.val = k.val; omega

/-- Window 1's block at any point is its whole array. -/
theorem read0_1 (c : Dev nD) (t : Fin cfg0.N) (k q : Fin 64) :
    iblk0 V c 1 t (ix2 k q) = V c main_arg4 (ix2 k q) := by
  obtain ⟨e0, e1, e2, e3, e4, e5⟩ := idx0 t
  show V c main_arg4 (((cfg0.win 1).blk t).view.emb (ix2 k q)) = _
  refine congrArg (V c main_arg4) ?_
  funext a; apply Fin.ext
  match a with
  | ⟨0, _⟩ => show win0_1.index t (0 : Fin 2) * 64 + 1 * k.val = k.val; omega
  | ⟨1, _⟩ => show win0_1.index t (1 : Fin 2) * 64 + 1 * q.val = q.val; omega

/-- Entry (r, q) of the output block at point t sits at row 5000·t + r of the output array. -/
theorem emb0 (t : Fin cfg0.N) (r : Fin 5000) (q : Fin 64) (hr : t.val * 5000 + r.val < 100000) :
    ((cfg0.win 2).blk t).view.emb (ix2 r q) = ix2 (⟨t.val * 5000 + r.val, hr⟩ : Fin 100000) q := by
  obtain ⟨e0, e1, e2, e3, e4, e5⟩ := idx0 t
  funext a; apply Fin.ext
  match a with
  | ⟨0, _⟩ => show win0_2.index t (0 : Fin 2) * 5000 + 1 * r.val = t.val * 5000 + r.val; omega
  | ⟨1, _⟩ => show win0_2.index t (1 : Fin 2) * 64 + 1 * q.val = q.val; omega

/-- An index of the output array is in point t's block iff each coordinate is in the block's range. -/
theorem mem_blk0 (t : Fin cfg0.N) (i : S100000x64.Idx) :
    i ∈ ((cfg0.win 2).blk t).view.set ↔ ∀ a : Fin 2, win0_2.index t a * S5000x64.size a ≤ (i a).val
      ∧ (i a).val < win0_2.index t a * S5000x64.size a + S5000x64.size a := by
  show i ∈ ((View.whole main_v32).slice (win0_2.rect t)).set ↔ _
  rw [View.set_slice_whole, Rect.mem_set_unit]
  exact Iff.rfl

/-- Row i of the output array is written back by point i / 5000. -/
theorem cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 20 := N_0
  have ht : (i 0).val / 5000 < cfg0.N := by omega
  obtain ⟨e0, e1, e2, e3, e4, e5⟩ := idx0 ⟨(i 0).val / 5000, ht⟩
  refine ⟨⟨(i 0).val / 5000, ht⟩, flush0_2 _, ?_⟩
  rw [mem_blk0]
  intro a
  match a with
  | ⟨0, _⟩ =>
    show win0_2.index ⟨(i 0).val / 5000, ht⟩ (0 : Fin 2) * 5000 ≤ (i 0).val
      ∧ (i 0).val < win0_2.index ⟨(i 0).val / 5000, ht⟩ (0 : Fin 2) * 5000 + 5000
    have e : win0_2.index ⟨(i 0).val / 5000, ht⟩ (0 : Fin 2) = (i 0).val / 5000 := e4
    omega
  | ⟨1, _⟩ =>
    show win0_2.index ⟨(i 0).val / 5000, ht⟩ (1 : Fin 2) * 64 ≤ (i 1).val
      ∧ (i 1).val < win0_2.index ⟨(i 0).val / 5000, ht⟩ (1 : Fin 2) * 64 + 64
    omega

/-- What point t writes back is block t of the stage applied to the arrays the region finds. -/
theorem flushed0 (c : Dev nD) (t : Fin cfg0.N) :
    (dat0 V c).flushed 2 t = ((cfg0.win 2).blk t).view.read (Elt Ideal) (lin (V c main_arg0) (V c main_arg4)) := by
  show (cfg0.win 2).cut (grid0.coords t) ((dat0 V c).after 2 t) = _
  rw [after0_2]
  unfold out0_2
  rw [View.canon_unit_zero zero2]
  simp only [View.ld_unit_zero (S := S5000x64) zero2, View.ld_unit_zero (S := S64x64) zero2]
  funext j
  obtain ⟨r, q, rfl⟩ : ∃ (r : Fin 5000) (q : Fin 64), j = ix2 r q := ⟨j 0, j 1, eq_ix2 j⟩
  have hN : cfg0.N = 20 := N_0
  have hr : t.val * 5000 + r.val < 100000 := by have := t.isLt; have := r.isLt; omega
  show _ = (lin (V c main_arg0) (V c main_arg4)) (((cfg0.win 2).blk t).view.emb (ix2 r q))
  rw [emb0 t r q hr]
  exact lin_row (iblk0 V c 0 t) (iblk0 V c 1 t) (V c main_arg0) (V c main_arg4) r ⟨t.val * 5000 + r.val, hr⟩
    (fun k => read0_0 V c t r k hr) (fun k q' => read0_1 V c t k q') q

/-- The blocks tile the output array, so it ends holding the stage of the arrays the region finds. -/
theorem final0 (c : Dev nD) : (dat0 V c).arrAt 2 cfg0.N = lin (V c main_arg0) (V c main_arg4) :=
  (dat0 V c).arrAt_eq_of_cover 2 (lin (V c main_arg0) (V c main_arg4)) (fun t _ => flushed0 V c t) cover0

end Cert.GraphGate

end
-- ==== Proof.Region1.lean ====
/-
  The first bias kernel, from blocks to the whole array.

  Point t reads rows 5000·t … 5000·t + 4999 of the aggregated array and the one bias row, and writes the same rows of
  max(a + b, 0).  The twenty blocks tile the output, so the output array ends holding max(A + b, 0) of the whole array.
-/
import proofs.«177768_j5437428597509_1_alg».proof.Proof.Rows
import proofs.«177768_j5437428597509_1_alg».proof.Proof.Gen.KernelIdeal.Frame
import Idealize.ShloMosaic.Lib.Pipeline.Value

set_option maxRecDepth 16384

noncomputable section

namespace Cert.GraphGate

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-! ## Region 1 -/

/-- The index maps of region 1, decided over its twenty points: a row window's block index is the point, every other one is zero. -/
theorem idx1 : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-- Row r of window 0's block at point t is row 5000·t + r of its array. -/
theorem read1_0 (c : Dev nD) (t : Fin cfg1.N) (r : Fin 5000) (k : Fin 64) (hr : t.val * 5000 + r.val < 100000) :
    iblk1 V c 0 t (ix2 r k) = V c main_v45 (ix2 (⟨t.val * 5000 + r.val, hr⟩ : Fin 100000) k) := by
  obtain ⟨e0, e1, e2, e3, e4, e5⟩ := idx1 t
  show V c main_v45 (((cfg1.win 0).blk t).view.emb (ix2 r k)) = _
  refine congrArg (V c main_v45) ?_
  funext a; apply Fin.ext
  match a with
  | ⟨0, _⟩ => show win1_0.index t (0 : Fin 2) * 5000 + 1 * r.val = t.val * 5000 + r.val; omega
  | ⟨1, _⟩ => show win1_0.index t (1 : Fin 2) * 64 + 1 * k.val = k.val; omega

/-- Window 1's block at any point is its whole one-row array. -/
theorem read1_1 (c : Dev nD) (t : Fin cfg1.N) (u : Fin 1) (q : Fin 64) :
    iblk1 V c 1 t (ix2 u q) = V c main_v46 (ix2 u q) := by
  obtain ⟨e0, e1, e2, e3, e4, e5⟩ := idx1 t
  show V c main_v46 (((cfg1.win 1).blk t).view.emb (ix2 u q)) = _
  refine congrArg (V c main_v46) ?_
  funext a; apply Fin.ext
  match a with
  | ⟨0, _⟩ => show win1_1.index t (0 : Fin 2) * 1 + 1 * u.val = u.val; omega
  | ⟨1, _⟩ => show win1_1.index t (1 : Fin 2) * 64 + 1 * q.val = q.val; omega

/-- Entry (r, q) of the output block at point t sits at row 5000·t + r of the output array. -/
theorem emb1 (t : Fin cfg1.N) (r : Fin 5000) (q : Fin 64) (hr : t.val * 5000 + r.val < 100000) :
    ((cfg1.win 2).blk t).view.emb (ix2 r q) = ix2 (⟨t.val * 5000 + r.val, hr⟩ : Fin 100000) q := by
  obtain ⟨e0, e1, e2, e3, e4, e5⟩ := idx1 t
  funext a; apply Fin.ext
  match a with
  | ⟨0, _⟩ => show win1_2.index t (0 : Fin 2) * 5000 + 1 * r.val = t.val * 5000 + r.val; omega
  | ⟨1, _⟩ => show win1_2.index t (1 : Fin 2) * 64 + 1 * q.val = q.val; omega

/-- An index of the output array is in point t's block iff each coordinate is in the block's range. -/
theorem mem_blk1 (t : Fin cfg1.N) (i : S100000x64.Idx) :
    i ∈ ((cfg1.win 2).blk t).view.set ↔ ∀ a : Fin 2, win1_2.index t a * S5000x64.size a ≤ (i a).val
      ∧ (i a).val < win1_2.index t a * S5000x64.size a + S5000x64.size a := by
  show i ∈ ((View.whole main_v47).slice (win1_2.rect t)).set ↔ _
  rw [View.set_slice_whole, Rect.mem_set_unit]
  exact Iff.rfl

/-- Row i of the output array is written back by point i / 5000. -/
theorem cover1 (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 20 := N_1
  have ht : (i 0).val / 5000 < cfg1.N := by omega
  obtain ⟨e0, e1, e2, e3, e4, e5⟩ := idx1 ⟨(i 0).val / 5000, ht⟩
  refine ⟨⟨(i 0).val / 5000, ht⟩, flush1_2 _, ?_⟩
  rw [mem_blk1]
  intro a
  match a with
  | ⟨0, _⟩ =>
    show win1_2.index ⟨(i 0).val / 5000, ht⟩ (0 : Fin 2) * 5000 ≤ (i 0).val
      ∧ (i 0).val < win1_2.index ⟨(i 0).val / 5000, ht⟩ (0 : Fin 2) * 5000 + 5000
    have e : win1_2.index ⟨(i 0).val / 5000, ht⟩ (0 : Fin 2) = (i 0).val / 5000 := e4
    omega
  | ⟨1, _⟩ =>
    show win1_2.index ⟨(i 0).val / 5000, ht⟩ (1 : Fin 2) * 64 ≤ (i 1).val
      ∧ (i 1).val < win1_2.index ⟨(i 0).val / 5000, ht⟩ (1 : Fin 2) * 64 + 64
    omega

/-- What point t writes back is block t of the stage applied to the arrays the region finds. -/
theorem flushed1 (c : Dev nD) (t : Fin cfg1.N) :
    (dat1 V c).flushed 2 t = ((cfg1.win 2).blk t).view.read (Elt Ideal) (biasRelu (V c main_v45) (V c main_v46)) := by
  show (cfg1.win 2).cut (grid1.coords t) ((dat1 V c).after 2 t) = _
  rw [after1_2]
  unfold out1_2
  rw [View.canon_unit_zero zero2]
  simp only [View.ld_unit_zero (S := S5000x64) zero2, View.ld_unit_zero (S := S1x64) zero2]
  funext j
  obtain ⟨r, q, rfl⟩ : ∃ (r : Fin 5000) (q : Fin 64), j = ix2 r q := ⟨j 0, j 1, eq_ix2 j⟩
  have hN : cfg1.N = 20 := N_1
  have hr : t.val * 5000 + r.val < 100000 := by have := t.isLt; have := r.isLt; omega
  show _ = (biasRelu (V c main_v45) (V c main_v46)) (((cfg1.win 2).blk t).view.emb (ix2 r q))
  rw [emb1 t r q hr]
  exact relu_row (iblk1 V c 0 t) (iblk1 V c 1 t) (V c main_v45) (V c main_v46) r ⟨t.val * 5000 + r.val, hr⟩ q
    (read1_0 V c t r q hr) (read1_1 V c t 0 q)

/-- The blocks tile the output array, so it ends holding the stage of the arrays the region finds. -/
theorem final1 (c : Dev nD) : (dat1 V c).arrAt 2 cfg1.N = biasRelu (V c main_v45) (V c main_v46) :=
  (dat1 V c).arrAt_eq_of_cover 2 (biasRelu (V c main_v45) (V c main_v46)) (fun t _ => flushed1 V c t) cover1

end Cert.GraphGate

end
-- ==== Proof.Region2.lean ====
/-
  The second linear kernel, from blocks to the whole array.

  As the first: point t multiplies rows 5000·t … 5000·t + 4999 of the first layer's output by the whole second weight,
  and the twenty blocks tile the output array, which ends holding the host's product of the whole arrays.
-/
import proofs.«177768_j5437428597509_1_alg».proof.Proof.Rows
import proofs.«177768_j5437428597509_1_alg».proof.Proof.Gen.KernelIdeal.Frame
import Idealize.ShloMosaic.Lib.Pipeline.Value

set_option maxRecDepth 16384

noncomputable section

namespace Cert.GraphGate

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-! ## Region 2 -/

/-- The index maps of region 2, decided over its twenty points: a row window's block index is the point, every other one is zero. -/
theorem idx2 : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- Row r of window 0's block at point t is row 5000·t + r of its array. -/
theorem read2_0 (c : Dev nD) (t : Fin cfg2.N) (r : Fin 5000) (k : Fin 64) (hr : t.val * 5000 + r.val < 100000) :
    iblk2 V c 0 t (ix2 r k) = V c main_v47 (ix2 (⟨t.val * 5000 + r.val, hr⟩ : Fin 100000) k) := by
  obtain ⟨e0, e1, e2, e3, e4, e5⟩ := idx2 t
  show V c main_v47 (((cfg2.win 0).blk t).view.emb (ix2 r k)) = _
  refine congrArg (V c main_v47) ?_
  funext a; apply Fin.ext
  match a with
  | ⟨0, _⟩ => show win2_0.index t (0 : Fin 2) * 5000 + 1 * r.val = t.val * 5000 + r.val; omega
  | ⟨1, _⟩ => show win2_0.index t (1 : Fin 2) * 64 + 1 * k.val = k.val; omega

/-- Window 1's block at any point is its whole array. -/
theorem read2_1 (c : Dev nD) (t : Fin cfg2.N) (k q : Fin 64) :
    iblk2 V c 1 t (ix2 k q) = V c main_arg6 (ix2 k q) := by
  obtain ⟨e0, e1, e2, e3, e4, e5⟩ := idx2 t
  show V c main_arg6 (((cfg2.win 1).blk t).view.emb (ix2 k q)) = _
  refine congrArg (V c main_arg6) ?_
  funext a; apply Fin.ext
  match a with
  | ⟨0, _⟩ => show win2_1.index t (0 : Fin 2) * 64 + 1 * k.val = k.val; omega
  | ⟨1, _⟩ => show win2_1.index t (1 : Fin 2) * 64 + 1 * q.val = q.val; omega

/-- Entry (r, q) of the output block at point t sits at row 5000·t + r of the output array. -/
theorem emb2 (t : Fin cfg2.N) (r : Fin 5000) (q : Fin 64) (hr : t.val * 5000 + r.val < 100000) :
    ((cfg2.win 2).blk t).view.emb (ix2 r q) = ix2 (⟨t.val * 5000 + r.val, hr⟩ : Fin 100000) q := by
  obtain ⟨e0, e1, e2, e3, e4, e5⟩ := idx2 t
  funext a; apply Fin.ext
  match a with
  | ⟨0, _⟩ => show win2_2.index t (0 : Fin 2) * 5000 + 1 * r.val = t.val * 5000 + r.val; omega
  | ⟨1, _⟩ => show win2_2.index t (1 : Fin 2) * 64 + 1 * q.val = q.val; omega

/-- An index of the output array is in point t's block iff each coordinate is in the block's range. -/
theorem mem_blk2 (t : Fin cfg2.N) (i : S100000x64.Idx) :
    i ∈ ((cfg2.win 2).blk t).view.set ↔ ∀ a : Fin 2, win2_2.index t a * S5000x64.size a ≤ (i a).val
      ∧ (i a).val < win2_2.index t a * S5000x64.size a + S5000x64.size a := by
  show i ∈ ((View.whole main_v48).slice (win2_2.rect t)).set ↔ _
  rw [View.set_slice_whole, Rect.mem_set_unit]
  exact Iff.rfl

/-- Row i of the output array is written back by point i / 5000. -/
theorem cover2 (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 20 := N_2
  have ht : (i 0).val / 5000 < cfg2.N := by omega
  obtain ⟨e0, e1, e2, e3, e4, e5⟩ := idx2 ⟨(i 0).val / 5000, ht⟩
  refine ⟨⟨(i 0).val / 5000, ht⟩, flush2_2 _, ?_⟩
  rw [mem_blk2]
  intro a
  match a with
  | ⟨0, _⟩ =>
    show win2_2.index ⟨(i 0).val / 5000, ht⟩ (0 : Fin 2) * 5000 ≤ (i 0).val
      ∧ (i 0).val < win2_2.index ⟨(i 0).val / 5000, ht⟩ (0 : Fin 2) * 5000 + 5000
    have e : win2_2.index ⟨(i 0).val / 5000, ht⟩ (0 : Fin 2) = (i 0).val / 5000 := e4
    omega
  | ⟨1, _⟩ =>
    show win2_2.index ⟨(i 0).val / 5000, ht⟩ (1 : Fin 2) * 64 ≤ (i 1).val
      ∧ (i 1).val < win2_2.index ⟨(i 0).val / 5000, ht⟩ (1 : Fin 2) * 64 + 64
    omega

/-- What point t writes back is block t of the stage applied to the arrays the region finds. -/
theorem flushed2 (c : Dev nD) (t : Fin cfg2.N) :
    (dat2 V c).flushed 2 t = ((cfg2.win 2).blk t).view.read (Elt Ideal) (lin (V c main_v47) (V c main_arg6)) := by
  show (cfg2.win 2).cut (grid2.coords t) ((dat2 V c).after 2 t) = _
  rw [after2_2]
  unfold out2_2
  rw [View.canon_unit_zero zero2]
  simp only [View.ld_unit_zero (S := S5000x64) zero2, View.ld_unit_zero (S := S64x64) zero2]
  funext j
  obtain ⟨r, q, rfl⟩ : ∃ (r : Fin 5000) (q : Fin 64), j = ix2 r q := ⟨j 0, j 1, eq_ix2 j⟩
  have hN : cfg2.N = 20 := N_2
  have hr : t.val * 5000 + r.val < 100000 := by have := t.isLt; have := r.isLt; omega
  show _ = (lin (V c main_v47) (V c main_arg6)) (((cfg2.win 2).blk t).view.emb (ix2 r q))
  rw [emb2 t r q hr]
  exact lin_row' (iblk2 V c 0 t) (iblk2 V c 1 t) (V c main_v47) (V c main_arg6) r ⟨t.val * 5000 + r.val, hr⟩
    (fun k => read2_0 V c t r k hr) (fun k q' => read2_1 V c t k q') q

/-- The blocks tile the output array, so it ends holding the stage of the arrays the region finds. -/
theorem final2 (c : Dev nD) : (dat2 V c).arrAt 2 cfg2.N = lin (V c main_v47) (V c main_arg6) :=
  (dat2 V c).arrAt_eq_of_cover 2 (lin (V c main_v47) (V c main_arg6)) (fun t _ => flushed2 V c t) cover2

end Cert.GraphGate

end
-- ==== Proof.Region3.lean ====
/-
  The second bias kernel, from blocks to the whole array.

  Point t reads rows 5000·t … 5000·t + 4999 of the aggregated array and the one bias row, and writes the same rows of
  σ(a + b).  The twenty blocks tile the output, so the output array ends holding σ(A + b) of the whole array, σ spelt
  as the host spells it.
-/
import proofs.«177768_j5437428597509_1_alg».proof.Proof.Rows
import proofs.«177768_j5437428597509_1_alg».proof.Proof.Gen.KernelIdeal.Frame
import Idealize.ShloMosaic.Lib.Pipeline.Value

set_option maxRecDepth 16384

noncomputable section

namespace Cert.GraphGate

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-! ## Region 3 -/

/-- The index maps of region 3, decided over its twenty points: a row window's block index is the point, every other one is zero. -/
theorem idx3 : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 2) = t.val
    ∧ win3_2.index t (1 : Fin 2) = 0 :=
  (by decide +kernel : ∀ t : Fin grid3.N, _)

/-- Row r of window 0's block at point t is row 5000·t + r of its array. -/
theorem read3_0 (c : Dev nD) (t : Fin cfg3.N) (r : Fin 5000) (k : Fin 64) (hr : t.val * 5000 + r.val < 100000) :
    iblk3 V c 0 t (ix2 r k) = V c main_v61 (ix2 (⟨t.val * 5000 + r.val, hr⟩ : Fin 100000) k) := by
  obtain ⟨e0, e1, e2, e3, e4, e5⟩ := idx3 t
  show V c main_v61 (((cfg3.win 0).blk t).view.emb (ix2 r k)) = _
  refine congrArg (V c main_v61) ?_
  funext a; apply Fin.ext
  match a with
  | ⟨0, _⟩ => show win3_0.index t (0 : Fin 2) * 5000 + 1 * r.val = t.val * 5000 + r.val; omega
  | ⟨1, _⟩ => show win3_0.index t (1 : Fin 2) * 64 + 1 * k.val = k.val; omega

/-- Window 1's block at any point is its whole one-row array. -/
theorem read3_1 (c : Dev nD) (t : Fin cfg3.N) (u : Fin 1) (q : Fin 64) :
    iblk3 V c 1 t (ix2 u q) = V c main_v62 (ix2 u q) := by
  obtain ⟨e0, e1, e2, e3, e4, e5⟩ := idx3 t
  show V c main_v62 (((cfg3.win 1).blk t).view.emb (ix2 u q)) = _
  refine congrArg (V c main_v62) ?_
  funext a; apply Fin.ext
  match a with
  | ⟨0, _⟩ => show win3_1.index t (0 : Fin 2) * 1 + 1 * u.val = u.val; omega
  | ⟨1, _⟩ => show win3_1.index t (1 : Fin 2) * 64 + 1 * q.val = q.val; omega

/-- Entry (r, q) of the output block at point t sits at row 5000·t + r of the output array. -/
theorem emb3 (t : Fin cfg3.N) (r : Fin 5000) (q : Fin 64) (hr : t.val * 5000 + r.val < 100000) :
    ((cfg3.win 2).blk t).view.emb (ix2 r q) = ix2 (⟨t.val * 5000 + r.val, hr⟩ : Fin 100000) q := by
  obtain ⟨e0, e1, e2, e3, e4, e5⟩ := idx3 t
  funext a; apply Fin.ext
  match a with
  | ⟨0, _⟩ => show win3_2.index t (0 : Fin 2) * 5000 + 1 * r.val = t.val * 5000 + r.val; omega
  | ⟨1, _⟩ => show win3_2.index t (1 : Fin 2) * 64 + 1 * q.val = q.val; omega

/-- An index of the output array is in point t's block iff each coordinate is in the block's range. -/
theorem mem_blk3 (t : Fin cfg3.N) (i : S100000x64.Idx) :
    i ∈ ((cfg3.win 2).blk t).view.set ↔ ∀ a : Fin 2, win3_2.index t a * S5000x64.size a ≤ (i a).val
      ∧ (i a).val < win3_2.index t a * S5000x64.size a + S5000x64.size a := by
  show i ∈ ((View.whole main_v63).slice (win3_2.rect t)).set ↔ _
  rw [View.set_slice_whole, Rect.mem_set_unit]
  exact Iff.rfl

/-- Row i of the output array is written back by point i / 5000. -/
theorem cover3 (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  have hN : cfg3.N = 20 := N_3
  have ht : (i 0).val / 5000 < cfg3.N := by omega
  obtain ⟨e0, e1, e2, e3, e4, e5⟩ := idx3 ⟨(i 0).val / 5000, ht⟩
  refine ⟨⟨(i 0).val / 5000, ht⟩, flush3_2 _, ?_⟩
  rw [mem_blk3]
  intro a
  match a with
  | ⟨0, _⟩ =>
    show win3_2.index ⟨(i 0).val / 5000, ht⟩ (0 : Fin 2) * 5000 ≤ (i 0).val
      ∧ (i 0).val < win3_2.index ⟨(i 0).val / 5000, ht⟩ (0 : Fin 2) * 5000 + 5000
    have e : win3_2.index ⟨(i 0).val / 5000, ht⟩ (0 : Fin 2) = (i 0).val / 5000 := e4
    omega
  | ⟨1, _⟩ =>
    show win3_2.index ⟨(i 0).val / 5000, ht⟩ (1 : Fin 2) * 64 ≤ (i 1).val
      ∧ (i 1).val < win3_2.index ⟨(i 0).val / 5000, ht⟩ (1 : Fin 2) * 64 + 64
    omega

/-- What point t writes back is block t of the stage applied to the arrays the region finds. -/
theorem flushed3 (c : Dev nD) (t : Fin cfg3.N) :
    (dat3 V c).flushed 2 t = ((cfg3.win 2).blk t).view.read (Elt Ideal) (biasSigm (V c main_v61) (V c main_v62)) := by
  show (cfg3.win 2).cut (grid3.coords t) ((dat3 V c).after 2 t) = _
  rw [after3_2]
  unfold out3_2
  rw [View.canon_unit_zero zero2]
  simp only [View.ld_unit_zero (S := S5000x64) zero2, View.ld_unit_zero (S := S1x64) zero2]
  funext j
  obtain ⟨r, q, rfl⟩ : ∃ (r : Fin 5000) (q : Fin 64), j = ix2 r q := ⟨j 0, j 1, eq_ix2 j⟩
  have hN : cfg3.N = 20 := N_3
  have hr : t.val * 5000 + r.val < 100000 := by have := t.isLt; have := r.isLt; omega
  show _ = (biasSigm (V c main_v61) (V c main_v62)) (((cfg3.win 2).blk t).view.emb (ix2 r q))
  rw [emb3 t r q hr]
  exact sigm_row (iblk3 V c 0 t) (iblk3 V c 1 t) (V c main_v61) (V c main_v62) r ⟨t.val * 5000 + r.val, hr⟩ q
    (read3_0 V c t r q hr) (read3_1 V c t 0 q)

/-- The blocks tile the output array, so it ends holding the stage of the arrays the region finds. -/
theorem final3 (c : Dev nD) : (dat3 V c).arrAt 2 cfg3.N = biasSigm (V c main_v61) (V c main_v62) :=
  (dat3 V c).arrAt_eq_of_cover 2 (biasSigm (V c main_v61) (V c main_v62)) (fun t _ => flushed3 V c t) cover3

end Cert.GraphGate

end
-- ==== Proof.Region4.lean ====
/-
  The gated-update kernel, from blocks to the whole array.

  Point t reads rows 5000·t … 5000·t + 4999 of the graph features and of the hidden state, six half weights and three
  bias rows whole, and writes the same rows of the update.  When the half weights are the upper and lower 64 rows of
  three 128-row weights and the bias rows are three bias vectors laid out as rows, entry (r, q) of the block is entry
  (5000·t + r, q) of the host's gated update of the whole arrays; the twenty blocks tile the output array.
-/
import proofs.«177768_j5437428597509_1_alg».proof.Proof.Rows
import proofs.«177768_j5437428597509_1_alg».proof.Proof.Gen.KernelIdeal.Frame
import Idealize.ShloMosaic.Lib.Pipeline.Value

set_option maxRecDepth 16384

noncomputable section

namespace Cert.GraphGate

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-! ## Region 4 -/

/-- The index maps of region 4, decided over its twenty points: a row window's block index is the point, every other one is zero. -/
theorem idx4 : ∀ t : Fin cfg4.N, win4_0.index t (0 : Fin 2) = t.val
    ∧ win4_0.index t (1 : Fin 2) = 0
    ∧ win4_1.index t (0 : Fin 2) = t.val
    ∧ win4_1.index t (1 : Fin 2) = 0
    ∧ win4_2.index t (0 : Fin 2) = 0
    ∧ win4_2.index t (1 : Fin 2) = 0
    ∧ win4_3.index t (0 : Fin 2) = 0
    ∧ win4_3.index t (1 : Fin 2) = 0
    ∧ win4_4.index t (0 : Fin 2) = 0
    ∧ win4_4.index t (1 : Fin 2) = 0
    ∧ win4_5.index t (0 : Fin 2) = 0
    ∧ win4_5.index t (1 : Fin 2) = 0
    ∧ win4_6.index t (0 : Fin 2) = 0
    ∧ win4_6.index t (1 : Fin 2) = 0
    ∧ win4_7.index t (0 : Fin 2) = 0
    ∧ win4_7.index t (1 : Fin 2) = 0
    ∧ win4_8.index t (0 : Fin 2) = 0
    ∧ win4_8.index t (1 : Fin 2) = 0
    ∧ win4_9.index t (0 : Fin 2) = 0
    ∧ win4_9.index t (1 : Fin 2) = 0
    ∧ win4_10.index t (0 : Fin 2) = 0
    ∧ win4_10.index t (1 : Fin 2) = 0
    ∧ win4_11.index t (0 : Fin 2) = t.val
    ∧ win4_11.index t (1 : Fin 2) = 0 :=
  (by decide +kernel : ∀ t : Fin grid4.N, _)

/-- Row r of window 0's block at point t is row 5000·t + r of its array. -/
theorem read4_0 (c : Dev nD) (t : Fin cfg4.N) (r : Fin 5000) (k : Fin 64) (hr : t.val * 5000 + r.val < 100000) :
    iblk4 V c 0 t (ix2 r k) = V c main_v63 (ix2 (⟨t.val * 5000 + r.val, hr⟩ : Fin 100000) k) := by
  obtain ⟨e0, e1, e2, e3, e4, e5, e6, e7, e8, e9, e10, e11, e12, e13, e14, e15, e16, e17, e18, e19, e20, e21, e22, e23⟩ := idx4 t
  show V c main_v63 (((cfg4.win 0).blk t).view.emb (ix2 r k)) = _
  refine congrArg (V c main_v63) ?_
  funext a; apply Fin.ext
  match a with
  | ⟨0, _⟩ => show win4_0.index t (0 : Fin 2) * 5000 + 1 * r.val = t.val * 5000 + r.val; omega
  | ⟨1, _⟩ => show win4_0.index t (1 : Fin 2) * 64 + 1 * k.val = k.val; omega

/-- Row r of window 1's block at point t is row 5000·t + r of its array. -/
theorem read4_1 (c : Dev nD) (t : Fin cfg4.N) (r : Fin 5000) (k : Fin 64) (hr : t.val * 5000 + r.val < 100000) :
    iblk4 V c 1 t (ix2 r k) = V c main_arg3 (ix2 (⟨t.val * 5000 + r.val, hr⟩ : Fin 100000) k) := by
  obtain ⟨e0, e1, e2, e3, e4, e5, e6, e7, e8, e9, e10, e11, e12, e13, e14, e15, e16, e17, e18, e19, e20, e21, e22, e23⟩ := idx4 t
  show V c main_arg3 (((cfg4.win 1).blk t).view.emb (ix2 r k)) = _
  refine congrArg (V c main_arg3) ?_
  funext a; apply Fin.ext
  match a with
  | ⟨0, _⟩ => show win4_1.index t (0 : Fin 2) * 5000 + 1 * r.val = t.val * 5000 + r.val; omega
  | ⟨1, _⟩ => show win4_1.index t (1 : Fin 2) * 64 + 1 * k.val = k.val; omega

/-- Window 2's block at any point is its whole array. -/
theorem read4_2 (c : Dev nD) (t : Fin cfg4.N) (k q : Fin 64) :
    iblk4 V c 2 t (ix2 k q) = V c main_v64 (ix2 k q) := by
  obtain ⟨e0, e1, e2, e3, e4, e5, e6, e7, e8, e9, e10, e11, e12, e13, e14, e15, e16, e17, e18, e19, e20, e21, e22, e23⟩ := idx4 t
  show V c main_v64 (((cfg4.win 2).blk t).view.emb (ix2 k q)) = _
  refine congrArg (V c main_v64) ?_
  funext a; apply Fin.ext
  match a with
  | ⟨0, _⟩ => show win4_2.index t (0 : Fin 2) * 64 + 1 * k.val = k.val; omega
  | ⟨1, _⟩ => show win4_2.index t (1 : Fin 2) * 64 + 1 * q.val = q.val; omega

/-- Window 3's block at any point is its whole array. -/
theorem read4_3 (c : Dev nD) (t : Fin cfg4.N) (k q : Fin 64) :
    iblk4 V c 3 t (ix2 k q) = V c main_v65 (ix2 k q) := by
  obtain ⟨e0, e1, e2, e3, e4, e5, e6, e7, e8, e9, e10, e11, e12, e13, e14, e15, e16, e17, e18, e19, e20, e21, e22, e23⟩ := idx4 t
  show V c main_v65 (((cfg4.win 3).blk t).view.emb (ix2 k q)) = _
  refine congrArg (V c main_v65) ?_
  funext a; apply Fin.ext
  match a with
  | ⟨0, _⟩ => show win4_3.index t (0 : Fin 2) * 64 + 1 * k.val = k.val; omega
  | ⟨1, _⟩ => show win4_3.index t (1 : Fin 2) * 64 + 1 * q.val = q.val; omega

/-- Window 4's block at any point is its whole one-row array. -/
theorem read4_4 (c : Dev nD) (t : Fin cfg4.N) (u : Fin 1) (q : Fin 64) :
    iblk4 V c 4 t (ix2 u q) = V c main_v70 (ix2 u q) := by
  obtain ⟨e0, e1, e2, e3, e4, e5, e6, e7, e8, e9, e10, e11, e12, e13, e14, e15, e16, e17, e18, e19, e20, e21, e22, e23⟩ := idx4 t
  show V c main_v70 (((cfg4.win 4).blk t).view.emb (ix2 u q)) = _
  refine congrArg (V c main_v70) ?_
  funext a; apply Fin.ext
  match a with
  | ⟨0, _⟩ => show win4_4.index t (0 : Fin 2) * 1 + 1 * u.val = u.val; omega
  | ⟨1, _⟩ => show win4_4.index t (1 : Fin 2) * 64 + 1 * q.val = q.val; omega

/-- Window 5's block at any point is its whole array. -/
theorem read4_5 (c : Dev nD) (t : Fin cfg4.N) (k q : Fin 64) :
    iblk4 V c 5 t (ix2 k q) = V c main_v66 (ix2 k q) := by
  obtain ⟨e0, e1, e2, e3, e4, e5, e6, e7, e8, e9, e10, e11, e12, e13, e14, e15, e16, e17, e18, e19, e20, e21, e22, e23⟩ := idx4 t
  show V c main_v66 (((cfg4.win 5).blk t).view.emb (ix2 k q)) = _
  refine congrArg (V c main_v66) ?_
  funext a; apply Fin.ext
  match a with
  | ⟨0, _⟩ => show win4_5.index t (0 : Fin 2) * 64 + 1 * k.val = k.val; omega
  | ⟨1, _⟩ => show win4_5.index t (1 : Fin 2) * 64 + 1 * q.val = q.val; omega

/-- Window 6's block at any point is its whole array. -/
theorem read4_6 (c : Dev nD) (t : Fin cfg4.N) (k q : Fin 64) :
    iblk4 V c 6 t (ix2 k q) = V c main_v67 (ix2 k q) := by
  obtain ⟨e0, e1, e2, e3, e4, e5, e6, e7, e8, e9, e10, e11, e12, e13, e14, e15, e16, e17, e18, e19, e20, e21, e22, e23⟩ := idx4 t
  show V c main_v67 (((cfg4.win 6).blk t).view.emb (ix2 k q)) = _
  refine congrArg (V c main_v67) ?_
  funext a; apply Fin.ext
  match a with
  | ⟨0, _⟩ => show win4_6.index t (0 : Fin 2) * 64 + 1 * k.val = k.val; omega
  | ⟨1, _⟩ => show win4_6.index t (1 : Fin 2) * 64 + 1 * q.val = q.val; omega

/-- Window 7's block at any point is its whole one-row array. -/
theorem read4_7 (c : Dev nD) (t : Fin cfg4.N) (u : Fin 1) (q : Fin 64) :
    iblk4 V c 7 t (ix2 u q) = V c main_v71 (ix2 u q) := by
  obtain ⟨e0, e1, e2, e3, e4, e5, e6, e7, e8, e9, e10, e11, e12, e13, e14, e15, e16, e17, e18, e19, e20, e21, e22, e23⟩ := idx4 t
  show V c main_v71 (((cfg4.win 7).blk t).view.emb (ix2 u q)) = _
  refine congrArg (V c main_v71) ?_
  funext a; apply Fin.ext
  match a with
  | ⟨0, _⟩ => show win4_7.index t (0 : Fin 2) * 1 + 1 * u.val = u.val; omega
  | ⟨1, _⟩ => show win4_7.index t (1 : Fin 2) * 64 + 1 * q.val = q.val; omega

/-- Window 8's block at any point is its whole array. -/
theorem read4_8 (c : Dev nD) (t : Fin cfg4.N) (k q : Fin 64) :
    iblk4 V c 8 t (ix2 k q) = V c main_v68 (ix2 k q) := by
  obtain ⟨e0, e1, e2, e3, e4, e5, e6, e7, e8, e9, e10, e11, e12, e13, e14, e15, e16, e17, e18, e19, e20, e21, e22, e23⟩ := idx4 t
  show V c main_v68 (((cfg4.win 8).blk t).view.emb (ix2 k q)) = _
  refine congrArg (V c main_v68) ?_
  funext a; apply Fin.ext
  match a with
  | ⟨0, _⟩ => show win4_8.index t (0 : Fin 2) * 64 + 1 * k.val = k.val; omega
  | ⟨1, _⟩ => show win4_8.index t (1 : Fin 2) * 64 + 1 * q.val = q.val; omega

/-- Window 9's block at any point is its whole array. -/
theorem read4_9 (c : Dev nD) (t : Fin cfg4.N) (k q : Fin 64) :
    iblk4 V c 9 t (ix2 k q) = V c main_v69 (ix2 k q) := by
  obtain ⟨e0, e1, e2, e3, e4, e5, e6, e7, e8, e9, e10, e11, e12, e13, e14, e15, e16, e17, e18, e19, e20, e21, e22, e23⟩ := idx4 t
  show V c main_v69 (((cfg4.win 9).blk t).view.emb (ix2 k q)) = _
  refine congrArg (V c main_v69) ?_
  funext a; apply Fin.ext
  match a with
  | ⟨0, _⟩ => show win4_9.index t (0 : Fin 2) * 64 + 1 * k.val = k.val; omega
  | ⟨1, _⟩ => show win4_9.index t (1 : Fin 2) * 64 + 1 * q.val = q.val; omega

/-- Window 10's block at any point is its whole one-row array. -/
theorem read4_10 (c : Dev nD) (t : Fin cfg4.N) (u : Fin 1) (q : Fin 64) :
    iblk4 V c 10 t (ix2 u q) = V c main_v72 (ix2 u q) := by
  obtain ⟨e0, e1, e2, e3, e4, e5, e6, e7, e8, e9, e10, e11, e12, e13, e14, e15, e16, e17, e18, e19, e20, e21, e22, e23⟩ := idx4 t
  show V c main_v72 (((cfg4.win 10).blk t).view.emb (ix2 u q)) = _
  refine congrArg (V c main_v72) ?_
  funext a; apply Fin.ext
  match a with
  | ⟨0, _⟩ => show win4_10.index t (0 : Fin 2) * 1 + 1 * u.val = u.val; omega
  | ⟨1, _⟩ => show win4_10.index t (1 : Fin 2) * 64 + 1 * q.val = q.val; omega

/-- Entry (r, q) of the output block at point t sits at row 5000·t + r of the output array. -/
theorem emb4 (t : Fin cfg4.N) (r : Fin 5000) (q : Fin 64) (hr : t.val * 5000 + r.val < 100000) :
    ((cfg4.win 11).blk t).view.emb (ix2 r q) = ix2 (⟨t.val * 5000 + r.val, hr⟩ : Fin 100000) q := by
  obtain ⟨e0, e1, e2, e3, e4, e5, e6, e7, e8, e9, e10, e11, e12, e13, e14, e15, e16, e17, e18, e19, e20, e21, e22, e23⟩ := idx4 t
  funext a; apply Fin.ext
  match a with
  | ⟨0, _⟩ => show win4_11.index t (0 : Fin 2) * 5000 + 1 * r.val = t.val * 5000 + r.val; omega
  | ⟨1, _⟩ => show win4_11.index t (1 : Fin 2) * 64 + 1 * q.val = q.val; omega

/-- An index of the output array is in point t's block iff each coordinate is in the block's range. -/
theorem mem_blk4 (t : Fin cfg4.N) (i : S100000x64.Idx) :
    i ∈ ((cfg4.win 11).blk t).view.set ↔ ∀ a : Fin 2, win4_11.index t a * S5000x64.size a ≤ (i a).val
      ∧ (i a).val < win4_11.index t a * S5000x64.size a + S5000x64.size a := by
  show i ∈ ((View.whole main_v73).slice (win4_11.rect t)).set ↔ _
  rw [View.set_slice_whole, Rect.mem_set_unit]
  exact Iff.rfl

/-- Row i of the output array is written back by point i / 5000. -/
theorem cover4 (i : S100000x64.Idx) :
    ∃ t : Fin cfg4.N, (cfg4.win 11).flush t = true ∧ i ∈ ((cfg4.win 11).blk t).view.set := by
  have hi0 : (i 0).val < 100000 := (i 0).isLt
  have hi1 : (i 1).val < 64 := (i 1).isLt
  have hN : cfg4.N = 20 := N_4
  have ht : (i 0).val / 5000 < cfg4.N := by omega
  obtain ⟨e0, e1, e2, e3, e4, e5, e6, e7, e8, e9, e10, e11, e12, e13, e14, e15, e16, e17, e18, e19, e20, e21, e22, e23⟩ := idx4 ⟨(i 0).val / 5000, ht⟩
  refine ⟨⟨(i 0).val / 5000, ht⟩, flush4_11 _, ?_⟩
  rw [mem_blk4]
  intro a
  match a with
  | ⟨0, _⟩ =>
    show win4_11.index ⟨(i 0).val / 5000, ht⟩ (0 : Fin 2) * 5000 ≤ (i 0).val
      ∧ (i 0).val < win4_11.index ⟨(i 0).val / 5000, ht⟩ (0 : Fin 2) * 5000 + 5000
    have e : win4_11.index ⟨(i 0).val / 5000, ht⟩ (0 : Fin 2) = (i 0).val / 5000 := e22
    omega
  | ⟨1, _⟩ =>
    show win4_11.index ⟨(i 0).val / 5000, ht⟩ (1 : Fin 2) * 64 ≤ (i 1).val
      ∧ (i 1).val < win4_11.index ⟨(i 0).val / 5000, ht⟩ (1 : Fin 2) * 64 + 64
    omega

/-- What point t writes back is block t of the stage applied to the arrays the region finds. -/
theorem flushed4 (c : Dev nD) (wz : Tall) (bz : Vec64) (wr : Tall) (br : Vec64) (wh : Tall) (bh : Vec64)
    (h2 : ∀ k q : Fin 64, V c main_v64 (ix2 k q) = wz (ix2 (Fin.castAdd 64 k : Fin 128) q))
    (h3 : ∀ k q : Fin 64, V c main_v65 (ix2 k q) = wz (ix2 (Fin.natAdd 64 k : Fin 128) q))
    (h4 : ∀ q : Fin 64, V c main_v70 (ix2 (0 : Fin 1) q) = bz (ix1 q))
    (h5 : ∀ k q : Fin 64, V c main_v66 (ix2 k q) = wr (ix2 (Fin.castAdd 64 k : Fin 128) q))
    (h6 : ∀ k q : Fin 64, V c main_v67 (ix2 k q) = wr (ix2 (Fin.natAdd 64 k : Fin 128) q))
    (h7 : ∀ q : Fin 64, V c main_v71 (ix2 (0 : Fin 1) q) = br (ix1 q))
    (h8 : ∀ k q : Fin 64, V c main_v68 (ix2 k q) = wh (ix2 (Fin.castAdd 64 k : Fin 128) q))
    (h9 : ∀ k q : Fin 64, V c main_v69 (ix2 k q) = wh (ix2 (Fin.natAdd 64 k : Fin 128) q))
    (h10 : ∀ q : Fin 64, V c main_v72 (ix2 (0 : Fin 1) q) = bh (ix1 q))
    (t : Fin cfg4.N) :
    (dat4 V c).flushed 11 t = ((cfg4.win 11).blk t).view.read (Elt Ideal) (cell (V c main_v63) (V c main_arg3) wz bz wr br wh bh) := by
  show (cfg4.win 11).cut (grid4.coords t) ((dat4 V c).after 11 t) = _
  rw [after4_11]
  unfold out4_11
  rw [View.canon_unit_zero zero2]
  simp only [View.ld_unit_zero (S := S5000x64) zero2, View.ld_unit_zero (S := S64x64) zero2, View.ld_unit_zero (S := S1x64) zero2]
  funext j
  obtain ⟨r, q, rfl⟩ : ∃ (r : Fin 5000) (q : Fin 64), j = ix2 r q := ⟨j 0, j 1, eq_ix2 j⟩
  have hN : cfg4.N = 20 := N_4
  have hr : t.val * 5000 + r.val < 100000 := by have := t.isLt; have := r.isLt; omega
  show _ = (cell (V c main_v63) (V c main_arg3) wz bz wr br wh bh) (((cfg4.win 11).blk t).view.emb (ix2 r q))
  rw [emb4 t r q hr]
  rw [cell_apply]
  refine (cell_row (iblk4 V c 0 t) (iblk4 V c 1 t) (iblk4 V c 2 t) (iblk4 V c 3 t) (iblk4 V c 4 t) (iblk4 V c 5 t)
    (iblk4 V c 6 t) (iblk4 V c 7 t) (iblk4 V c 8 t) (iblk4 V c 9 t) (iblk4 V c 10 t) wz bz wr br wh bh
    (fun k q' => (read4_2 V c t k q').trans (h2 k q')) (fun k q' => (read4_3 V c t k q').trans (h3 k q'))
    (fun q' => (read4_4 V c t 0 q').trans (h4 q'))
    (fun k q' => (read4_5 V c t k q').trans (h5 k q')) (fun k q' => (read4_6 V c t k q').trans (h6 k q'))
    (fun q' => (read4_7 V c t 0 q').trans (h7 q'))
    (fun k q' => (read4_8 V c t k q').trans (h8 k q')) (fun k q' => (read4_9 V c t k q').trans (h9 k q'))
    (fun q' => (read4_10 V c t 0 q').trans (h10 q')) r q).trans ?_
  exact congrArg₂ (fun g h => cellAt g h wz bz wr br wh bh q) (funext fun k => read4_0 V c t r k hr)
    (funext fun k => read4_1 V c t r k hr)

/-- The blocks tile the output array, so it ends holding the stage of the arrays the region finds. -/
theorem final4 (c : Dev nD) (wz : Tall) (bz : Vec64) (wr : Tall) (br : Vec64) (wh : Tall) (bh : Vec64)
    (h2 : ∀ k q : Fin 64, V c main_v64 (ix2 k q) = wz (ix2 (Fin.castAdd 64 k : Fin 128) q))
    (h3 : ∀ k q : Fin 64, V c main_v65 (ix2 k q) = wz (ix2 (Fin.natAdd 64 k : Fin 128) q))
    (h4 : ∀ q : Fin 64, V c main_v70 (ix2 (0 : Fin 1) q) = bz (ix1 q))
    (h5 : ∀ k q : Fin 64, V c main_v66 (ix2 k q) = wr (ix2 (Fin.castAdd 64 k : Fin 128) q))
    (h6 : ∀ k q : Fin 64, V c main_v67 (ix2 k q) = wr (ix2 (Fin.natAdd 64 k : Fin 128) q))
    (h7 : ∀ q : Fin 64, V c main_v71 (ix2 (0 : Fin 1) q) = br (ix1 q))
    (h8 : ∀ k q : Fin 64, V c main_v68 (ix2 k q) = wh (ix2 (Fin.castAdd 64 k : Fin 128) q))
    (h9 : ∀ k q : Fin 64, V c main_v69 (ix2 k q) = wh (ix2 (Fin.natAdd 64 k : Fin 128) q))
    (h10 : ∀ q : Fin 64, V c main_v72 (ix2 (0 : Fin 1) q) = bh (ix1 q))
    :
    (dat4 V c).arrAt 11 cfg4.N = cell (V c main_v63) (V c main_arg3) wz bz wr br wh bh :=
  (dat4 V c).arrAt_eq_of_cover 11 (cell (V c main_v63) (V c main_arg3) wz bz wr br wh bh)
    (fun t _ => flushed4 V c wz bz wr br wh bh h2 h3 h4 h5 h6 h7 h8 h9 h10 t) cover4

end Cert.GraphGate

end
-- ==== Proof.LibRegionOp.lean ====
/-
  A pipelined region as one pure operation of a program's fold.

  A program that alternates stretches of host operations with pipelined regions leaves, at each boundary, the
  buffer contents obtained by folding its segments over the launch contents: a host operation rewrites its result
  buffer with its function of its operands, and a region rewrites its arrays with what its write-backs leave.
  When a region's input arrays end as it found them and its one output array ends at a function of those inputs,
  the region rewrites the contents exactly as one host operation with that function would.  The whole program is
  then one line of operations, and what a buffer holds at the end is a computation over that line.
-/
import Idealize.ShloMosaic.Lib.Pipeline.FrameSuffix
import Idealize.ShloMosaic.Lib.StableHlo.Run

noncomputable section

namespace Cert.RegionOp

open Idealize.ShloMosaic Idealize.ShloMosaic.StableHlo Idealize.ShloMosaic.TcCoe

variable {nD : Nat} {τ : Topo} {sig : RefSig} {Val : EltTy → Type}

/-- Two lines run one after the other leave what their concatenation leaves. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- A region whose output array `o` ends at what the operation `op` writes there, whose other arrays end as the
    region found them, and which writes nothing else, leaves what `op` leaves. -/
theorem withArrays_eq_result {gr W : Nat} (win : Fin W → Pipeline.WinSpec sig gr) (hinj : Function.Injective (Pipeline.arrRef win))
    (c : Dev nD) (V : Valuation τ sig Val) (A : (w : Fin W) → Buf Val ((win w).arr.view.loc (c.tc : Thread nD τ)))
    (op : HloOp τ sig Val) (o : Fin W)
    (hw : op.writes = {Proc.devRef .tc (Pipeline.arrRef win o)})
    (hout : A o = op.result V (Proc.devRef .tc (Pipeline.arrRef win o)))
    (hin : ∀ w, w ≠ o → A w = V (Proc.devRef .tc (Pipeline.arrRef win w))) :
    Pipeline.withArrays win c V A = op.result V := by
  funext b
  by_cases h : ∃ w, Proc.devRef .tc (Pipeline.arrRef win w) = b
  · obtain ⟨w, rfl⟩ := h
    rw [Pipeline.withArrays_arr win hinj]
    by_cases hwo : w = o
    · subst hwo; exact hout
    · rw [hin w hwo, op.result_of_not_mem V (by
        rw [hw, Finset.mem_singleton]; exact fun e => hwo (hinj (Proc.devRef_injective _ e)))]
  · have hb : b ∉ op.writes := by
      rw [hw, Finset.mem_singleton]; exact fun e => h ⟨o, e.symm⟩
    rw [op.result_of_not_mem V hb]
    unfold Pipeline.withArrays
    rw [dif_neg h]

end Cert.RegionOp

end
-- ==== Proof.LibRowView.lean ====
/-
  A length-n vector viewed as a [1, n] row, read at one index.

  Reshaping a vector of n entries into one row of n entries moves nothing: entry (0, j) of the row is entry j of
  the vector, since both sit at position j of the row-major order.
-/
import Idealize.ShloMosaic.Lib.ValueIdx
import Idealize.ShloMosaic.Lib.Pipeline.Value

noncomputable section

namespace Cert.RowView

open Idealize.ShloMosaic Idealize.ShloMosaic.ValueIdx

variable {α : Type} {n : Nat}

/-- A length-`n` vector viewed as a `[1, n]` row reads, at (u, j), the vector at j. -/
theorem row_apply (x : (⟨1, ![n]⟩ : Shape).Idx → α) (h : (⟨1, ![n]⟩ : Shape).ShapeCasts ⟨2, ![1, n]⟩)
    (u : Fin 1) (j : Fin n) : shapeCast ⟨2, ![1, n]⟩ x h (ix2 u j) = x (ix1 j) :=
  shapeCast_apply x h _ _ (by
    have hu : u.val = 0 := by omega
    rw [Shape.rowMajor_val_one, Shape.rowMajor_val_two]
    show j.val = u.val * n + j.val
    rw [hu, Nat.zero_mul, Nat.zero_add])

end Cert.RowView

end
-- ==== Proof.LibRowAsBroadcast.lean ====
/-
  A vector reshaped to one row is the vector broadcast to one row.

  A kernel's caller hands a length-n bias to the kernel as a [1, n] row by a reshape; a host program that adds the
  same bias to every row of an array first lays it along the second axis of a [1, n] row by a broadcast.  Both rows
  hold entry j of the vector at (0, j): they are the same array.
-/
import Idealize.ShloMosaic.Lib.ValueIdx
import Idealize.ShloMosaic.Lib.Pipeline.Value
import proofs.«177768_j5437428597509_1_alg».proof.Proof.LibRowView
import proofs.«177768_j5437428597509_1_alg».proof.Proof.LibHostRowOps

noncomputable section

namespace Cert.RowAsBroadcast

open Idealize.ShloMosaic Idealize.ShloMosaic.ValueIdx

variable {α : Type} {n : Nat}

/-- The reshape of a length-`n` vector to a `[1, n]` row is its broadcast along the row's second axis. -/
theorem row_eq (x : (⟨1, ![n]⟩ : Shape).Idx → α) (hs : (⟨1, ![n]⟩ : Shape).ShapeCasts ⟨2, ![1, n]⟩)
    (hb : (⟨1, ![n]⟩ : Shape).BroadcastsInDim ⟨2, ![1, n]⟩ ![1]) :
    shapeCast ⟨2, ![1, n]⟩ x hs = broadcastInDim ⟨2, ![1, n]⟩ ![1] hb x :=
  funext fun j => by
    obtain ⟨u, k, rfl⟩ : ∃ (u : Fin 1) (k : Fin n), j = ix2 u k := ⟨j 0, j 1, eq_ix2 j⟩
    rw [Cert.RowView.row_apply, Cert.HostRowOps.vecToRow_apply]

end Cert.RowAsBroadcast

end
-- ==== Proof.LibSlice2.lean ====
/-
  A slice of a two-axis array, read at one entry.

  A unit-stride slice with offsets (o0, o1) of an [n, b] array is the [n', b'] array whose entry (i, j) is the operand's
  entry (o0 + i, o1 + j), for any element type and any extents for which the slice is well formed.
-/
import Idealize.ShloMosaic.Lib.ValueIdx
import Idealize.ShloMosaic.Lib.Pipeline.Value

noncomputable section

namespace Cert.Slice2

open Idealize.ShloMosaic Idealize.ShloMosaic.ValueIdx

/-- A two-axis slice read at (i, j): the operand at (o0 + i, o1 + j). -/
theorem slice2_apply {α : Type} {n b n' b' : Nat} (x : (⟨2, ![n, b]⟩ : Shape).Idx → α) (o0 o1 : Nat) (off : Fin 2 → Nat)
    (hoff : off = ![o0, o1]) (h : (⟨2, ![n, b]⟩ : Shape).Slices off ⟨2, ![n', b']⟩) (i : Fin n') (j : Fin b')
    (hi : o0 + i.val < n) (hj : o1 + j.val < b) :
    extractStridedSlice ⟨2, ![n', b']⟩ off x h (ix2 i j) = x (ix2 (⟨o0 + i.val, hi⟩ : Fin n) (⟨o1 + j.val, hj⟩ : Fin b)) := by
  subst hoff
  refine extractStridedSlice_apply _ x h _ _ fun a => ?_
  match a with
  | ⟨0, _⟩ => rfl
  | ⟨1, _⟩ => rfl

end Cert.Slice2

end
-- ==== Proof.FoldA.lean ====
/-
  The fold between the regions.

  Between the launch and the last region the buffer contents are a fold: a host operation rewrites its result buffer
  with its function of its operand buffers, and each of the first four regions rewrites its output array with its stage
  of its input arrays, exactly as one host operation with that stage as its function would.  Walking the fold back
  from the last region's entry: the graph features it reads are the host's two-layer graph convolution of the
  arguments (the edge normalisation, the gathers, the scalings and the scatter-adds are the same host operations in
  both programs; a bias handed to a kernel as a reshaped [1, 64] row is the host's bias laid out as a row), the hidden
  state is the argument, each half weight is the upper or lower 64 rows of a weight argument and each bias row a bias
  argument laid out as a row.  The last region's output array is then the host's gated update of the arguments.
-/
import proofs.«177768_j5437428597509_1_alg».proof.Proof.Region0
import proofs.«177768_j5437428597509_1_alg».proof.Proof.Region1
import proofs.«177768_j5437428597509_1_alg».proof.Proof.Region2
import proofs.«177768_j5437428597509_1_alg».proof.Proof.Region3
import proofs.«177768_j5437428597509_1_alg».proof.Proof.Region4
import proofs.«177768_j5437428597509_1_alg».proof.Proof.LibRegionOp
import proofs.«177768_j5437428597509_1_alg».proof.Proof.LibRowAsBroadcast
import proofs.«177768_j5437428597509_1_alg».proof.Proof.LibSlice2

set_option maxRecDepth 16384

noncomputable section

namespace Cert.GraphGate

open Idealize.ShloMosaic Idealize.ShloMosaic.TcCoe Idealize.ShloMosaic.ValueIdx Idealize.ShloMosaic.StableHlo Idealize.SL.Sem
open Cert.KernelIdeal Cert.KernelIdeal.Gen

variable (m : (ℓ : Loc nD τ sig) → Buf (Elt Ideal) ℓ) (ρ : Dev nD → PrngReg)

/-! ## The first four regions as operations -/

/-- Region 0 as an operation: X·W1 into the first linear output. -/
abbrev op0 : HloOp τ sig (Elt Ideal) := StableHlo.binary main_arg0 main_arg4 main_v32 (lin : Mat → Sq → Mat)
/-- Region 1: max(A + b, 0). -/
abbrev op1 : HloOp τ sig (Elt Ideal) := StableHlo.binary main_v45 main_v46 main_v47 (biasRelu : Mat → Row → Mat)
/-- Region 2: the second linear map. -/
abbrev op2 : HloOp τ sig (Elt Ideal) := StableHlo.binary main_v47 main_arg6 main_v48 (lin : Mat → Sq → Mat)
/-- Region 3: σ(A + b). -/
abbrev op3 : HloOp τ sig (Elt Ideal) := StableHlo.binary main_v61 main_v62 main_v63 (biasSigm : Mat → Row → Mat)

theorem W4_eq (c : Dev nD) : W4 m ρ c = op0.result (W3 m ρ c) := by
  unfold W4
  refine RegionOp.withArrays_eq_result spec0 launch0.win.arr_inj c (W3 m ρ c) _ op0 2 (StableHlo.binary_writes ..) ?_ ?_
  · exact (final0 (V3 m ρ) c).trans (StableHlo.binary_result main_arg0 main_arg4 main_v32 (lin : Mat → Sq → Mat) _ _ _ (W3 m ρ c)).symm
  · intro w hw
    match w, hw with
    | 0, _ => exact ((dat0 (V3 m ρ) c).arrAt_in 0 rfl _).trans (A_eq0 (V3 m ρ) c 0)
    | 1, _ => exact ((dat0 (V3 m ρ) c).arrAt_in 1 rfl _).trans (A_eq0 (V3 m ρ) c 1)
    | 2, h => exact absurd rfl h

theorem W6_eq (c : Dev nD) : W6 m ρ c = op1.result (W5 m ρ c) := by
  unfold W6
  refine RegionOp.withArrays_eq_result spec1 launch1.win.arr_inj c (W5 m ρ c) _ op1 2 (StableHlo.binary_writes ..) ?_ ?_
  · exact (final1 (V5 m ρ) c).trans (StableHlo.binary_result main_v45 main_v46 main_v47 (biasRelu : Mat → Row → Mat) _ _ _ (W5 m ρ c)).symm
  · intro w hw
    match w, hw with
    | 0, _ => exact ((dat1 (V5 m ρ) c).arrAt_in 0 rfl _).trans (A_eq1 (V5 m ρ) c 0)
    | 1, _ => exact ((dat1 (V5 m ρ) c).arrAt_in 1 rfl _).trans (A_eq1 (V5 m ρ) c 1)
    | 2, h => exact absurd rfl h

theorem W7_eq (c : Dev nD) : W7 m ρ c = op2.result (W6 m ρ c) := by
  unfold W7
  refine RegionOp.withArrays_eq_result spec2 launch2.win.arr_inj c (W6 m ρ c) _ op2 2 (StableHlo.binary_writes ..) ?_ ?_
  · exact (final2 (V6 m ρ) c).trans (StableHlo.binary_result main_v47 main_arg6 main_v48 (lin : Mat → Sq → Mat) _ _ _ (W6 m ρ c)).symm
  · intro w hw
    match w, hw with
    | 0, _ => exact ((dat2 (V6 m ρ) c).arrAt_in 0 rfl _).trans (A_eq2 (V6 m ρ) c 0)
    | 1, _ => exact ((dat2 (V6 m ρ) c).arrAt_in 1 rfl _).trans (A_eq2 (V6 m ρ) c 1)
    | 2, h => exact absurd rfl h

theorem W9_eq (c : Dev nD) : W9 m ρ c = op3.result (W8 m ρ c) := by
  unfold W9
  refine RegionOp.withArrays_eq_result spec3 launch3.win.arr_inj c (W8 m ρ c) _ op3 2 (StableHlo.binary_writes ..) ?_ ?_
  · exact (final3 (V8 m ρ) c).trans (StableHlo.binary_result main_v61 main_v62 main_v63 (biasSigm : Mat → Row → Mat) _ _ _ (W8 m ρ c)).symm
  · intro w hw
    match w, hw with
    | 0, _ => exact ((dat3 (V8 m ρ) c).arrAt_in 0 rfl _).trans (A_eq3 (V8 m ρ) c 0)
    | 1, _ => exact ((dat3 (V8 m ρ) c).arrAt_in 1 rfl _).trans (A_eq3 (V8 m ρ) c 1)
    | 2, h => exact absurd rfl h

/-- The contents at the last region's entry, as a fold over the contents at the first region's entry. -/
theorem W10_eq (c : Dev nD) : W10 m ρ c
    = after hostOps4 (op3.result (after hostOps3 (op2.result (op1.result (after hostOps1 (op0.result (W3 m ρ c))))))) := by
  show after hostOps4 (W9 m ρ c) = _
  rw [W9_eq]
  show after hostOps4 (op3.result (after hostOps3 (W7 m ρ c))) = _
  rw [W7_eq, W6_eq]
  show after hostOps4 (op3.result (after hostOps3 (op2.result (op1.result (after hostOps1 (W4 m ρ c)))))) = _
  rw [W4_eq]

/-! ## A bias handed over as a row -/

/-- A length-64 bias reshaped to a [1, 64] row is the bias laid out as a row. -/
theorem row46 (X : Valuation τ sig (Elt Ideal)) :
    (StableHlo.reshape (τ := τ) (Val := Elt Ideal) main_arg5 main_v46 rfl shapeCasts_S64_S1x64).result X (no_index (Proc.devRef .tc main_v46))
      = asRow (X (Proc.devRef .tc main_arg5)) :=
  (StableHlo.reshape_result main_arg5 main_v46 rfl shapeCasts_S64_S1x64 _ _ X).trans
    (RowAsBroadcast.row_eq (X (Proc.devRef .tc main_arg5)) shapeCasts_S64_S1x64 _)
theorem row62 (X : Valuation τ sig (Elt Ideal)) :
    (StableHlo.reshape (τ := τ) (Val := Elt Ideal) main_arg7 main_v62 rfl shapeCasts_S64_S1x64).result X (no_index (Proc.devRef .tc main_v62))
      = asRow (X (Proc.devRef .tc main_arg7)) :=
  (StableHlo.reshape_result main_arg7 main_v62 rfl shapeCasts_S64_S1x64 _ _ X).trans
    (RowAsBroadcast.row_eq (X (Proc.devRef .tc main_arg7)) shapeCasts_S64_S1x64 _)
theorem row70 (X : Valuation τ sig (Elt Ideal)) :
    (StableHlo.reshape (τ := τ) (Val := Elt Ideal) main_arg9 main_v70 rfl shapeCasts_S64_S1x64).result X (no_index (Proc.devRef .tc main_v70))
      = asRow (X (Proc.devRef .tc main_arg9)) :=
  (StableHlo.reshape_result main_arg9 main_v70 rfl shapeCasts_S64_S1x64 _ _ X).trans
    (RowAsBroadcast.row_eq (X (Proc.devRef .tc main_arg9)) shapeCasts_S64_S1x64 _)
theorem row71 (X : Valuation τ sig (Elt Ideal)) :
    (StableHlo.reshape (τ := τ) (Val := Elt Ideal) main_arg11 main_v71 rfl shapeCasts_S64_S1x64).result X (no_index (Proc.devRef .tc main_v71))
      = asRow (X (Proc.devRef .tc main_arg11)) :=
  (StableHlo.reshape_result main_arg11 main_v71 rfl shapeCasts_S64_S1x64 _ _ X).trans
    (RowAsBroadcast.row_eq (X (Proc.devRef .tc main_arg11)) shapeCasts_S64_S1x64 _)
theorem row72 (X : Valuation τ sig (Elt Ideal)) :
    (StableHlo.reshape (τ := τ) (Val := Elt Ideal) main_arg13 main_v72 rfl shapeCasts_S64_S1x64).result X (no_index (Proc.devRef .tc main_v72))
      = asRow (X (Proc.devRef .tc main_arg13)) :=
  (StableHlo.reshape_result main_arg13 main_v72 rfl shapeCasts_S64_S1x64 _ _ X).trans
    (RowAsBroadcast.row_eq (X (Proc.devRef .tc main_arg13)) shapeCasts_S64_S1x64 _)

/-! ## The contents at the first region's entry -/

theorem W3_arg0 (c : Dev nD) : W3 m ρ c (Proc.devRef .tc main_arg0) = m ((c : Thread nD τ).loc main_arg0) := by
  show after hostOps0_2 (after hostOps0_1 (after hostOps0 (W0 m ρ c))) (Proc.devRef .tc main_arg0) = _
  simp (disch := decide) only [hostOps0_2, hostOps0_1, hostOps0, after_cons, after_nil,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  try rfl
theorem W3_arg1 (c : Dev nD) : W3 m ρ c (Proc.devRef .tc main_arg1) = m ((c : Thread nD τ).loc main_arg1) := by
  show after hostOps0_2 (after hostOps0_1 (after hostOps0 (W0 m ρ c))) (Proc.devRef .tc main_arg1) = _
  simp (disch := decide) only [hostOps0_2, hostOps0_1, hostOps0, after_cons, after_nil,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  try rfl
theorem W3_arg2 (c : Dev nD) : W3 m ρ c (Proc.devRef .tc main_arg2) = m ((c : Thread nD τ).loc main_arg2) := by
  show after hostOps0_2 (after hostOps0_1 (after hostOps0 (W0 m ρ c))) (Proc.devRef .tc main_arg2) = _
  simp (disch := decide) only [hostOps0_2, hostOps0_1, hostOps0, after_cons, after_nil,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  try rfl
theorem W3_arg3 (c : Dev nD) : W3 m ρ c (Proc.devRef .tc main_arg3) = m ((c : Thread nD τ).loc main_arg3) := by
  show after hostOps0_2 (after hostOps0_1 (after hostOps0 (W0 m ρ c))) (Proc.devRef .tc main_arg3) = _
  simp (disch := decide) only [hostOps0_2, hostOps0_1, hostOps0, after_cons, after_nil,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  try rfl
theorem W3_arg4 (c : Dev nD) : W3 m ρ c (Proc.devRef .tc main_arg4) = m ((c : Thread nD τ).loc main_arg4) := by
  show after hostOps0_2 (after hostOps0_1 (after hostOps0 (W0 m ρ c))) (Proc.devRef .tc main_arg4) = _
  simp (disch := decide) only [hostOps0_2, hostOps0_1, hostOps0, after_cons, after_nil,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  try rfl
theorem W3_arg5 (c : Dev nD) : W3 m ρ c (Proc.devRef .tc main_arg5) = m ((c : Thread nD τ).loc main_arg5) := by
  show after hostOps0_2 (after hostOps0_1 (after hostOps0 (W0 m ρ c))) (Proc.devRef .tc main_arg5) = _
  simp (disch := decide) only [hostOps0_2, hostOps0_1, hostOps0, after_cons, after_nil,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  try rfl
theorem W3_arg6 (c : Dev nD) : W3 m ρ c (Proc.devRef .tc main_arg6) = m ((c : Thread nD τ).loc main_arg6) := by
  show after hostOps0_2 (after hostOps0_1 (after hostOps0 (W0 m ρ c))) (Proc.devRef .tc main_arg6) = _
  simp (disch := decide) only [hostOps0_2, hostOps0_1, hostOps0, after_cons, after_nil,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  try rfl
theorem W3_arg7 (c : Dev nD) : W3 m ρ c (Proc.devRef .tc main_arg7) = m ((c : Thread nD τ).loc main_arg7) := by
  show after hostOps0_2 (after hostOps0_1 (after hostOps0 (W0 m ρ c))) (Proc.devRef .tc main_arg7) = _
  simp (disch := decide) only [hostOps0_2, hostOps0_1, hostOps0, after_cons, after_nil,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  try rfl
theorem W3_arg8 (c : Dev nD) : W3 m ρ c (Proc.devRef .tc main_arg8) = m ((c : Thread nD τ).loc main_arg8) := by
  show after hostOps0_2 (after hostOps0_1 (after hostOps0 (W0 m ρ c))) (Proc.devRef .tc main_arg8) = _
  simp (disch := decide) only [hostOps0_2, hostOps0_1, hostOps0, after_cons, after_nil,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  try rfl
theorem W3_arg9 (c : Dev nD) : W3 m ρ c (Proc.devRef .tc main_arg9) = m ((c : Thread nD τ).loc main_arg9) := by
  show after hostOps0_2 (after hostOps0_1 (after hostOps0 (W0 m ρ c))) (Proc.devRef .tc main_arg9) = _
  simp (disch := decide) only [hostOps0_2, hostOps0_1, hostOps0, after_cons, after_nil,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  try rfl
theorem W3_arg10 (c : Dev nD) : W3 m ρ c (Proc.devRef .tc main_arg10) = m ((c : Thread nD τ).loc main_arg10) := by
  show after hostOps0_2 (after hostOps0_1 (after hostOps0 (W0 m ρ c))) (Proc.devRef .tc main_arg10) = _
  simp (disch := decide) only [hostOps0_2, hostOps0_1, hostOps0, after_cons, after_nil,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  try rfl
theorem W3_arg11 (c : Dev nD) : W3 m ρ c (Proc.devRef .tc main_arg11) = m ((c : Thread nD τ).loc main_arg11) := by
  show after hostOps0_2 (after hostOps0_1 (after hostOps0 (W0 m ρ c))) (Proc.devRef .tc main_arg11) = _
  simp (disch := decide) only [hostOps0_2, hostOps0_1, hostOps0, after_cons, after_nil,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  try rfl
theorem W3_arg12 (c : Dev nD) : W3 m ρ c (Proc.devRef .tc main_arg12) = m ((c : Thread nD τ).loc main_arg12) := by
  show after hostOps0_2 (after hostOps0_1 (after hostOps0 (W0 m ρ c))) (Proc.devRef .tc main_arg12) = _
  simp (disch := decide) only [hostOps0_2, hostOps0_1, hostOps0, after_cons, after_nil,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  try rfl
theorem W3_arg13 (c : Dev nD) : W3 m ρ c (Proc.devRef .tc main_arg13) = m ((c : Thread nD τ).loc main_arg13) := by
  show after hostOps0_2 (after hostOps0_1 (after hostOps0 (W0 m ρ c))) (Proc.devRef .tc main_arg13) = _
  simp (disch := decide) only [hostOps0_2, hostOps0_1, hostOps0, after_cons, after_nil,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  try rfl

/-! ## The contents at the last region's entry -/

section Stage

variable (X : Valuation τ sig (Elt Ideal))

/-- The fold from the first region's entry to the last region's entry. -/
abbrev stage : Valuation τ sig (Elt Ideal) :=
  after hostOps4 (op3.result (after hostOps3 (op2.result (op1.result (after hostOps1 (op0.result X))))))

theorem stage_main_arg3 : stage X (Proc.devRef .tc main_arg3) = X (Proc.devRef .tc main_arg3) := by
  simp (disch := decide) only [hostOps4, hostOps3, hostOps1, row46, row62, row70, row71, row72, after_cons, after_nil,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
theorem stage_main_v64 : stage X (Proc.devRef .tc main_v64) = extractStridedSlice S64x64 ![0, 0] (X (Proc.devRef .tc main_arg8)) slices_S128x64_S64x64_0_0 := by
  simp (disch := decide) only [hostOps4, hostOps3, hostOps1, row46, row62, row70, row71, row72, after_cons, after_nil,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
theorem stage_main_v65 : stage X (Proc.devRef .tc main_v65) = extractStridedSlice S64x64 ![64, 0] (X (Proc.devRef .tc main_arg8)) slices_S128x64_S64x64_64_0 := by
  simp (disch := decide) only [hostOps4, hostOps3, hostOps1, row46, row62, row70, row71, row72, after_cons, after_nil,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
theorem stage_main_v66 : stage X (Proc.devRef .tc main_v66) = extractStridedSlice S64x64 ![0, 0] (X (Proc.devRef .tc main_arg10)) slices_S128x64_S64x64_0_0 := by
  simp (disch := decide) only [hostOps4, hostOps3, hostOps1, row46, row62, row70, row71, row72, after_cons, after_nil,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
theorem stage_main_v67 : stage X (Proc.devRef .tc main_v67) = extractStridedSlice S64x64 ![64, 0] (X (Proc.devRef .tc main_arg10)) slices_S128x64_S64x64_64_0 := by
  simp (disch := decide) only [hostOps4, hostOps3, hostOps1, row46, row62, row70, row71, row72, after_cons, after_nil,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
theorem stage_main_v68 : stage X (Proc.devRef .tc main_v68) = extractStridedSlice S64x64 ![0, 0] (X (Proc.devRef .tc main_arg12)) slices_S128x64_S64x64_0_0 := by
  simp (disch := decide) only [hostOps4, hostOps3, hostOps1, row46, row62, row70, row71, row72, after_cons, after_nil,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
theorem stage_main_v69 : stage X (Proc.devRef .tc main_v69) = extractStridedSlice S64x64 ![64, 0] (X (Proc.devRef .tc main_arg12)) slices_S128x64_S64x64_64_0 := by
  simp (disch := decide) only [hostOps4, hostOps3, hostOps1, row46, row62, row70, row71, row72, after_cons, after_nil,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
theorem stage_main_v70 : stage X (Proc.devRef .tc main_v70) = asRow (X (Proc.devRef .tc main_arg9)) := by
  simp (disch := decide) only [hostOps4, hostOps3, hostOps1, row46, row62, row70, row71, row72, after_cons, after_nil,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
theorem stage_main_v71 : stage X (Proc.devRef .tc main_v71) = asRow (X (Proc.devRef .tc main_arg11)) := by
  simp (disch := decide) only [hostOps4, hostOps3, hostOps1, row46, row62, row70, row71, row72, after_cons, after_nil,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
theorem stage_main_v72 : stage X (Proc.devRef .tc main_v72) = asRow (X (Proc.devRef .tc main_arg13)) := by
  simp (disch := decide) only [hostOps4, hostOps3, hostOps1, row46, row62, row70, row71, row72, after_cons, after_nil,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']

end Stage

/-! ## The half weights -/

/-- The upper 64 rows of a 128-row weight, at an entry. -/
theorem upper (w : Tall) (k q : Fin 64) :
    extractStridedSlice S64x64 ![0, 0] w slices_S128x64_S64x64_0_0 (ix2 k q) = w (ix2 (Fin.castAdd 64 k : Fin 128) q) := by
  refine (Slice2.slice2_apply w 0 0 ![0, 0] rfl slices_S128x64_S64x64_0_0 k q (by have := k.isLt; omega)
    (by have := q.isLt; omega)).trans (congrArg w ?_)
  funext a; apply Fin.ext
  match a with
  | ⟨0, _⟩ => show 0 + k.val = k.val; omega
  | ⟨1, _⟩ => show 0 + q.val = q.val; omega

/-- The lower 64 rows of a 128-row weight, at an entry. -/
theorem lower (w : Tall) (k q : Fin 64) :
    extractStridedSlice S64x64 ![64, 0] w slices_S128x64_S64x64_64_0 (ix2 k q) = w (ix2 (Fin.natAdd 64 k : Fin 128) q) := by
  refine (Slice2.slice2_apply w 64 0 ![64, 0] rfl slices_S128x64_S64x64_64_0 k q (by have := k.isLt; omega)
    (by have := q.isLt; omega)).trans (congrArg w ?_)
  funext a; apply Fin.ext
  match a with
  | ⟨0, _⟩ => show 64 + k.val = 64 + k.val; rfl
  | ⟨1, _⟩ => show 0 + q.val = q.val; omega

end Cert.GraphGate

end
-- ==== Proof.Agg.lean ====
/-
  The edge normalisation, the aggregation over edges, and the two layers.

  The graph gets one self-loop of weight one per node.  The weighted in-degree of a node is the sum of the weights of
  the edges into it; the normalisation of an edge is dinv[source] · weight · dinv[target] with dinv = deg^(−1/2) where
  the degree is positive and zero elsewhere.

  One graph-convolution layer gathers, for every edge, the source node's row of the transformed features, scales it by
  the edge's normalisation weight and adds it into the target node's row.  Source indices below zero wrap round once (as
  the gather spells it).  Two such layers, the first followed by a bias and max(·, 0), the second by a bias and the
  logistic function, give the graph features the gated update reads.
-/
import proofs.«177768_j5437428597509_1_alg».proof.Proof.Stages

noncomputable section

namespace Cert.GraphGate

open Idealize.ShloMosaic Idealize.ShloMosaic.ValueIdx Cert.ReferenceIdeal Cert.ReferenceIdeal.Gen

/-- One float per edge (the 1600000 given edges and one self-loop per node). -/
abbrev EdgeF := FVec Ideal S1700000 .f32
/-- One node index per edge. -/
abbrev EdgeI := IVec S1700000 32

/-- The edge list as given: two rows of 1600000 node indices. -/
abbrev EdgeList := IVec S2x1600000 32

/-- Row r of the edge list followed by one self-loop per node. -/
def withLoops (x1 : EdgeList) (off : Fin 2 → Nat) (h : S2x1600000.Slices off S1x1600000) : EdgeI :=
  concatenate S1700000 0 [⟨S1600000, shapeCast S1600000 (extractStridedSlice S1x1600000 off x1 h) shapeCasts_S1x1600000_S1600000⟩,
    ⟨S100000, iotaInDim S100000 32 0⟩] concatenates_S1600000_S100000_S1700000_d0

/-- The source nodes. -/
def rows (x1 : EdgeList) : EdgeI := withLoops x1 ![0, 0] slices_S2x1600000_S1x1600000_0_0
/-- The target nodes. -/
def cols (x1 : EdgeList) : EdgeI := withLoops x1 ![1, 0] slices_S2x1600000_S1x1600000_1_0

/-- The edge weights followed by weight one for every self-loop. -/
def wts (x2 : FVec Ideal S1600000 .f32) : EdgeF :=
  concatenate S1700000 0 [⟨S1600000, x2⟩,
    ⟨S100000, broadcastInDim S100000 ![] bcast_S_S100000 (constant (F := Ideal) S_ .f32 0x3F800000#32)⟩]
    concatenates_S1600000_S100000_S1700000_d0

/-- An index below zero wraps round once. -/
def wrap (ix : EdgeI) : EdgeI :=
  select (cmpi .slt ix (broadcastInDim S1700000 ![] bcast_S_S1700000 (constantI S_ 32 0#32)))
    (addi ix (broadcastInDim S1700000 ![] bcast_S_S1700000 (constantI S_ 32 100000#32))) ix

/-- Σ over the edges into a node of weight · h[source]. -/
def agg (nrm : EdgeF) (row col : EdgeI) (h : Mat) : Mat :=
  Host.scatterAdd scatter_S100000x64_S1700000x1_S1700000x64_1_0_0_1 zeros
    (broadcastInDim S1700000x1 ![0] bcast_S1700000_S1700000x1_0 col)
    (mulf (broadcastInDim S1700000x64 ![0, 1] bcast_S1700000x1_S1700000x64_0_1
        (broadcastInDim S1700000x1 ![0] bcast_S1700000_S1700000x1_0 nrm))
      (Host.gather gather_S100000x64_S1700000x1_S1700000x64_1_0_n_n_0_1_164 h
        (broadcastInDim S1700000x1 ![0] bcast_S1700000_S1700000x1_0 (wrap row))))

/-- The weighted in-degree of every node. -/
def deg (x1 : EdgeList) (x2 : FVec Ideal S1600000 .f32) : FVec Ideal S100000 .f32 :=
  Host.scatterAdd scatter_S100000_S1700000x1_S1700000_n_0_0_1
    (broadcastInDim S100000 ![] bcast_S_S100000 (constant (F := Ideal) S_ .f32 0x00000000#32))
    (broadcastInDim S1700000x1 ![0] bcast_S1700000_S1700000x1_0 (cols x1)) (wts x2)

/-- deg^(−1/2) where the degree is positive, zero elsewhere. -/
def dinv (x1 : EdgeList) (x2 : FVec Ideal S1600000 .f32) : FVec Ideal S100000 .f32 :=
  select (cmpf .ogt (deg x1 x2) (broadcastInDim S100000 ![] bcast_S_S100000 (constant (F := Ideal) S_ .f32 0x00000000#32)))
    (Host.rsqrt (deg x1 x2)) (broadcastInDim S100000 ![] bcast_S_S100000 (constant (F := Ideal) S_ .f32 0x00000000#32))

/-- The symmetric normalisation of every edge: dinv[source] · weight · dinv[target]. -/
def norm (x1 : EdgeList) (x2 : FVec Ideal S1600000 .f32) : EdgeF :=
  mulf (mulf (Host.gather gather_S100000_S1700000x1_S1700000_n_0_n_n_0_1_1 (dinv x1 x2)
        (broadcastInDim S1700000x1 ![0] bcast_S1700000_S1700000x1_0 (wrap (rows x1)))) (wts x2))
    (Host.gather gather_S100000_S1700000x1_S1700000_n_0_n_n_0_1_1 (dinv x1 x2)
      (broadcastInDim S1700000x1 ![0] bcast_S1700000_S1700000x1_0 (wrap (cols x1))))

/-- The first layer. -/
def layer1 (nrm : EdgeF) (row col : EdgeI) (x : Mat) (w : Sq) (b : Vec64) : Mat :=
  biasRelu (agg nrm row col (lin x w)) (asRow b)

/-- The second layer. -/
def layer2 (nrm : EdgeF) (row col : EdgeI) (x : Mat) (w : Sq) (b : Vec64) : Mat :=
  biasSigm (agg nrm row col (lin x w)) (asRow b)

end Cert.GraphGate

end
-- ==== Proof.LibLineEval.lean ====
/-
  Evaluating a line of host operations at one buffer, through joined vectors.

  What a buffer holds after a line of host operations is computed by walking the line backwards: an operation's own
  result buffer holds its function of what its operand buffers held before it, any other buffer what it held before.
  The library's one-pass form of this walk stops at a vector made by joining pieces end to end: the join takes its
  pieces as a list of (shape, vector) pairs and its side condition is stated of that list, so the pass cannot rewrite
  a piece and leaves the rest of the walk unevaluated inside it.  Stated as a function of its two pieces — the side
  condition then speaks of the two shapes only — a two-piece join lets the walk continue into both pieces.
  `eval_line` is the one-pass walk with that restatement added, and with the rules that take the first or the last
  so many operations of a literal line, so that a long line can be evaluated in two halves.
-/
import Idealize.ShloMosaic.Lib.StableHlo.Run

noncomputable section

namespace Cert.LineEval

open Idealize.ShloMosaic Idealize.ShloMosaic.StableHlo

/-- Two vectors joined along an axis, as a function of the two vectors. -/
def joined {α : Type} (t : Shape) (a : Fin t.rank) (s₁ s₂ : Shape) (h : Shape.Concatenates [s₁, s₂] t a)
    (x : s₁.Idx → α) (y : s₂.Idx → α) : t.Idx → α :=
  concatenate t a [⟨s₁, x⟩, ⟨s₂, y⟩] h

/-- The join of a two-element list of pieces is that function of the pieces. -/
theorem joined_eq {α : Type} (t : Shape) (a : Fin t.rank) (s₁ s₂ : Shape) (h : Shape.Concatenates [s₁, s₂] t a)
    (x : s₁.Idx → α) (y : s₂.Idx → α) : concatenate t a [⟨s₁, x⟩, ⟨s₂, y⟩] h = joined t a s₁ s₂ h x y := rfl

/-- The walk as one simplification pass over a literal line, or over a literal line's first or last so many
    operations; two-piece joins are entered. Closes a goal `after ops V (Proc.devRef .tc r) = …` or leaves an equation
    between the operations' functions applied to `V` at the buffers the line only reads. -/
macro "eval_line" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', joined_eq,
      List.take_succ_cons, List.take_zero, List.drop_succ_cons, List.drop_zero]))

end Cert.LineEval

end
-- ==== Proof.Fold.lean ====
/-
  The kernel program's result.

  Walking the fold from the first region's entry to the last region's entry, the graph features the last region reads
  are the two layers applied to the node features with the normalisation and the index vectors found at the first
  region's entry; the hidden state is the argument, each half weight is the upper or lower 64 rows of a weight argument
  and each bias row a bias argument laid out as a row.  The last region's output array is therefore the gated update of
  those graph features, the hidden state, the weights and the biases.
-/
import proofs.«177768_j5437428597509_1_alg».proof.Proof.FoldA
import proofs.«177768_j5437428597509_1_alg».proof.Proof.Agg
import proofs.«177768_j5437428597509_1_alg».proof.Proof.LibLineEval

set_option maxRecDepth 16384

noncomputable section

namespace Cert.GraphGate

open Idealize.ShloMosaic Idealize.ShloMosaic.TcCoe Idealize.ShloMosaic.ValueIdx Idealize.ShloMosaic.StableHlo Idealize.SL.Sem
open Cert.KernelIdeal Cert.KernelIdeal.Gen

/-- The call that picks deg^(−1/2) where the degree is positive and zero elsewhere is three operations: a copy of the
    zero, its broadcast to every node, and a select. -/
theorem where_plain {F : FTy → Type} [FloatOps F] : (hostOps0_1 : List (HloOp τ sig (Elt F)))
    = [ StableHlo.unary main_cst_2 main_call0_v0 ((id) : (⟨S_, .f32⟩ : BufTy).Contents (Elt F) → (⟨S_, .f32⟩ : BufTy).Contents (Elt F)),
        StableHlo.unary main_call0_v0 main_call0_v1 ((broadcastInDim S100000 ![] bcast_S_S100000) : (⟨S_, .f32⟩ : BufTy).Contents (Elt F) → (⟨S100000, .f32⟩ : BufTy).Contents (Elt F)),
        StableHlo.ternary main_v13 main_v14 main_call0_v1 main_v15 ((select) : (⟨S100000, .i1⟩ : BufTy).Contents (Elt F) → (⟨S100000, .f32⟩ : BufTy).Contents (Elt F) → (⟨S100000, .f32⟩ : BufTy).Contents (Elt F) → (⟨S100000, .f32⟩ : BufTy).Contents (Elt F)) ] := rfl

variable (m : (ℓ : Loc nD τ sig) → Buf (Elt Ideal) ℓ) (ρ : Dev nD → PrngReg)

/-- The first region's entry holds the edge normalisation, the source nodes and the target nodes. -/
theorem W3_v31 (c : Dev nD) : W3 m ρ c (Proc.devRef .tc main_v31) = norm (m ((c : Thread nD τ).loc main_arg1)) (m ((c : Thread nD τ).loc main_arg2)) := by
  show after hostOps0_2 (after hostOps0_1 (after hostOps0 (W0 m ρ c))) (Proc.devRef .tc main_v31) = _
  rw [where_plain]
  simp (disch := decide) only [hostOps0_2, hostOps0, after_cons, after_nil,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', reshape_result', LineEval.joined_eq]
  rfl
theorem W3_v5 (c : Dev nD) : W3 m ρ c (Proc.devRef .tc main_v5) = rows (m ((c : Thread nD τ).loc main_arg1)) := by
  show after hostOps0_2 (after hostOps0_1 (after hostOps0 (W0 m ρ c))) (Proc.devRef .tc main_v5) = _
  rw [where_plain]
  simp (disch := decide) only [hostOps0_2, hostOps0, after_cons, after_nil,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', reshape_result', LineEval.joined_eq]
  rfl
theorem W3_v6 (c : Dev nD) : W3 m ρ c (Proc.devRef .tc main_v6) = cols (m ((c : Thread nD τ).loc main_arg1)) := by
  show after hostOps0_2 (after hostOps0_1 (after hostOps0 (W0 m ρ c))) (Proc.devRef .tc main_v6) = _
  rw [where_plain]
  simp (disch := decide) only [hostOps0_2, hostOps0, after_cons, after_nil,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', reshape_result', LineEval.joined_eq]
  rfl

/-- The graph features the last region reads: the two layers over what the first region's entry holds. -/
theorem stage_main_v63 (X : Valuation τ sig (Elt Ideal)) : stage X (Proc.devRef .tc main_v63)
    = layer2 (X (Proc.devRef .tc main_v31)) (X (Proc.devRef .tc main_v5)) (X (Proc.devRef .tc main_v6))
        (layer1 (X (Proc.devRef .tc main_v31)) (X (Proc.devRef .tc main_v5)) (X (Proc.devRef .tc main_v6))
          (X (Proc.devRef .tc main_arg0)) (X (Proc.devRef .tc main_arg4)) (X (Proc.devRef .tc main_arg5)))
        (X (Proc.devRef .tc main_arg6)) (X (Proc.devRef .tc main_arg7)) := by
  simp (disch := decide) only [hostOps4, hostOps3, hostOps1, row46, row62, row70, row71, row72, after_cons, after_nil,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl

/-- The last region's output array is the gated update of the two-layer graph convolution. -/
theorem result_eq (c : Dev nD) : W11 m ρ c (Proc.devRef .tc main_v73)
    = cell (layer2 (norm (m ((c : Thread nD τ).loc main_arg1)) (m ((c : Thread nD τ).loc main_arg2))) (rows (m ((c : Thread nD τ).loc main_arg1))) (cols (m ((c : Thread nD τ).loc main_arg1)))
        (layer1 (norm (m ((c : Thread nD τ).loc main_arg1)) (m ((c : Thread nD τ).loc main_arg2))) (rows (m ((c : Thread nD τ).loc main_arg1))) (cols (m ((c : Thread nD τ).loc main_arg1))) (m ((c : Thread nD τ).loc main_arg0)) (m ((c : Thread nD τ).loc main_arg4)) (m ((c : Thread nD τ).loc main_arg5))) (m ((c : Thread nD τ).loc main_arg6)) (m ((c : Thread nD τ).loc main_arg7)))
      (m ((c : Thread nD τ).loc main_arg3)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  have hS : W10 m ρ c = stage (W3 m ρ c) := W10_eq m ρ c
  have g63 : V10 m ρ c main_v63 = layer2 (norm (m ((c : Thread nD τ).loc main_arg1)) (m ((c : Thread nD τ).loc main_arg2))) (rows (m ((c : Thread nD τ).loc main_arg1))) (cols (m ((c : Thread nD τ).loc main_arg1)))
      (layer1 (norm (m ((c : Thread nD τ).loc main_arg1)) (m ((c : Thread nD τ).loc main_arg2))) (rows (m ((c : Thread nD τ).loc main_arg1))) (cols (m ((c : Thread nD τ).loc main_arg1))) (m ((c : Thread nD τ).loc main_arg0)) (m ((c : Thread nD τ).loc main_arg4)) (m ((c : Thread nD τ).loc main_arg5))) (m ((c : Thread nD τ).loc main_arg6)) (m ((c : Thread nD τ).loc main_arg7)) := by
    show W10 m ρ c (Proc.devRef .tc main_v63) = _
    rw [hS, stage_main_v63, W3_v31, W3_v5, W3_v6, W3_arg0, W3_arg4, W3_arg5, W3_arg6, W3_arg7]
  have g3 : V10 m ρ c main_arg3 = (m ((c : Thread nD τ).loc main_arg3)) := by
    show W10 m ρ c (Proc.devRef .tc main_arg3) = _
    rw [hS, stage_main_arg3, W3_arg3]
  have h2 : ∀ k q : Fin 64, V10 m ρ c main_v64 (ix2 k q) = (m ((c : Thread nD τ).loc main_arg8)) (ix2 (Fin.castAdd 64 k : Fin 128) q) := fun k q => by
    show W10 m ρ c (Proc.devRef .tc main_v64) (ix2 k q) = _
    rw [hS, stage_main_v64, W3_arg8]; exact upper _ k q
  have h3 : ∀ k q : Fin 64, V10 m ρ c main_v65 (ix2 k q) = (m ((c : Thread nD τ).loc main_arg8)) (ix2 (Fin.natAdd 64 k : Fin 128) q) := fun k q => by
    show W10 m ρ c (Proc.devRef .tc main_v65) (ix2 k q) = _
    rw [hS, stage_main_v65, W3_arg8]; exact lower _ k q
  have h4 : ∀ q : Fin 64, V10 m ρ c main_v70 (ix2 (0 : Fin 1) q) = (m ((c : Thread nD τ).loc main_arg9)) (ix1 q) := fun q => by
    show W10 m ρ c (Proc.devRef .tc main_v70) (ix2 (0 : Fin 1) q) = _
    rw [hS, stage_main_v70, W3_arg9]; exact asRow_apply _ q
  have h5 : ∀ k q : Fin 64, V10 m ρ c main_v66 (ix2 k q) = (m ((c : Thread nD τ).loc main_arg10)) (ix2 (Fin.castAdd 64 k : Fin 128) q) := fun k q => by
    show W10 m ρ c (Proc.devRef .tc main_v66) (ix2 k q) = _
    rw [hS, stage_main_v66, W3_arg10]; exact upper _ k q
  have h6 : ∀ k q : Fin 64, V10 m ρ c main_v67 (ix2 k q) = (m ((c : Thread nD τ).loc main_arg10)) (ix2 (Fin.natAdd 64 k : Fin 128) q) := fun k q => by
    show W10 m ρ c (Proc.devRef .tc main_v67) (ix2 k q) = _
    rw [hS, stage_main_v67, W3_arg10]; exact lower _ k q
  have h7 : ∀ q : Fin 64, V10 m ρ c main_v71 (ix2 (0 : Fin 1) q) = (m ((c : Thread nD τ).loc main_arg11)) (ix1 q) := fun q => by
    show W10 m ρ c (Proc.devRef .tc main_v71) (ix2 (0 : Fin 1) q) = _
    rw [hS, stage_main_v71, W3_arg11]; exact asRow_apply _ q
  have h8 : ∀ k q : Fin 64, V10 m ρ c main_v68 (ix2 k q) = (m ((c : Thread nD τ).loc main_arg12)) (ix2 (Fin.castAdd 64 k : Fin 128) q) := fun k q => by
    show W10 m ρ c (Proc.devRef .tc main_v68) (ix2 k q) = _
    rw [hS, stage_main_v68, W3_arg12]; exact upper _ k q
  have h9 : ∀ k q : Fin 64, V10 m ρ c main_v69 (ix2 k q) = (m ((c : Thread nD τ).loc main_arg12)) (ix2 (Fin.natAdd 64 k : Fin 128) q) := fun k q => by
    show W10 m ρ c (Proc.devRef .tc main_v69) (ix2 k q) = _
    rw [hS, stage_main_v69, W3_arg12]; exact lower _ k q
  have h10 : ∀ q : Fin 64, V10 m ρ c main_v72 (ix2 (0 : Fin 1) q) = (m ((c : Thread nD τ).loc main_arg13)) (ix1 q) := fun q => by
    show W10 m ρ c (Proc.devRef .tc main_v72) (ix2 (0 : Fin 1) q) = _
    rw [hS, stage_main_v72, W3_arg13]; exact asRow_apply _ q
  refine (W11_arr m ρ c 11).trans ((final4 (V10 m ρ) c (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))
    h2 h3 h4 h5 h6 h7 h8 h9 h10).trans ?_)
  rw [g63, g3]

end Cert.GraphGate

end
-- ==== Proof.RefRun.lean ====
/-
  The jnp program as a line of host operations, cut in five.

  The program is 173 host operations in a row.  They are cut where the mathematics cuts: the edge normalisation with
  the source and target index vectors; the first layer (product, gather, scaling, scatter-add, bias, max(·, 0)); the
  normalisation and the index vectors again, recomputed for the second layer; the second layer up to the logistic
  function; the gated update.  Every weakly fair execution runs the line to its end, and each buffer then holds what
  folding the five pieces one after the other over the launch contents leaves there.
-/
import proofs.«177768_j5437428597509_1_alg».proof.Proof.Gen.ReferenceIdeal
import proofs.«177768_j5437428597509_1_alg».proof.Proof.LibRegionOp
import Idealize.ShloMosaic.Lib.StableHlo.Run

noncomputable section

namespace Cert.RefLine

open Cert.ReferenceIdeal Cert.ReferenceIdeal.Gen Idealize.ShloMosaic Idealize.ShloMosaic.TcCoe Idealize.SL.Sem Idealize.ShloMosaic.StableHlo

variable {F : FTy → Type} [FloatOps F]

/-- The edge normalisation and the index vectors. -/
abbrev seg1 : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_v4 (iotaInDim S100000 32 0),
    binary main_v1 main_v4 main_v5 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v3 main_v4 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S100000 ![] bcast_S_S100000 : (⟨S_, .f32⟩ : BufTy).Contents (Elt F) → (⟨S100000, .f32⟩ : BufTy).Contents (Elt F)),
    binary main_arg2 main_v7 main_v8 ((fun a b => concatenate S1700000 0 [⟨S1600000, a⟩, ⟨S100000, b⟩] concatenates_S1600000_S100000_S1700000_d0) : (⟨S1600000, .f32⟩ : BufTy).Contents (Elt F) → (⟨S100000, .f32⟩ : BufTy).Contents (Elt F) → (⟨S1700000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v6 main_v10 (broadcastInDim S1700000x1 ![0] bcast_S1700000_S1700000x1_0 : (⟨S1700000, .i32⟩ : BufTy).Contents (Elt F) → (⟨S1700000x1, .i32⟩ : BufTy).Contents (Elt F)),
    ternary main_v9 main_v10 main_v8 main_v11 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    unary main_v11 main_v14 (Host.rsqrt : (⟨S100000, .f32⟩ : BufTy).Contents (Elt F) → (⟨S100000, .f32⟩ : BufTy).Contents (Elt F)),
    nullary main_cst_2 (constant S_ .f32 0x00000000#32),
    unary main_cst_2 main_call0_v0 ((id) : (⟨S_, .f32⟩ : BufTy).Contents (Elt F) → (⟨S_, .f32⟩ : BufTy).Contents (Elt F)),
    unary main_call0_v0 main_call0_v1 (((broadcastInDim S100000 ![] bcast_S_S100000)) : (⟨S_, .f32⟩ : BufTy).Contents (Elt F) → (⟨S100000, .f32⟩ : BufTy).Contents (Elt F)),
    ternary main_v13 main_v14 main_call0_v1 main_v15 ((select) : (⟨S100000, .i1⟩ : BufTy).Contents (Elt F) → (⟨S100000, .f32⟩ : BufTy).Contents (Elt F) → (⟨S100000, .f32⟩ : BufTy).Contents (Elt F) → (⟨S100000, .f32⟩ : BufTy).Contents (Elt F)),
    nullary main_c (constantI S_ 32 0#32),
    unary main_c main_v16 (broadcastInDim S1700000 ![] bcast_S_S1700000 : (⟨S_, .i32⟩ : BufTy).Contents (Elt F) → (⟨S1700000, .i32⟩ : BufTy).Contents (Elt F)),
    binary main_v5 main_v16 main_v17 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v18 (broadcastInDim S1700000 ![] bcast_S_S1700000 : (⟨S_, .i32⟩ : BufTy).Contents (Elt F) → (⟨S1700000, .i32⟩ : BufTy).Contents (Elt F)),
    binary main_v5 main_v18 main_v19 (addi : (⟨S1700000, .i32⟩ : BufTy).Contents (Elt F) → (⟨S1700000, .i32⟩ : BufTy).Contents (Elt F) → (⟨S1700000, .i32⟩ : BufTy).Contents (Elt F)),
    ternary main_v17 main_v19 main_v5 main_v20 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v20 main_v21 (broadcastInDim S1700000x1 ![0] bcast_S1700000_S1700000x1_0 : (⟨S1700000, .i32⟩ : BufTy).Contents (Elt F) → (⟨S1700000x1, .i32⟩ : BufTy).Contents (Elt F)),
    binary main_v15 main_v21 main_v22 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v22 main_v8 main_v23 (mulf : (⟨S1700000, .f32⟩ : BufTy).Contents (Elt F) → (⟨S1700000, .f32⟩ : BufTy).Contents (Elt F) → (⟨S1700000, .f32⟩ : BufTy).Contents (Elt F)),
    nullary main_c_4 (constantI S_ 32 0#32),
    unary main_c_4 main_v24 (broadcastInDim S1700000 ![] bcast_S_S1700000 : (⟨S_, .i32⟩ : BufTy).Contents (Elt F) → (⟨S1700000, .i32⟩ : BufTy).Contents (Elt F)),
    binary main_v6 main_v24 main_v25 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v26 (broadcastInDim S1700000 ![] bcast_S_S1700000 : (⟨S_, .i32⟩ : BufTy).Contents (Elt F) → (⟨S1700000, .i32⟩ : BufTy).Contents (Elt F)),
    binary main_v6 main_v26 main_v27 (addi : (⟨S1700000, .i32⟩ : BufTy).Contents (Elt F) → (⟨S1700000, .i32⟩ : BufTy).Contents (Elt F) → (⟨S1700000, .i32⟩ : BufTy).Contents (Elt F)),
    ternary main_v25 main_v27 main_v6 main_v28 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v28 main_v29 (broadcastInDim S1700000x1 ![0] bcast_S1700000_S1700000x1_0 : (⟨S1700000, .i32⟩ : BufTy).Contents (Elt F) → (⟨S1700000x1, .i32⟩ : BufTy).Contents (Elt F)),
    binary main_v15 main_v29 main_v30 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v23 main_v30 main_v31 (mulf : (⟨S1700000, .f32⟩ : BufTy).Contents (Elt F) → (⟨S1700000, .f32⟩ : BufTy).Contents (Elt F) → (⟨S1700000, .f32⟩ : BufTy).Contents (Elt F)) ]
set_option maxRecDepth 8192 in
theorem seg1_sub : (seg1 : List (HloOp τ sig (Elt F))).Forall fun op => op.bufs ⊆ tcRefs τ sig :=
  ⟨unary_bufs_sub .., reshape_bufs_sub .., unary_bufs_sub .., reshape_bufs_sub .., nullary_bufs_sub .., binary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩
theorem seg1_fresh : (seg1 : List (HloOp τ sig (Elt F))).Forall fun op => op.fresh = ∅ := by
  simp only [List.Forall]; repeat' constructor

/-- The first layer. -/
abbrev seg2 : List (HloOp τ sig (Elt F)) :=
  [ binary main_arg0 main_arg4 main_v32 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_v31 main_v33 (broadcastInDim S1700000x1 ![0] bcast_S1700000_S1700000x1_0 : (⟨S1700000, .f32⟩ : BufTy).Contents (Elt F) → (⟨S1700000x1, .f32⟩ : BufTy).Contents (Elt F)),
    nullary main_c_6 (constantI S_ 32 0#32),
    unary main_c_6 main_v34 (broadcastInDim S1700000 ![] bcast_S_S1700000 : (⟨S_, .i32⟩ : BufTy).Contents (Elt F) → (⟨S1700000, .i32⟩ : BufTy).Contents (Elt F)),
    binary main_v5 main_v34 main_v35 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v36 (broadcastInDim S1700000 ![] bcast_S_S1700000 : (⟨S_, .i32⟩ : BufTy).Contents (Elt F) → (⟨S1700000, .i32⟩ : BufTy).Contents (Elt F)),
    binary main_v5 main_v36 main_v37 (addi : (⟨S1700000, .i32⟩ : BufTy).Contents (Elt F) → (⟨S1700000, .i32⟩ : BufTy).Contents (Elt F) → (⟨S1700000, .i32⟩ : BufTy).Contents (Elt F)),
    ternary main_v35 main_v37 main_v5 main_v38 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v38 main_v39 (broadcastInDim S1700000x1 ![0] bcast_S1700000_S1700000x1_0 : (⟨S1700000, .i32⟩ : BufTy).Contents (Elt F) → (⟨S1700000x1, .i32⟩ : BufTy).Contents (Elt F)),
    binary main_v32 main_v39 main_v40 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v33 main_v41 (broadcastInDim S1700000x64 ![0, 1] bcast_S1700000x1_S1700000x64_0_1 : (⟨S1700000x1, .f32⟩ : BufTy).Contents (Elt F) → (⟨S1700000x64, .f32⟩ : BufTy).Contents (Elt F)),
    binary main_v41 main_v40 main_v42 (mulf : (⟨S1700000x64, .f32⟩ : BufTy).Contents (Elt F) → (⟨S1700000x64, .f32⟩ : BufTy).Contents (Elt F) → (⟨S1700000x64, .f32⟩ : BufTy).Contents (Elt F)),
    nullary main_cst_8 (constant S_ .f32 0x00000000#32),
    unary main_cst_8 main_v43 (broadcastInDim S100000x64 ![] bcast_S_S100000x64 : (⟨S_, .f32⟩ : BufTy).Contents (Elt F) → (⟨S100000x64, .f32⟩ : BufTy).Contents (Elt F)),
    unary main_v6 main_v44 (broadcastInDim S1700000x1 ![0] bcast_S1700000_S1700000x1_0 : (⟨S1700000, .i32⟩ : BufTy).Contents (Elt F) → (⟨S1700000x1, .i32⟩ : BufTy).Contents (Elt F)),
    ternary main_v43 main_v44 main_v42 main_v45 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg5 main_v46 (broadcastInDim S1x64 ![1] bcast_S64_S1x64_1 : (⟨S64, .f32⟩ : BufTy).Contents (Elt F) → (⟨S1x64, .f32⟩ : BufTy).Contents (Elt F)),
    unary main_v46 main_v47 (broadcastInDim S100000x64 ![0, 1] bcast_S1x64_S100000x64_0_1 : (⟨S1x64, .f32⟩ : BufTy).Contents (Elt F) → (⟨S100000x64, .f32⟩ : BufTy).Contents (Elt F)),
    binary main_v45 main_v47 main_v48 (addf : (⟨S100000x64, .f32⟩ : BufTy).Contents (Elt F) → (⟨S100000x64, .f32⟩ : BufTy).Contents (Elt F) → (⟨S100000x64, .f32⟩ : BufTy).Contents (Elt F)),
    nullary main_call1_cst ((constant S_ .f32 0x00000000#32)),
    unary main_call1_cst main_call1_v0 (((broadcastInDim S100000x64 ![] bcast_S_S100000x64)) : (⟨S_, .f32⟩ : BufTy).Contents (Elt F) → (⟨S100000x64, .f32⟩ : BufTy).Contents (Elt F)),
    binary main_v48 main_call1_v0 main_v49 ((maximumf) : (⟨S100000x64, .f32⟩ : BufTy).Contents (Elt F) → (⟨S100000x64, .f32⟩ : BufTy).Contents (Elt F) → (⟨S100000x64, .f32⟩ : BufTy).Contents (Elt F)) ]
set_option maxRecDepth 8192 in
theorem seg2_sub : (seg2 : List (HloOp τ sig (Elt F))).Forall fun op => op.bufs ⊆ tcRefs τ sig :=
  ⟨binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub ..⟩
theorem seg2_fresh : (seg2 : List (HloOp τ sig (Elt F))).Forall fun op => op.fresh = ∅ := by
  simp only [List.Forall]; repeat' constructor

/-- The normalisation and the index vectors, recomputed. -/
abbrev seg3 : List (HloOp τ sig (Elt F)) :=
  [ unary main_arg1 main_v50 ((extractStridedSlice S1x1600000 ![0, 0] · slices_S2x1600000_S1x1600000_0_0) : (⟨S2x1600000, .i32⟩ : BufTy).Contents (Elt F) → (⟨S1x1600000, .i32⟩ : BufTy).Contents (Elt F)),
    reshape main_v50 main_v51 rfl shapeCasts_S1x1600000_S1600000,
    unary main_arg1 main_v52 ((extractStridedSlice S1x1600000 ![1, 0] · slices_S2x1600000_S1x1600000_1_0) : (⟨S2x1600000, .i32⟩ : BufTy).Contents (Elt F) → (⟨S1x1600000, .i32⟩ : BufTy).Contents (Elt F)),
    reshape main_v52 main_v53 rfl shapeCasts_S1x1600000_S1600000,
    nullary main_v54 (iotaInDim S100000 32 0),
    binary main_v51 main_v54 main_v55 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v53 main_v54 main_v56 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst_9 (constant S_ .f32 0x3F800000#32),
    unary main_cst_9 main_v57 (broadcastInDim S100000 ![] bcast_S_S100000 : (⟨S_, .f32⟩ : BufTy).Contents (Elt F) → (⟨S100000, .f32⟩ : BufTy).Contents (Elt F)),
    binary main_arg2 main_v57 main_v58 ((fun a b => concatenate S1700000 0 [⟨S1600000, a⟩, ⟨S100000, b⟩] concatenates_S1600000_S100000_S1700000_d0) : (⟨S1600000, .f32⟩ : BufTy).Contents (Elt F) → (⟨S100000, .f32⟩ : BufTy).Contents (Elt F) → (⟨S1700000, .f32⟩ : BufTy).Contents (Elt F)),
    nullary main_cst_10 (constant S_ .f32 0x00000000#32),
    unary main_cst_10 main_v59 (broadcastInDim S100000 ![] bcast_S_S100000 : (⟨S_, .f32⟩ : BufTy).Contents (Elt F) → (⟨S100000, .f32⟩ : BufTy).Contents (Elt F)),
    unary main_v56 main_v60 (broadcastInDim S1700000x1 ![0] bcast_S1700000_S1700000x1_0 : (⟨S1700000, .i32⟩ : BufTy).Contents (Elt F) → (⟨S1700000x1, .i32⟩ : BufTy).Contents (Elt F)),
    ternary main_v59 main_v60 main_v58 main_v61 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_11 (constant S_ .f32 0x00000000#32),
    unary main_cst_11 main_v62 (broadcastInDim S100000 ![] bcast_S_S100000 : (⟨S_, .f32⟩ : BufTy).Contents (Elt F) → (⟨S100000, .f32⟩ : BufTy).Contents (Elt F)),
    binary main_v61 main_v62 main_v63 (cmpf .ogt : (⟨S100000, .f32⟩ : BufTy).Contents (Elt F) → (⟨S100000, .f32⟩ : BufTy).Contents (Elt F) → (⟨S100000, .i1⟩ : BufTy).Contents (Elt F)),
    unary main_v61 main_v64 (Host.rsqrt : (⟨S100000, .f32⟩ : BufTy).Contents (Elt F) → (⟨S100000, .f32⟩ : BufTy).Contents (Elt F)),
    nullary main_cst_12 (constant S_ .f32 0x00000000#32),
    unary main_cst_12 main_call2_v0 ((id) : (⟨S_, .f32⟩ : BufTy).Contents (Elt F) → (⟨S_, .f32⟩ : BufTy).Contents (Elt F)),
    unary main_call2_v0 main_call2_v1 (((broadcastInDim S100000 ![] bcast_S_S100000)) : (⟨S_, .f32⟩ : BufTy).Contents (Elt F) → (⟨S100000, .f32⟩ : BufTy).Contents (Elt F)),
    ternary main_v63 main_v64 main_call2_v1 main_v65 ((select) : (⟨S100000, .i1⟩ : BufTy).Contents (Elt F) → (⟨S100000, .f32⟩ : BufTy).Contents (Elt F) → (⟨S100000, .f32⟩ : BufTy).Contents (Elt F) → (⟨S100000, .f32⟩ : BufTy).Contents (Elt F)),
    nullary main_c_13 (constantI S_ 32 0#32),
    unary main_c_13 main_v66 (broadcastInDim S1700000 ![] bcast_S_S1700000 : (⟨S_, .i32⟩ : BufTy).Contents (Elt F) → (⟨S1700000, .i32⟩ : BufTy).Contents (Elt F)),
    binary main_v55 main_v66 main_v67 (cmpi .slt : (⟨S1700000, .i32⟩ : BufTy).Contents (Elt F) → (⟨S1700000, .i32⟩ : BufTy).Contents (Elt F) → (⟨S1700000, .i1⟩ : BufTy).Contents (Elt F)),
    nullary main_c_14 (constantI S_ 32 100000#32),
    unary main_c_14 main_v68 (broadcastInDim S1700000 ![] bcast_S_S1700000 : (⟨S_, .i32⟩ : BufTy).Contents (Elt F) → (⟨S1700000, .i32⟩ : BufTy).Contents (Elt F)),
    binary main_v55 main_v68 main_v69 (addi : (⟨S1700000, .i32⟩ : BufTy).Contents (Elt F) → (⟨S1700000, .i32⟩ : BufTy).Contents (Elt F) → (⟨S1700000, .i32⟩ : BufTy).Contents (Elt F)),
    ternary main_v67 main_v69 main_v55 main_v70 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v70 main_v71 (broadcastInDim S1700000x1 ![0] bcast_S1700000_S1700000x1_0 : (⟨S1700000, .i32⟩ : BufTy).Contents (Elt F) → (⟨S1700000x1, .i32⟩ : BufTy).Contents (Elt F)),
    binary main_v65 main_v71 main_v72 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v72 main_v58 main_v73 (mulf : (⟨S1700000, .f32⟩ : BufTy).Contents (Elt F) → (⟨S1700000, .f32⟩ : BufTy).Contents (Elt F) → (⟨S1700000, .f32⟩ : BufTy).Contents (Elt F)),
    nullary main_c_15 (constantI S_ 32 0#32),
    unary main_c_15 main_v74 (broadcastInDim S1700000 ![] bcast_S_S1700000 : (⟨S_, .i32⟩ : BufTy).Contents (Elt F) → (⟨S1700000, .i32⟩ : BufTy).Contents (Elt F)),
    binary main_v56 main_v74 main_v75 (cmpi .slt : (⟨S1700000, .i32⟩ : BufTy).Contents (Elt F) → (⟨S1700000, .i32⟩ : BufTy).Contents (Elt F) → (⟨S1700000, .i1⟩ : BufTy).Contents (Elt F)),
    nullary main_c_16 (constantI S_ 32 100000#32),
    unary main_c_16 main_v76 (broadcastInDim S1700000 ![] bcast_S_S1700000 : (⟨S_, .i32⟩ : BufTy).Contents (Elt F) → (⟨S1700000, .i32⟩ : BufTy).Contents (Elt F)),
    binary main_v56 main_v76 main_v77 (addi : (⟨S1700000, .i32⟩ : BufTy).Contents (Elt F) → (⟨S1700000, .i32⟩ : BufTy).Contents (Elt F) → (⟨S1700000, .i32⟩ : BufTy).Contents (Elt F)),
    ternary main_v75 main_v77 main_v56 main_v78 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v78 main_v79 (broadcastInDim S1700000x1 ![0] bcast_S1700000_S1700000x1_0 : (⟨S1700000, .i32⟩ : BufTy).Contents (Elt F) → (⟨S1700000x1, .i32⟩ : BufTy).Contents (Elt F)),
    binary main_v65 main_v79 main_v80 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v73 main_v80 main_v81 (mulf : (⟨S1700000, .f32⟩ : BufTy).Contents (Elt F) → (⟨S1700000, .f32⟩ : BufTy).Contents (Elt F) → (⟨S1700000, .f32⟩ : BufTy).Contents (Elt F)) ]
set_option maxRecDepth 8192 in
theorem seg3_sub : (seg3 : List (HloOp τ sig (Elt F))).Forall fun op => op.bufs ⊆ tcRefs τ sig :=
  ⟨unary_bufs_sub .., reshape_bufs_sub .., unary_bufs_sub .., reshape_bufs_sub .., nullary_bufs_sub .., binary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩
theorem seg3_fresh : (seg3 : List (HloOp τ sig (Elt F))).Forall fun op => op.fresh = ∅ := by
  simp only [List.Forall]; repeat' constructor

/-- The second layer. -/
abbrev seg4 : List (HloOp τ sig (Elt F)) :=
  [ binary main_v49 main_arg6 main_v82 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_v81 main_v83 (broadcastInDim S1700000x1 ![0] bcast_S1700000_S1700000x1_0 : (⟨S1700000, .f32⟩ : BufTy).Contents (Elt F) → (⟨S1700000x1, .f32⟩ : BufTy).Contents (Elt F)),
    nullary main_c_17 (constantI S_ 32 0#32),
    unary main_c_17 main_v84 (broadcastInDim S1700000 ![] bcast_S_S1700000 : (⟨S_, .i32⟩ : BufTy).Contents (Elt F) → (⟨S1700000, .i32⟩ : BufTy).Contents (Elt F)),
    binary main_v55 main_v84 main_v85 (cmpi .slt : (⟨S1700000, .i32⟩ : BufTy).Contents (Elt F) → (⟨S1700000, .i32⟩ : BufTy).Contents (Elt F) → (⟨S1700000, .i1⟩ : BufTy).Contents (Elt F)),
    nullary main_c_18 (constantI S_ 32 100000#32),
    unary main_c_18 main_v86 (broadcastInDim S1700000 ![] bcast_S_S1700000 : (⟨S_, .i32⟩ : BufTy).Contents (Elt F) → (⟨S1700000, .i32⟩ : BufTy).Contents (Elt F)),
    binary main_v55 main_v86 main_v87 (addi : (⟨S1700000, .i32⟩ : BufTy).Contents (Elt F) → (⟨S1700000, .i32⟩ : BufTy).Contents (Elt F) → (⟨S1700000, .i32⟩ : BufTy).Contents (Elt F)),
    ternary main_v85 main_v87 main_v55 main_v88 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v88 main_v89 (broadcastInDim S1700000x1 ![0] bcast_S1700000_S1700000x1_0 : (⟨S1700000, .i32⟩ : BufTy).Contents (Elt F) → (⟨S1700000x1, .i32⟩ : BufTy).Contents (Elt F)),
    binary main_v82 main_v89 main_v90 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v83 main_v91 (broadcastInDim S1700000x64 ![0, 1] bcast_S1700000x1_S1700000x64_0_1 : (⟨S1700000x1, .f32⟩ : BufTy).Contents (Elt F) → (⟨S1700000x64, .f32⟩ : BufTy).Contents (Elt F)),
    binary main_v91 main_v90 main_v92 (mulf : (⟨S1700000x64, .f32⟩ : BufTy).Contents (Elt F) → (⟨S1700000x64, .f32⟩ : BufTy).Contents (Elt F) → (⟨S1700000x64, .f32⟩ : BufTy).Contents (Elt F)),
    nullary main_cst_19 (constant S_ .f32 0x00000000#32),
    unary main_cst_19 main_v93 (broadcastInDim S100000x64 ![] bcast_S_S100000x64 : (⟨S_, .f32⟩ : BufTy).Contents (Elt F) → (⟨S100000x64, .f32⟩ : BufTy).Contents (Elt F)),
    unary main_v56 main_v94 (broadcastInDim S1700000x1 ![0] bcast_S1700000_S1700000x1_0 : (⟨S1700000, .i32⟩ : BufTy).Contents (Elt F) → (⟨S1700000x1, .i32⟩ : BufTy).Contents (Elt F)),
    ternary main_v93 main_v94 main_v92 main_v95 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg7 main_v96 (broadcastInDim S1x64 ![1] bcast_S64_S1x64_1 : (⟨S64, .f32⟩ : BufTy).Contents (Elt F) → (⟨S1x64, .f32⟩ : BufTy).Contents (Elt F)),
    unary main_v96 main_v97 (broadcastInDim S100000x64 ![0, 1] bcast_S1x64_S100000x64_0_1 : (⟨S1x64, .f32⟩ : BufTy).Contents (Elt F) → (⟨S100000x64, .f32⟩ : BufTy).Contents (Elt F)),
    binary main_v95 main_v97 main_v98 (addf : (⟨S100000x64, .f32⟩ : BufTy).Contents (Elt F) → (⟨S100000x64, .f32⟩ : BufTy).Contents (Elt F) → (⟨S100000x64, .f32⟩ : BufTy).Contents (Elt F)),
    unary main_v98 main_v99 (Host.negf : (⟨S100000x64, .f32⟩ : BufTy).Contents (Elt F) → (⟨S100000x64, .f32⟩ : BufTy).Contents (Elt F)),
    unary main_v99 main_v100 (Host.exp : (⟨S100000x64, .f32⟩ : BufTy).Contents (Elt F) → (⟨S100000x64, .f32⟩ : BufTy).Contents (Elt F)),
    nullary main_cst_20 (constant S_ .f32 0x3F800000#32),
    unary main_cst_20 main_v101 (broadcastInDim S100000x64 ![] bcast_S_S100000x64 : (⟨S_, .f32⟩ : BufTy).Contents (Elt F) → (⟨S100000x64, .f32⟩ : BufTy).Contents (Elt F)),
    binary main_v101 main_v100 main_v102 (addf : (⟨S100000x64, .f32⟩ : BufTy).Contents (Elt F) → (⟨S100000x64, .f32⟩ : BufTy).Contents (Elt F) → (⟨S100000x64, .f32⟩ : BufTy).Contents (Elt F)),
    nullary main_cst_21 (constant S_ .f32 0x3F800000#32),
    unary main_cst_21 main_v103 (broadcastInDim S100000x64 ![] bcast_S_S100000x64 : (⟨S_, .f32⟩ : BufTy).Contents (Elt F) → (⟨S100000x64, .f32⟩ : BufTy).Contents (Elt F)),
    binary main_v103 main_v102 main_v104 (Host.divf : (⟨S100000x64, .f32⟩ : BufTy).Contents (Elt F) → (⟨S100000x64, .f32⟩ : BufTy).Contents (Elt F) → (⟨S100000x64, .f32⟩ : BufTy).Contents (Elt F)) ]
set_option maxRecDepth 8192 in
theorem seg4_sub : (seg4 : List (HloOp τ sig (Elt F))).Forall fun op => op.bufs ⊆ tcRefs τ sig :=
  ⟨binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub ..⟩
theorem seg4_fresh : (seg4 : List (HloOp τ sig (Elt F))).Forall fun op => op.fresh = ∅ := by
  simp only [List.Forall]; repeat' constructor

/-- The gated update. -/
abbrev seg5 : List (HloOp τ sig (Elt F)) :=
  [ binary main_v104 main_arg3 main_v105 ((fun a b => concatenate S100000x128 1 [⟨S100000x64, a⟩, ⟨S100000x64, b⟩] concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)),
    binary main_v105 main_arg8 main_v106 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg9 main_v107 (broadcastInDim S1x64 ![1] bcast_S64_S1x64_1 : (⟨S64, .f32⟩ : BufTy).Contents (Elt F) → (⟨S1x64, .f32⟩ : BufTy).Contents (Elt F)),
    unary main_v107 main_v108 (broadcastInDim S100000x64 ![0, 1] bcast_S1x64_S100000x64_0_1 : (⟨S1x64, .f32⟩ : BufTy).Contents (Elt F) → (⟨S100000x64, .f32⟩ : BufTy).Contents (Elt F)),
    binary main_v106 main_v108 main_v109 (addf : (⟨S100000x64, .f32⟩ : BufTy).Contents (Elt F) → (⟨S100000x64, .f32⟩ : BufTy).Contents (Elt F) → (⟨S100000x64, .f32⟩ : BufTy).Contents (Elt F)),
    unary main_v109 main_v110 (Host.negf : (⟨S100000x64, .f32⟩ : BufTy).Contents (Elt F) → (⟨S100000x64, .f32⟩ : BufTy).Contents (Elt F)),
    unary main_v110 main_v111 (Host.exp : (⟨S100000x64, .f32⟩ : BufTy).Contents (Elt F) → (⟨S100000x64, .f32⟩ : BufTy).Contents (Elt F)),
    nullary main_cst_22 (constant S_ .f32 0x3F800000#32),
    unary main_cst_22 main_v112 (broadcastInDim S100000x64 ![] bcast_S_S100000x64 : (⟨S_, .f32⟩ : BufTy).Contents (Elt F) → (⟨S100000x64, .f32⟩ : BufTy).Contents (Elt F)),
    binary main_v112 main_v111 main_v113 (addf : (⟨S100000x64, .f32⟩ : BufTy).Contents (Elt F) → (⟨S100000x64, .f32⟩ : BufTy).Contents (Elt F) → (⟨S100000x64, .f32⟩ : BufTy).Contents (Elt F)),
    nullary main_cst_23 (constant S_ .f32 0x3F800000#32),
    unary main_cst_23 main_v114 (broadcastInDim S100000x64 ![] bcast_S_S100000x64 : (⟨S_, .f32⟩ : BufTy).Contents (Elt F) → (⟨S100000x64, .f32⟩ : BufTy).Contents (Elt F)),
    binary main_v114 main_v113 main_v115 (Host.divf : (⟨S100000x64, .f32⟩ : BufTy).Contents (Elt F) → (⟨S100000x64, .f32⟩ : BufTy).Contents (Elt F) → (⟨S100000x64, .f32⟩ : BufTy).Contents (Elt F)),
    binary main_v105 main_arg10 main_v116 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg11 main_v117 (broadcastInDim S1x64 ![1] bcast_S64_S1x64_1 : (⟨S64, .f32⟩ : BufTy).Contents (Elt F) → (⟨S1x64, .f32⟩ : BufTy).Contents (Elt F)),
    unary main_v117 main_v118 (broadcastInDim S100000x64 ![0, 1] bcast_S1x64_S100000x64_0_1 : (⟨S1x64, .f32⟩ : BufTy).Contents (Elt F) → (⟨S100000x64, .f32⟩ : BufTy).Contents (Elt F)),
    binary main_v116 main_v118 main_v119 (addf : (⟨S100000x64, .f32⟩ : BufTy).Contents (Elt F) → (⟨S100000x64, .f32⟩ : BufTy).Contents (Elt F) → (⟨S100000x64, .f32⟩ : BufTy).Contents (Elt F)),
    unary main_v119 main_v120 (Host.negf : (⟨S100000x64, .f32⟩ : BufTy).Contents (Elt F) → (⟨S100000x64, .f32⟩ : BufTy).Contents (Elt F)),
    unary main_v120 main_v121 (Host.exp : (⟨S100000x64, .f32⟩ : BufTy).Contents (Elt F) → (⟨S100000x64, .f32⟩ : BufTy).Contents (Elt F)),
    nullary main_cst_24 (constant S_ .f32 0x3F800000#32),
    unary main_cst_24 main_v122 (broadcastInDim S100000x64 ![] bcast_S_S100000x64 : (⟨S_, .f32⟩ : BufTy).Contents (Elt F) → (⟨S100000x64, .f32⟩ : BufTy).Contents (Elt F)),
    binary main_v122 main_v121 main_v123 (addf : (⟨S100000x64, .f32⟩ : BufTy).Contents (Elt F) → (⟨S100000x64, .f32⟩ : BufTy).Contents (Elt F) → (⟨S100000x64, .f32⟩ : BufTy).Contents (Elt F)),
    nullary main_cst_25 (constant S_ .f32 0x3F800000#32),
    unary main_cst_25 main_v124 (broadcastInDim S100000x64 ![] bcast_S_S100000x64 : (⟨S_, .f32⟩ : BufTy).Contents (Elt F) → (⟨S100000x64, .f32⟩ : BufTy).Contents (Elt F)),
    binary main_v124 main_v123 main_v125 (Host.divf : (⟨S100000x64, .f32⟩ : BufTy).Contents (Elt F) → (⟨S100000x64, .f32⟩ : BufTy).Contents (Elt F) → (⟨S100000x64, .f32⟩ : BufTy).Contents (Elt F)),
    binary main_arg3 main_v125 main_v126 (mulf : (⟨S100000x64, .f32⟩ : BufTy).Contents (Elt F) → (⟨S100000x64, .f32⟩ : BufTy).Contents (Elt F) → (⟨S100000x64, .f32⟩ : BufTy).Contents (Elt F)),
    binary main_v104 main_v126 main_v127 ((fun a b => concatenate S100000x128 1 [⟨S100000x64, a⟩, ⟨S100000x64, b⟩] concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)),
    binary main_v127 main_arg12 main_v128 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg13 main_v129 (broadcastInDim S1x64 ![1] bcast_S64_S1x64_1 : (⟨S64, .f32⟩ : BufTy).Contents (Elt F) → (⟨S1x64, .f32⟩ : BufTy).Contents (Elt F)),
    unary main_v129 main_v130 (broadcastInDim S100000x64 ![0, 1] bcast_S1x64_S100000x64_0_1 : (⟨S1x64, .f32⟩ : BufTy).Contents (Elt F) → (⟨S100000x64, .f32⟩ : BufTy).Contents (Elt F)),
    binary main_v128 main_v130 main_v131 (addf : (⟨S100000x64, .f32⟩ : BufTy).Contents (Elt F) → (⟨S100000x64, .f32⟩ : BufTy).Contents (Elt F) → (⟨S100000x64, .f32⟩ : BufTy).Contents (Elt F)),
    unary main_v131 main_v132 (Host.tanh : (⟨S100000x64, .f32⟩ : BufTy).Contents (Elt F) → (⟨S100000x64, .f32⟩ : BufTy).Contents (Elt F)),
    binary main_v115 main_arg3 main_v133 (mulf : (⟨S100000x64, .f32⟩ : BufTy).Contents (Elt F) → (⟨S100000x64, .f32⟩ : BufTy).Contents (Elt F) → (⟨S100000x64, .f32⟩ : BufTy).Contents (Elt F)),
    nullary main_cst_26 (constant S_ .f32 0x3F800000#32),
    unary main_cst_26 main_v134 (broadcastInDim S100000x64 ![] bcast_S_S100000x64 : (⟨S_, .f32⟩ : BufTy).Contents (Elt F) → (⟨S100000x64, .f32⟩ : BufTy).Contents (Elt F)),
    binary main_v134 main_v115 main_v135 (subf : (⟨S100000x64, .f32⟩ : BufTy).Contents (Elt F) → (⟨S100000x64, .f32⟩ : BufTy).Contents (Elt F) → (⟨S100000x64, .f32⟩ : BufTy).Contents (Elt F)),
    binary main_v135 main_v132 main_v136 (mulf : (⟨S100000x64, .f32⟩ : BufTy).Contents (Elt F) → (⟨S100000x64, .f32⟩ : BufTy).Contents (Elt F) → (⟨S100000x64, .f32⟩ : BufTy).Contents (Elt F)),
    binary main_v133 main_v136 main_v137 (addf : (⟨S100000x64, .f32⟩ : BufTy).Contents (Elt F) → (⟨S100000x64, .f32⟩ : BufTy).Contents (Elt F) → (⟨S100000x64, .f32⟩ : BufTy).Contents (Elt F)) ]
set_option maxRecDepth 8192 in
theorem seg5_sub : (seg5 : List (HloOp τ sig (Elt F))).Forall fun op => op.bufs ⊆ tcRefs τ sig :=
  ⟨binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., binary_bufs_sub .., unary_bufs_sub .., unary_bufs_sub .., binary_bufs_sub .., unary_bufs_sub .., binary_bufs_sub .., nullary_bufs_sub .., unary_bufs_sub .., binary_bufs_sub .., binary_bufs_sub .., binary_bufs_sub ..⟩
theorem seg5_fresh : (seg5 : List (HloOp τ sig (Elt F))).Forall fun op => op.fresh = ∅ := by
  simp only [List.Forall]; repeat' constructor

/-- The whole line. -/
abbrev line : List (HloOp τ sig (Elt F)) := seg1 ++ (seg2 ++ (seg3 ++ (seg4 ++ seg5)))

set_option maxRecDepth 8192 in
set_option maxHeartbeats 4000000 in
theorem main_eq (c : Dev nD) : main (F := F) c = seq line := rfl

theorem scopedRefs_eq : (Finset.univ.filter fun b : Ref sig .tc => b.isScoped) = ∅ := by decide
theorem scopedSems_eq : (Finset.univ.filter fun sm : SemLoc sig => sm.isScoped .tc) = ∅ := by decide

theorem forall_append {α : Type} {p : α → Prop} {l₁ l₂ : List α} (h₁ : l₁.Forall p) (h₂ : l₂.Forall p) :
    (l₁ ++ l₂).Forall p :=
  List.forall_iff_forall_mem.mpr fun x hx =>
    (List.mem_append.mp hx).elim (List.forall_iff_forall_mem.mp h₁ x) (List.forall_iff_forall_mem.mp h₂ x)

theorem line_sub : (line : List (HloOp τ sig (Elt F))).Forall fun op => op.bufs ⊆ tcRefs τ sig :=
  forall_append seg1_sub (forall_append seg2_sub (forall_append seg3_sub (forall_append seg4_sub seg5_sub)))

theorem line_fresh : (line : List (HloOp τ sig (Elt F))).Forall fun op => op.fresh = ∅ :=
  forall_append seg1_fresh (forall_append seg2_fresh (forall_append seg3_fresh (forall_append seg4_fresh seg5_fresh)))

/-- What the five pieces leave, one after the other. -/
def ends (V : Valuation τ sig (Elt F)) : Valuation τ sig (Elt F) :=
  after seg5 (after seg4 (after seg3 (after seg2 (after seg1 V))))

theorem after_line (V : Valuation τ sig (Elt F)) : after line V = ends V := by
  unfold ends
  rw [show (line : List (HloOp τ sig (Elt F))) = seg1 ++ (seg2 ++ (seg3 ++ (seg4 ++ seg5))) from rfl,
    RegionOp.after_append, RegionOp.after_append, RegionOp.after_append, RegionOp.after_append]

/-- Every weakly fair execution ends, nothing faulting, with every buffer at what the five pieces leave there. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = ends (launchContents m c) (Proc.devRef .tc b) :=
  (θ_run defs _ _).mono (fun _ h c b => (h c b).trans (congrFun (after_line (launchContents m c)) (Proc.devRef .tc b)))
    (run_seq scopedRefs_eq scopedSems_eq defs main (fun _ => line) main_eq (fun _ => line_sub) m ρ
      (fun _ op hop => (List.forall_iff_forall_mem.mp line_fresh) op hop))

end Cert.RefLine

end
-- ==== Proof.RefEval.lean ====
/-
  The jnp program's result, piece by piece.

  Over any contents Y at a piece's start: the first layer's piece leaves max(agg(G·W1) + b1, 0) of the normalisation,
  index vectors and arguments it finds; the second layer's piece leaves σ(agg(G1·W2) + b2); the last piece leaves the
  gated update of the graph features, the hidden state, the weights and the biases.  The first and the third piece each
  compute the normalisation and the index vectors from the same two arguments.  No piece writes an argument.  Put together: the result buffer ends holding the gated update of the
  two-layer graph convolution of the arguments.
-/
import proofs.«177768_j5437428597509_1_alg».proof.Proof.RefRun
import proofs.«177768_j5437428597509_1_alg».proof.Proof.Agg
import proofs.«177768_j5437428597509_1_alg».proof.Proof.LibLineEval

set_option maxRecDepth 16384

noncomputable section

namespace Cert.RefLine

open Cert.ReferenceIdeal Cert.ReferenceIdeal.Gen Idealize.ShloMosaic Idealize.ShloMosaic.TcCoe Idealize.SL.Sem Idealize.ShloMosaic.StableHlo
open Cert.GraphGate (Mat Sq Tall Vec64 Row EdgeF EdgeI lin biasRelu biasSigm asRow agg layer1 layer2 cell norm rows cols)

variable (Y : Valuation τ sig (Elt Ideal))

/-! ## What each piece leaves in the buffer the next one reads -/

/-- The first layer. -/
theorem seg2_v49 : after seg2 Y (Proc.devRef .tc main_v49)
    = layer1 (Y (Proc.devRef .tc main_v31)) (Y (Proc.devRef .tc main_v5)) (Y (Proc.devRef .tc main_v6)) (Y (Proc.devRef .tc main_arg0)) (Y (Proc.devRef .tc main_arg4)) (Y (Proc.devRef .tc main_arg5)) := by
  simp (disch := decide) only [seg2, after_cons, after_nil,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', reshape_result']
  rfl

/-- The second layer. -/
theorem seg4_v104 : after seg4 Y (Proc.devRef .tc main_v104)
    = layer2 (Y (Proc.devRef .tc main_v81)) (Y (Proc.devRef .tc main_v55)) (Y (Proc.devRef .tc main_v56)) (Y (Proc.devRef .tc main_v49)) (Y (Proc.devRef .tc main_arg6)) (Y (Proc.devRef .tc main_arg7)) := by
  simp (disch := decide) only [seg4, after_cons, after_nil,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', reshape_result']
  rfl

/-- The gated update. -/
theorem seg5_v137 : after seg5 Y (Proc.devRef .tc main_v137)
    = cell (Y (Proc.devRef .tc main_v104)) (Y (Proc.devRef .tc main_arg3)) (Y (Proc.devRef .tc main_arg8)) (Y (Proc.devRef .tc main_arg9)) (Y (Proc.devRef .tc main_arg10)) (Y (Proc.devRef .tc main_arg11)) (Y (Proc.devRef .tc main_arg12)) (Y (Proc.devRef .tc main_arg13)) := by
  simp (disch := decide) only [seg5, after_cons, after_nil,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', reshape_result']
  rfl

/-! ## The normalisation and the index vectors, computed twice -/

theorem seg1_v31 : after seg1 Y (Proc.devRef .tc main_v31) = norm (Y (Proc.devRef .tc main_arg1)) (Y (Proc.devRef .tc main_arg2)) := by
  simp (disch := decide) only [seg1, after_cons, after_nil,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', reshape_result', LineEval.joined_eq]
  rfl
theorem seg1_v5 : after seg1 Y (Proc.devRef .tc main_v5) = rows (Y (Proc.devRef .tc main_arg1)) := by
  simp (disch := decide) only [seg1, after_cons, after_nil,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', reshape_result', LineEval.joined_eq]
  rfl
theorem seg1_v6 : after seg1 Y (Proc.devRef .tc main_v6) = cols (Y (Proc.devRef .tc main_arg1)) := by
  simp (disch := decide) only [seg1, after_cons, after_nil,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', reshape_result', LineEval.joined_eq]
  rfl
theorem seg3_v81 : after seg3 Y (Proc.devRef .tc main_v81) = norm (Y (Proc.devRef .tc main_arg1)) (Y (Proc.devRef .tc main_arg2)) := by
  simp (disch := decide) only [seg3, after_cons, after_nil,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', reshape_result', LineEval.joined_eq]
  rfl
theorem seg3_v55 : after seg3 Y (Proc.devRef .tc main_v55) = rows (Y (Proc.devRef .tc main_arg1)) := by
  simp (disch := decide) only [seg3, after_cons, after_nil,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', reshape_result', LineEval.joined_eq]
  rfl
theorem seg3_v56 : after seg3 Y (Proc.devRef .tc main_v56) = cols (Y (Proc.devRef .tc main_arg1)) := by
  simp (disch := decide) only [seg3, after_cons, after_nil,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', reshape_result', LineEval.joined_eq]
  rfl

/-! ## No piece writes an argument (nor the third the first layer's output) -/

theorem keep1_arg0 : after seg1 Y (Proc.devRef .tc main_arg0) = Y (Proc.devRef .tc main_arg0) := by
  simp (disch := decide) only [seg1, after_cons, after_nil,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', reshape_result']
theorem keep1_arg1 : after seg1 Y (Proc.devRef .tc main_arg1) = Y (Proc.devRef .tc main_arg1) := by
  simp (disch := decide) only [seg1, after_cons, after_nil,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', reshape_result']
theorem keep1_arg2 : after seg1 Y (Proc.devRef .tc main_arg2) = Y (Proc.devRef .tc main_arg2) := by
  simp (disch := decide) only [seg1, after_cons, after_nil,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', reshape_result']
theorem keep1_arg3 : after seg1 Y (Proc.devRef .tc main_arg3) = Y (Proc.devRef .tc main_arg3) := by
  simp (disch := decide) only [seg1, after_cons, after_nil,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', reshape_result']
theorem keep1_arg4 : after seg1 Y (Proc.devRef .tc main_arg4) = Y (Proc.devRef .tc main_arg4) := by
  simp (disch := decide) only [seg1, after_cons, after_nil,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', reshape_result']
theorem keep1_arg5 : after seg1 Y (Proc.devRef .tc main_arg5) = Y (Proc.devRef .tc main_arg5) := by
  simp (disch := decide) only [seg1, after_cons, after_nil,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', reshape_result']
theorem keep1_arg6 : after seg1 Y (Proc.devRef .tc main_arg6) = Y (Proc.devRef .tc main_arg6) := by
  simp (disch := decide) only [seg1, after_cons, after_nil,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', reshape_result']
theorem keep1_arg7 : after seg1 Y (Proc.devRef .tc main_arg7) = Y (Proc.devRef .tc main_arg7) := by
  simp (disch := decide) only [seg1, after_cons, after_nil,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', reshape_result']
theorem keep1_arg8 : after seg1 Y (Proc.devRef .tc main_arg8) = Y (Proc.devRef .tc main_arg8) := by
  simp (disch := decide) only [seg1, after_cons, after_nil,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', reshape_result']
theorem keep1_arg9 : after seg1 Y (Proc.devRef .tc main_arg9) = Y (Proc.devRef .tc main_arg9) := by
  simp (disch := decide) only [seg1, after_cons, after_nil,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', reshape_result']
theorem keep1_arg10 : after seg1 Y (Proc.devRef .tc main_arg10) = Y (Proc.devRef .tc main_arg10) := by
  simp (disch := decide) only [seg1, after_cons, after_nil,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', reshape_result']
theorem keep1_arg11 : after seg1 Y (Proc.devRef .tc main_arg11) = Y (Proc.devRef .tc main_arg11) := by
  simp (disch := decide) only [seg1, after_cons, after_nil,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', reshape_result']
theorem keep1_arg12 : after seg1 Y (Proc.devRef .tc main_arg12) = Y (Proc.devRef .tc main_arg12) := by
  simp (disch := decide) only [seg1, after_cons, after_nil,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', reshape_result']
theorem keep1_arg13 : after seg1 Y (Proc.devRef .tc main_arg13) = Y (Proc.devRef .tc main_arg13) := by
  simp (disch := decide) only [seg1, after_cons, after_nil,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', reshape_result']
theorem keep2_arg1 : after seg2 Y (Proc.devRef .tc main_arg1) = Y (Proc.devRef .tc main_arg1) := by
  simp (disch := decide) only [seg2, after_cons, after_nil,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', reshape_result']
theorem keep2_arg2 : after seg2 Y (Proc.devRef .tc main_arg2) = Y (Proc.devRef .tc main_arg2) := by
  simp (disch := decide) only [seg2, after_cons, after_nil,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', reshape_result']
theorem keep2_arg3 : after seg2 Y (Proc.devRef .tc main_arg3) = Y (Proc.devRef .tc main_arg3) := by
  simp (disch := decide) only [seg2, after_cons, after_nil,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', reshape_result']
theorem keep2_arg6 : after seg2 Y (Proc.devRef .tc main_arg6) = Y (Proc.devRef .tc main_arg6) := by
  simp (disch := decide) only [seg2, after_cons, after_nil,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', reshape_result']
theorem keep2_arg7 : after seg2 Y (Proc.devRef .tc main_arg7) = Y (Proc.devRef .tc main_arg7) := by
  simp (disch := decide) only [seg2, after_cons, after_nil,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', reshape_result']
theorem keep2_arg8 : after seg2 Y (Proc.devRef .tc main_arg8) = Y (Proc.devRef .tc main_arg8) := by
  simp (disch := decide) only [seg2, after_cons, after_nil,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', reshape_result']
theorem keep2_arg9 : after seg2 Y (Proc.devRef .tc main_arg9) = Y (Proc.devRef .tc main_arg9) := by
  simp (disch := decide) only [seg2, after_cons, after_nil,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', reshape_result']
theorem keep2_arg10 : after seg2 Y (Proc.devRef .tc main_arg10) = Y (Proc.devRef .tc main_arg10) := by
  simp (disch := decide) only [seg2, after_cons, after_nil,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', reshape_result']
theorem keep2_arg11 : after seg2 Y (Proc.devRef .tc main_arg11) = Y (Proc.devRef .tc main_arg11) := by
  simp (disch := decide) only [seg2, after_cons, after_nil,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', reshape_result']
theorem keep2_arg12 : after seg2 Y (Proc.devRef .tc main_arg12) = Y (Proc.devRef .tc main_arg12) := by
  simp (disch := decide) only [seg2, after_cons, after_nil,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', reshape_result']
theorem keep2_arg13 : after seg2 Y (Proc.devRef .tc main_arg13) = Y (Proc.devRef .tc main_arg13) := by
  simp (disch := decide) only [seg2, after_cons, after_nil,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', reshape_result']
theorem keep3_v49 : after seg3 Y (Proc.devRef .tc main_v49) = Y (Proc.devRef .tc main_v49) := by
  simp (disch := decide) only [seg3, after_cons, after_nil,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', reshape_result']
theorem keep3_arg3 : after seg3 Y (Proc.devRef .tc main_arg3) = Y (Proc.devRef .tc main_arg3) := by
  simp (disch := decide) only [seg3, after_cons, after_nil,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', reshape_result']
theorem keep3_arg6 : after seg3 Y (Proc.devRef .tc main_arg6) = Y (Proc.devRef .tc main_arg6) := by
  simp (disch := decide) only [seg3, after_cons, after_nil,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', reshape_result']
theorem keep3_arg7 : after seg3 Y (Proc.devRef .tc main_arg7) = Y (Proc.devRef .tc main_arg7) := by
  simp (disch := decide) only [seg3, after_cons, after_nil,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', reshape_result']
theorem keep3_arg8 : after seg3 Y (Proc.devRef .tc main_arg8) = Y (Proc.devRef .tc main_arg8) := by
  simp (disch := decide) only [seg3, after_cons, after_nil,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', reshape_result']
theorem keep3_arg9 : after seg3 Y (Proc.devRef .tc main_arg9) = Y (Proc.devRef .tc main_arg9) := by
  simp (disch := decide) only [seg3, after_cons, after_nil,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', reshape_result']
theorem keep3_arg10 : after seg3 Y (Proc.devRef .tc main_arg10) = Y (Proc.devRef .tc main_arg10) := by
  simp (disch := decide) only [seg3, after_cons, after_nil,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', reshape_result']
theorem keep3_arg11 : after seg3 Y (Proc.devRef .tc main_arg11) = Y (Proc.devRef .tc main_arg11) := by
  simp (disch := decide) only [seg3, after_cons, after_nil,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', reshape_result']
theorem keep3_arg12 : after seg3 Y (Proc.devRef .tc main_arg12) = Y (Proc.devRef .tc main_arg12) := by
  simp (disch := decide) only [seg3, after_cons, after_nil,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', reshape_result']
theorem keep3_arg13 : after seg3 Y (Proc.devRef .tc main_arg13) = Y (Proc.devRef .tc main_arg13) := by
  simp (disch := decide) only [seg3, after_cons, after_nil,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', reshape_result']
theorem keep4_arg3 : after seg4 Y (Proc.devRef .tc main_arg3) = Y (Proc.devRef .tc main_arg3) := by
  simp (disch := decide) only [seg4, after_cons, after_nil,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', reshape_result']
theorem keep4_arg8 : after seg4 Y (Proc.devRef .tc main_arg8) = Y (Proc.devRef .tc main_arg8) := by
  simp (disch := decide) only [seg4, after_cons, after_nil,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', reshape_result']
theorem keep4_arg9 : after seg4 Y (Proc.devRef .tc main_arg9) = Y (Proc.devRef .tc main_arg9) := by
  simp (disch := decide) only [seg4, after_cons, after_nil,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', reshape_result']
theorem keep4_arg10 : after seg4 Y (Proc.devRef .tc main_arg10) = Y (Proc.devRef .tc main_arg10) := by
  simp (disch := decide) only [seg4, after_cons, after_nil,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', reshape_result']
theorem keep4_arg11 : after seg4 Y (Proc.devRef .tc main_arg11) = Y (Proc.devRef .tc main_arg11) := by
  simp (disch := decide) only [seg4, after_cons, after_nil,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', reshape_result']
theorem keep4_arg12 : after seg4 Y (Proc.devRef .tc main_arg12) = Y (Proc.devRef .tc main_arg12) := by
  simp (disch := decide) only [seg4, after_cons, after_nil,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', reshape_result']
theorem keep4_arg13 : after seg4 Y (Proc.devRef .tc main_arg13) = Y (Proc.devRef .tc main_arg13) := by
  simp (disch := decide) only [seg4, after_cons, after_nil,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', reshape_result']

/-! ## The result -/

/-- The result buffer ends holding the gated update of the two-layer graph convolution of the arguments. -/
theorem ends_v137 (V : Valuation τ sig (Elt Ideal)) : ends V (Proc.devRef .tc main_v137)
    = cell (layer2 (norm (V (Proc.devRef .tc main_arg1)) (V (Proc.devRef .tc main_arg2))) (rows (V (Proc.devRef .tc main_arg1))) (cols (V (Proc.devRef .tc main_arg1)))
        (layer1 (norm (V (Proc.devRef .tc main_arg1)) (V (Proc.devRef .tc main_arg2))) (rows (V (Proc.devRef .tc main_arg1))) (cols (V (Proc.devRef .tc main_arg1)))
          (V (Proc.devRef .tc main_arg0)) (V (Proc.devRef .tc main_arg4)) (V (Proc.devRef .tc main_arg5)))
        (V (Proc.devRef .tc main_arg6)) (V (Proc.devRef .tc main_arg7)))
      (V (Proc.devRef .tc main_arg3)) (V (Proc.devRef .tc main_arg8)) (V (Proc.devRef .tc main_arg9)) (V (Proc.devRef .tc main_arg10)) (V (Proc.devRef .tc main_arg11)) (V (Proc.devRef .tc main_arg12)) (V (Proc.devRef .tc main_arg13)) := by
  unfold ends
  rw [seg5_v137, seg4_v104, keep4_arg3, keep4_arg8, keep4_arg9, keep4_arg10, keep4_arg11, keep4_arg12, keep4_arg13,
    seg3_v81, seg3_v55, seg3_v56, keep3_v49, keep3_arg3, keep3_arg6, keep3_arg7, keep3_arg8, keep3_arg9, keep3_arg10, keep3_arg11, keep3_arg12, keep3_arg13,
    seg2_v49, keep2_arg1, keep2_arg2, keep2_arg3, keep2_arg6, keep2_arg7, keep2_arg8, keep2_arg9, keep2_arg10, keep2_arg11, keep2_arg12, keep2_arg13,
    seg1_v31, seg1_v5, seg1_v6, keep1_arg0, keep1_arg1, keep1_arg2, keep1_arg3, keep1_arg4, keep1_arg5, keep1_arg6, keep1_arg7, keep1_arg8, keep1_arg9, keep1_arg10, keep1_arg11, keep1_arg12, keep1_arg13]

/-! ## The arguments end as launched -/

set_option maxHeartbeats 1000000 in
theorem ends_arg0 (V : Valuation τ sig (Elt Ideal)) : ends V (Proc.devRef .tc main_arg0) = V (Proc.devRef .tc main_arg0) := by
  unfold ends
  simp (disch := decide) only [seg5, seg4, seg3, seg2, seg1, after_cons, after_nil,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', reshape_result']
set_option maxHeartbeats 1000000 in
theorem ends_arg1 (V : Valuation τ sig (Elt Ideal)) : ends V (Proc.devRef .tc main_arg1) = V (Proc.devRef .tc main_arg1) := by
  unfold ends
  simp (disch := decide) only [seg5, seg4, seg3, seg2, seg1, after_cons, after_nil,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', reshape_result']
set_option maxHeartbeats 1000000 in
theorem ends_arg2 (V : Valuation τ sig (Elt Ideal)) : ends V (Proc.devRef .tc main_arg2) = V (Proc.devRef .tc main_arg2) := by
  unfold ends
  simp (disch := decide) only [seg5, seg4, seg3, seg2, seg1, after_cons, after_nil,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', reshape_result']
set_option maxHeartbeats 1000000 in
theorem ends_arg3 (V : Valuation τ sig (Elt Ideal)) : ends V (Proc.devRef .tc main_arg3) = V (Proc.devRef .tc main_arg3) := by
  unfold ends
  simp (disch := decide) only [seg5, seg4, seg3, seg2, seg1, after_cons, after_nil,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', reshape_result']
set_option maxHeartbeats 1000000 in
theorem ends_arg4 (V : Valuation τ sig (Elt Ideal)) : ends V (Proc.devRef .tc main_arg4) = V (Proc.devRef .tc main_arg4) := by
  unfold ends
  simp (disch := decide) only [seg5, seg4, seg3, seg2, seg1, after_cons, after_nil,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', reshape_result']
set_option maxHeartbeats 1000000 in
theorem ends_arg5 (V : Valuation τ sig (Elt Ideal)) : ends V (Proc.devRef .tc main_arg5) = V (Proc.devRef .tc main_arg5) := by
  unfold ends
  simp (disch := decide) only [seg5, seg4, seg3, seg2, seg1, after_cons, after_nil,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', reshape_result']
set_option maxHeartbeats 1000000 in
theorem ends_arg6 (V : Valuation τ sig (Elt Ideal)) : ends V (Proc.devRef .tc main_arg6) = V (Proc.devRef .tc main_arg6) := by
  unfold ends
  simp (disch := decide) only [seg5, seg4, seg3, seg2, seg1, after_cons, after_nil,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', reshape_result']
set_option maxHeartbeats 1000000 in
theorem ends_arg7 (V : Valuation τ sig (Elt Ideal)) : ends V (Proc.devRef .tc main_arg7) = V (Proc.devRef .tc main_arg7) := by
  unfold ends
  simp (disch := decide) only [seg5, seg4, seg3, seg2, seg1, after_cons, after_nil,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', reshape_result']
set_option maxHeartbeats 1000000 in
theorem ends_arg8 (V : Valuation τ sig (Elt Ideal)) : ends V (Proc.devRef .tc main_arg8) = V (Proc.devRef .tc main_arg8) := by
  unfold ends
  simp (disch := decide) only [seg5, seg4, seg3, seg2, seg1, after_cons, after_nil,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', reshape_result']
set_option maxHeartbeats 1000000 in
theorem ends_arg9 (V : Valuation τ sig (Elt Ideal)) : ends V (Proc.devRef .tc main_arg9) = V (Proc.devRef .tc main_arg9) := by
  unfold ends
  simp (disch := decide) only [seg5, seg4, seg3, seg2, seg1, after_cons, after_nil,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', reshape_result']
set_option maxHeartbeats 1000000 in
theorem ends_arg10 (V : Valuation τ sig (Elt Ideal)) : ends V (Proc.devRef .tc main_arg10) = V (Proc.devRef .tc main_arg10) := by
  unfold ends
  simp (disch := decide) only [seg5, seg4, seg3, seg2, seg1, after_cons, after_nil,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', reshape_result']
set_option maxHeartbeats 1000000 in
theorem ends_arg11 (V : Valuation τ sig (Elt Ideal)) : ends V (Proc.devRef .tc main_arg11) = V (Proc.devRef .tc main_arg11) := by
  unfold ends
  simp (disch := decide) only [seg5, seg4, seg3, seg2, seg1, after_cons, after_nil,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', reshape_result']
set_option maxHeartbeats 1000000 in
theorem ends_arg12 (V : Valuation τ sig (Elt Ideal)) : ends V (Proc.devRef .tc main_arg12) = V (Proc.devRef .tc main_arg12) := by
  unfold ends
  simp (disch := decide) only [seg5, seg4, seg3, seg2, seg1, after_cons, after_nil,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', reshape_result']
set_option maxHeartbeats 1000000 in
theorem ends_arg13 (V : Valuation τ sig (Elt Ideal)) : ends V (Proc.devRef .tc main_arg13) = V (Proc.devRef .tc main_arg13) := by
  unfold ends
  simp (disch := decide) only [seg5, seg4, seg3, seg2, seg1, after_cons, after_nil,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', reshape_result']

end Cert.RefLine

end
-- ==== Proof.lean ====
/-
  A two-layer graph convolution followed by a gated update of a hidden state: the kernel program against the jnp program.

  Both programs take node features X (100000 × 64), an edge list with weights, a hidden state H, two layer weights
  with biases and three 128 × 64 gate weights with biases.  Both compute the symmetric edge normalisation, then twice
      G ← act( scatter-add over edges of norm · (G·W)[source] + b ),   act = max(·, 0) then σ,
  and last  z = σ([G, H]·Wz + bz),  r = σ([G, H]·Wr + br),  h' = tanh([G, H∘r]·Wh + bh),  out = z∘H + (1 − z)∘h'.
  The kernel program does the two products G·W, the two bias-and-activation passes and the gated update in five
  pipelined regions over blocks of 5000 rows, the products on operands narrowed to bf16 and the gate products split
  into the upper and lower 64 rows of each weight; everything between the regions is the same host operations as in
  the jnp program (which computes the normalisation once per layer, the kernel program once).  At the extended reals
  narrowing changes nothing, a product of joined rows with a 128-row weight is the sum of the two half products (sums
  of extended reals may be regrouped freely), and the kernel's logistic function is the quotient 1 / (1 + e^(−x)) the
  jnp program writes, at the infinities too; so the two results are one function of the arguments, and no finiteness
  of the inputs is used.  Nothing was rewritten by the idealisation, so the preservation claim is trivial.
-/
import proofs.«177768_j5437428597509_1_alg».proof.Defs
import proofs.«177768_j5437428597509_1_alg».proof.Proof.Gen.Kernel
import proofs.«177768_j5437428597509_1_alg».proof.Proof.Gen.Kernel.Frame
import proofs.«177768_j5437428597509_1_alg».proof.Proof.Gen.KernelIdeal
import proofs.«177768_j5437428597509_1_alg».proof.Proof.Gen.KernelIdeal.Frame
import proofs.«177768_j5437428597509_1_alg».proof.Proof.Gen.ReferenceIdeal
import proofs.«177768_j5437428597509_1_alg».proof.Proof.Gen.Pre_finite_inputs
import proofs.«177768_j5437428597509_1_alg».proof.Proof.KRun
import proofs.«177768_j5437428597509_1_alg».proof.Proof.Fold
import proofs.«177768_j5437428597509_1_alg».proof.Proof.RefEval
import Idealize.ShloMosaic.Adequacy
import Idealize.ShloMosaic.Init

noncomputable section

namespace Cert.Proof

open Idealize.ShloMosaic Idealize.ShloMosaic.TcCoe Idealize.ShloMosaic.StableHlo Idealize.SL.Sem

theorem frame_k : Cert.frame_Kernel := fun m ρ _ => Cert.Kernel.Gen.frame m ρ

theorem frame_ki : Cert.frame_KernelIdeal := fun m ρ _ => Cert.KernelIdeal.Gen.frame m ρ

/-- The jnp program runs to its end and writes none of its arguments. -/
theorem frame_ri : Cert.frame_ReferenceIdeal := fun m ρ _ =>
  (θ_run Cert.ReferenceIdeal.defs _ _).mono (fun _ h c =>
    ⟨(h c Cert.ReferenceIdeal.main_arg0).trans (Cert.RefLine.ends_arg0 (launchContents m c)),
     (h c Cert.ReferenceIdeal.main_arg1).trans (Cert.RefLine.ends_arg1 (launchContents m c)),
     (h c Cert.ReferenceIdeal.main_arg2).trans (Cert.RefLine.ends_arg2 (launchContents m c)),
     (h c Cert.ReferenceIdeal.main_arg3).trans (Cert.RefLine.ends_arg3 (launchContents m c)),
     (h c Cert.ReferenceIdeal.main_arg4).trans (Cert.RefLine.ends_arg4 (launchContents m c)),
     (h c Cert.ReferenceIdeal.main_arg5).trans (Cert.RefLine.ends_arg5 (launchContents m c)),
     (h c Cert.ReferenceIdeal.main_arg6).trans (Cert.RefLine.ends_arg6 (launchContents m c)),
     (h c Cert.ReferenceIdeal.main_arg7).trans (Cert.RefLine.ends_arg7 (launchContents m c)),
     (h c Cert.ReferenceIdeal.main_arg8).trans (Cert.RefLine.ends_arg8 (launchContents m c)),
     (h c Cert.ReferenceIdeal.main_arg9).trans (Cert.RefLine.ends_arg9 (launchContents m c)),
     (h c Cert.ReferenceIdeal.main_arg10).trans (Cert.RefLine.ends_arg10 (launchContents m c)),
     (h c Cert.ReferenceIdeal.main_arg11).trans (Cert.RefLine.ends_arg11 (launchContents m c)),
     (h c Cert.ReferenceIdeal.main_arg12).trans (Cert.RefLine.ends_arg12 (launchContents m c)),
     (h c Cert.ReferenceIdeal.main_arg13).trans (Cert.RefLine.ends_arg13 (launchContents m c))⟩)
    (Cert.RefLine.run (F := Ideal) m ρ)

/-- Both programs end with the gated update of the two-layer graph convolution of the arguments in their result. -/
theorem algebraic : Cert.algebraic_KernelIdeal_ReferenceIdeal := by
  intro m ρ m' ρ' _ hagree
  refine ⟨fun c => Cert.KernelIdeal.Gen.W11 m ρ c (Proc.devRef .tc Cert.KernelIdeal.main_v73),
    Cert.KernelIdeal.Named.run_named (F := Ideal) m ρ, ?_⟩
  refine (θ_run Cert.ReferenceIdeal.defs _ _).mono (fun _ h c => ?_) (Cert.RefLine.run (F := Ideal) m' ρ')
  refine ⟨(h c Cert.ReferenceIdeal.main_v137).trans ?_,
    (h c Cert.ReferenceIdeal.main_arg0).trans (Cert.RefLine.ends_arg0 (launchContents m' c)),
    (h c Cert.ReferenceIdeal.main_arg1).trans (Cert.RefLine.ends_arg1 (launchContents m' c)),
    (h c Cert.ReferenceIdeal.main_arg2).trans (Cert.RefLine.ends_arg2 (launchContents m' c)),
    (h c Cert.ReferenceIdeal.main_arg3).trans (Cert.RefLine.ends_arg3 (launchContents m' c)),
    (h c Cert.ReferenceIdeal.main_arg4).trans (Cert.RefLine.ends_arg4 (launchContents m' c)),
    (h c Cert.ReferenceIdeal.main_arg5).trans (Cert.RefLine.ends_arg5 (launchContents m' c)),
    (h c Cert.ReferenceIdeal.main_arg6).trans (Cert.RefLine.ends_arg6 (launchContents m' c)),
    (h c Cert.ReferenceIdeal.main_arg7).trans (Cert.RefLine.ends_arg7 (launchContents m' c)),
    (h c Cert.ReferenceIdeal.main_arg8).trans (Cert.RefLine.ends_arg8 (launchContents m' c)),
    (h c Cert.ReferenceIdeal.main_arg9).trans (Cert.RefLine.ends_arg9 (launchContents m' c)),
    (h c Cert.ReferenceIdeal.main_arg10).trans (Cert.RefLine.ends_arg10 (launchContents m' c)),
    (h c Cert.ReferenceIdeal.main_arg11).trans (Cert.RefLine.ends_arg11 (launchContents m' c)),
    (h c Cert.ReferenceIdeal.main_arg12).trans (Cert.RefLine.ends_arg12 (launchContents m' c)),
    (h c Cert.ReferenceIdeal.main_arg13).trans (Cert.RefLine.ends_arg13 (launchContents m' c))⟩
  rw [Cert.RefLine.ends_v137 (launchContents m' c)]
  show Cert.GraphGate.cell _ _ _ _ _ _ _ _ = _
  rw [show launchContents m' c (Proc.devRef .tc Cert.ReferenceIdeal.main_arg0) = m ((c.tc : Thread Cert.KernelIdeal.nD Cert.KernelIdeal.τ).loc Cert.KernelIdeal.main_arg0) from (hagree c).1,
    show launchContents m' c (Proc.devRef .tc Cert.ReferenceIdeal.main_arg1) = m ((c.tc : Thread Cert.KernelIdeal.nD Cert.KernelIdeal.τ).loc Cert.KernelIdeal.main_arg1) from (hagree c).2.1,
    show launchContents m' c (Proc.devRef .tc Cert.ReferenceIdeal.main_arg2) = m ((c.tc : Thread Cert.KernelIdeal.nD Cert.KernelIdeal.τ).loc Cert.KernelIdeal.main_arg2) from (hagree c).2.2.1,
    show launchContents m' c (Proc.devRef .tc Cert.ReferenceIdeal.main_arg3) = m ((c.tc : Thread Cert.KernelIdeal.nD Cert.KernelIdeal.τ).loc Cert.KernelIdeal.main_arg3) from (hagree c).2.2.2.1,
    show launchContents m' c (Proc.devRef .tc Cert.ReferenceIdeal.main_arg4) = m ((c.tc : Thread Cert.KernelIdeal.nD Cert.KernelIdeal.τ).loc Cert.KernelIdeal.main_arg4) from (hagree c).2.2.2.2.1,
    show launchContents m' c (Proc.devRef .tc Cert.ReferenceIdeal.main_arg5) = m ((c.tc : Thread Cert.KernelIdeal.nD Cert.KernelIdeal.τ).loc Cert.KernelIdeal.main_arg5) from (hagree c).2.2.2.2.2.1,
    show launchContents m' c (Proc.devRef .tc Cert.ReferenceIdeal.main_arg6) = m ((c.tc : Thread Cert.KernelIdeal.nD Cert.KernelIdeal.τ).loc Cert.KernelIdeal.main_arg6) from (hagree c).2.2.2.2.2.2.1,
    show launchContents m' c (Proc.devRef .tc Cert.ReferenceIdeal.main_arg7) = m ((c.tc : Thread Cert.KernelIdeal.nD Cert.KernelIdeal.τ).loc Cert.KernelIdeal.main_arg7) from (hagree c).2.2.2.2.2.2.2.1,
    show launchContents m' c (Proc.devRef .tc Cert.ReferenceIdeal.main_arg8) = m ((c.tc : Thread Cert.KernelIdeal.nD Cert.KernelIdeal.τ).loc Cert.KernelIdeal.main_arg8) from (hagree c).2.2.2.2.2.2.2.2.1,
    show launchContents m' c (Proc.devRef .tc Cert.ReferenceIdeal.main_arg9) = m ((c.tc : Thread Cert.KernelIdeal.nD Cert.KernelIdeal.τ).loc Cert.KernelIdeal.main_arg9) from (hagree c).2.2.2.2.2.2.2.2.2.1,
    show launchContents m' c (Proc.devRef .tc Cert.ReferenceIdeal.main_arg10) = m ((c.tc : Thread Cert.KernelIdeal.nD Cert.KernelIdeal.τ).loc Cert.KernelIdeal.main_arg10) from (hagree c).2.2.2.2.2.2.2.2.2.2.1,
    show launchContents m' c (Proc.devRef .tc Cert.ReferenceIdeal.main_arg11) = m ((c.tc : Thread Cert.KernelIdeal.nD Cert.KernelIdeal.τ).loc Cert.KernelIdeal.main_arg11) from (hagree c).2.2.2.2.2.2.2.2.2.2.2.1,
    show launchContents m' c (Proc.devRef .tc Cert.ReferenceIdeal.main_arg12) = m ((c.tc : Thread Cert.KernelIdeal.nD Cert.KernelIdeal.τ).loc Cert.KernelIdeal.main_arg12) from (hagree c).2.2.2.2.2.2.2.2.2.2.2.2.1,
    show launchContents m' c (Proc.devRef .tc Cert.ReferenceIdeal.main_arg13) = m ((c.tc : Thread Cert.KernelIdeal.nD Cert.KernelIdeal.τ).loc Cert.KernelIdeal.main_arg13) from (hagree c).2.2.2.2.2.2.2.2.2.2.2.2.2]
  exact (Cert.GraphGate.result_eq m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
